-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x128 : Shape := ⟨3, ![128, 64, 128]⟩
abbrev S64x64 : Shape := ⟨2, ![64, 64]⟩
abbrev S128x128 : Shape := ⟨2, ![128, 128]⟩
abbrev S128 : Shape := ⟨1, ![128]⟩
abbrev S_ : Shape := ⟨0, ![]⟩

class Facts : Prop where
  bcast_S_S128x64x128 : S_.BroadcastsInDim S128x64x128 (![] : Fin 0 → Fin S128x64x128.rank)
  reducesTo_S128x64x128_S_d0_1_2 : S128x64x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg1 : IVec S64x64 32) (main_v13 : IVec S_ 1) (main_v15 : IVec S64x64 1) (main_c_5 : IVec S_ 32) : IVec S_ 1 :=
  let main_v16 : IVec S64x64 32 := broadcastInDim S64x64 ![] bcast_S_S64x64 main_c_5
  let main_v17 : IVec S64x64 1 := cmpi .eq main_arg1 main_v16
  let main_v18 : IVec S64x64 1 := ori main_v15 main_v17
  let main_c_6 : IVec S_ 1 := constantI S_ 1 1#1
  let main_v19 : IVec S_ 1 := (fun x v => Host.reduce IntOp.andi x v reducesTo_S64x64_S_d0_1 h_S_) main_v18 main_c_6
  let main_v20 : IVec S_ 1 := andi main_v13 main_v19
  main_v20

def fn {F : FTy → Type} [FloatOps F] (main_arg0 : FVec F S128x64x128 .f32) (main_arg1 : IVec S64x64 32) (main_arg2 : FVec F S128x128 .f32) (main_arg3 : FVec F S128 .f32) : IVec S_ 1 :=
  let main_v0 : FVec F S128x64x128 .f32 := Host.absf main_arg0
  let main_cst : FVec F S_ .f32 := constant S_ .f32 0x7F800000#32
  let main_v1 : FVec F S128x64x128 .f32 := broadcastInDim S128x64x128 ![] bcast_S_S128x64x128 main_cst
  let main_v2 : IVec S128x64x128 1 := cmpf .olt main_v0 main_v1
  let main_c : IVec S_ 1 := constantI S_ 1 1#1
  let main_v3 : IVec S_ 1 := (fun x v => Host.reduce IntOp.andi x v reducesTo_S128x64x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S64x64 32 := broadcastInDim S64x64 ![] bcast_S_S64x64 main_c_4
  let main_v15 : IVec S64x64 1 := cmpi .eq main_arg1 main_v14
  let main_c_5 : IVec S_ 32 := constantI S_ 32 1#32
  fn_part1 (F := F) main_arg1 main_v13 main_v15 main_c_5
-- ==== Kernel.lean ====
abbrev S128x64x128 : Shape := ⟨3, ![128, 64, 128]⟩
abbrev S64x64 : Shape := ⟨2, ![64, 64]⟩
abbrev S128x128 : Shape := ⟨2, ![128, 128]⟩
abbrev S128 : Shape := ⟨1, ![128]⟩
abbrev S1x128 : Shape := ⟨2, ![1, 128]⟩
abbrev S64x64x128 : Shape := ⟨3, ![64, 64, 128]⟩
abbrev S64 : Shape := ⟨1, ![64]⟩
abbrev S64x1 : Shape := ⟨2, ![64, 1]⟩
abbrev S1x64 : Shape := ⟨2, ![1, 64]⟩
abbrev S64x128 : Shape := ⟨2, ![64, 128]⟩
abbrev S4096x128 : Shape := ⟨2, ![4096, 128]⟩
abbrev S32x128x128 : Shape := ⟨3, ![32, 128, 128]⟩
abbrev S1x128x128 : Shape := ⟨3, ![1, 128, 128]⟩
abbrev S1x1x128 : Shape := ⟨3, ![1, 1, 128]⟩

abbrev nBuf : Space → Nat
  | .hbm => 6
  | .vmem => 7
  | .smem => 0
  | _ => 0

abbrev bufTy : (tb : Table) → Fin (tcTables nBuf tb) → BufTy
  | .hbm, ⟨0, _⟩ => ⟨S128x64x128, .f32⟩
  | .hbm, ⟨1, _⟩ => ⟨S64x64, .i32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S128x64x128, .f32⟩
  | .local _ .vmem, ⟨0, _⟩ => ⟨S64x64x128, .f32⟩
  | .local _ .vmem, ⟨1, _⟩ => ⟨S64x64x128, .f32⟩
  | .local _ .vmem, ⟨2, _⟩ => ⟨S64x64, .i32⟩
  | .local _ .vmem, ⟨3, _⟩ => ⟨S128x128, .f32⟩
  | .local _ .vmem, ⟨4, _⟩ => ⟨S1x128, .f32⟩
  | .local _ .vmem, ⟨5, _⟩ => ⟨S64x64x128, .f32⟩
  | .local _ .vmem, ⟨6, _⟩ => ⟨S64x64x128, .f32⟩
  | _, _ => ⟨S128x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S64x64_S64x64_0_0 : ∀ a, (![0, 0] : Fin 2 → Nat) a + S64x64.size a ≤ S64x64.size a
  h_S64x64 : 0 < S64x64.numel
  reduces_S64x64_S64 : S64x64.Reduces [0] S64
  transposes_S64x64_p1_0_S64x64 : S64x64.Transposes [1, 0] S64x64
  iota_S64x64_d0_w32 : S64x64.Iotas .tc 32 [0]
  iota_S64x64_d1_w32 : S64x64.Iotas .tc 32 [1]
  natLt_1_32 : 1 < 32
  shapeCasts_S64_S64x1 : S64.ShapeCasts S64x1
  shapeCasts_S64_S1x64 : S64.ShapeCasts S1x64
  broadcasts_S64x1_S64x64 : S64x1.Broadcasts S64x64
  broadcasts_S1x64_S64x64 : S1x64.Broadcasts S64x64
  bitsLt_bf16_f32 : FTy.bits .bf16 < FTy.bits .f32
  concatenates_S64x64_S64x64_S64x128_d1 : Shape.Concatenates [S64x64, S64x64] S64x128 1
  concatenates_S64x128_S64x128_S128x128_d0 : Shape.Concatenates [S64x128, S64x128] S128x128 0
  inb_S64x64x128_S64x64x128_0_0_0 : ∀ a, (![0, 0, 0] : Fin 3 → Nat) a + S64x64x128.size a ≤ S64x64x128.size a
  h_S64x64x128 : 0 < S64x64x128.numel
  shapeCasts_S64x64x128_S4096x128 : S64x64x128.ShapeCasts S4096x128
  inb_S128x128_S128x128_0_0 : ∀ a, (![0, 0] : Fin 2 → Nat) a + S128x128.size a ≤ S128x128.size a
  h_S128x128 : 0 < S128x128.numel
  shapeCasts_S4096x128_S32x128x128 : S4096x128.ShapeCasts S32x128x128
  shapeCasts_S128x128_S1x128x128 : S128x128.ShapeCasts S1x128x128
  broadcasts_S1x128x128_S32x128x128 : S1x128x128.Broadcasts S32x128x128
  shapeCasts_S32x128x128_S64x64x128 : S32x128x128.ShapeCasts S64x64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S64x64x128 : S1x1x128.Broadcasts S64x64x128
  dot_S4096x128_S128x128_S4096x128_1_0_0_1_n_n_wf : DotDims.WF S4096x128 S128x128 S4096x128 [1] [0] [0] [1] [] []
  dot_S32x128x128_S32x128x128_S32x128x128_2_1_1_2_0_0_wf : DotDims.WF S32x128x128 S32x128x128 S32x128x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S128x64x128.size a
  hwx0_0 : ∀ i : grid0.Coords, EltTy.bits .f32 = 32 ∨ (Rect.block (s := S128x64x128) S64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .i32 = 32 ∨ (Rect.block (s := S64x64) S64x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64x128.size a ≤ S128x64x128.size a
  hwx0_4 : ∀ i : grid0.Coords, EltTy.bits .f32 = 32 ∨ (Rect.block (s := S128x64x128) S64x64x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S32x128x128_S32x128x128_S32x128x128_2_1_1_2_0_0 : DotDims S32x128x128 S32x128x128 S32x128x128 where
  lhsContracting := [2]
  rhsContracting := [1]
  lhsNonContracting := [1]
  rhsNonContracting := [2]
  lhsBatch := [0]
  rhsBatch := [0]
  wf := dot_S32x128x128_S32x128x128_S32x128x128_2_1_1_2_0_0_wf

abbrev win0_0 : Pipeline.Window sig grid0 :=
  Pipeline.Window.ofSpec (Memref.whole main_arg0) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x64x128 : Shape := ⟨3, ![128, 64, 128]⟩
abbrev S64x64 : Shape := ⟨2, ![64, 64]⟩
abbrev S128x128 : Shape := ⟨2, ![128, 128]⟩
abbrev S128 : Shape := ⟨1, ![128]⟩
abbrev S8192x128 : Shape := ⟨2, ![8192, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S128x1 : Shape := ⟨2, ![128, 1]⟩
abbrev S128x4096 : Shape := ⟨2, ![128, 4096]⟩
abbrev S524288 : Shape := ⟨1, ![524288]⟩
abbrev S8192 : Shape := ⟨1, ![8192]⟩
abbrev S532480 : Shape := ⟨1, ![532480]⟩
abbrev S532480x1 : Shape := ⟨2, ![532480, 1]⟩
abbrev S532480x128 : Shape := ⟨2, ![532480, 128]⟩
abbrev S1x128 : Shape := ⟨2, ![1, 128]⟩

abbrev nBuf : Space → Nat
  | .hbm => 234
  | .vmem => 0
  | .smem => 0
  | _ => 0

abbrev hbmTy0_0 (i : Nat) : BufTy := match i % 128 with
  | 0 => ⟨S128x64x128, .f32⟩
  | 1 => ⟨S64x64, .i32⟩
  | 2 => ⟨S128x128, .f32⟩
  | 3 => ⟨S128, .f32⟩
  | 4 => ⟨S8192x128, .f32⟩
  | 5 => ⟨S_, .i32⟩
  | 6 => ⟨S64x64, .i32⟩
  | 7 => ⟨S64x64, .i1⟩
  | 8 => ⟨S4096, .i1⟩
  | 9 => ⟨S4096, .i32⟩
  | 10 => ⟨S_, .i32⟩
  | 11 => ⟨S_, .i32⟩
  | 12 => ⟨S4096, .i32⟩
  | 13 => ⟨S_, .i32⟩
  | 14 => ⟨S4096, .i32⟩
  | 15 => ⟨S_, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S_, .i32⟩
  | 28 => ⟨S4096, .i32⟩
  | 29 => ⟨S4096, .i32⟩
  | 30 => ⟨S_, .i32⟩
  | 31 => ⟨S_, .i32⟩
  | 32 => ⟨S4096, .i32⟩
  | 33 => ⟨S_, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i1⟩
  | 40 => ⟨S4096, .i32⟩
  | 41 => ⟨S4096, .i32⟩
  | 42 => ⟨S_, .i32⟩
  | 43 => ⟨S4096, .i32⟩
  | 44 => ⟨S4096, .i1⟩
  | 45 => ⟨S4096, .i1⟩
  | 46 => ⟨S_, .i32⟩
  | 47 => ⟨S4096, .i32⟩
  | 48 => ⟨S4096, .i32⟩
  | 49 => ⟨S4096, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i1⟩
  | 64 => ⟨S_, .i32⟩
  | 65 => ⟨S_, .i1⟩
  | 66 => ⟨S4096, .i1⟩
  | 67 => ⟨S4096, .i1⟩
  | 68 => ⟨S4096, .i1⟩
  | 69 => ⟨S4096, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096, .i32⟩
  | 76 => ⟨S_, .i32⟩
  | 77 => ⟨S4096, .i32⟩
  | 78 => ⟨S4096, .i1⟩
  | 79 => ⟨S4096, .i32⟩
  | 80 => ⟨S4096, .i32⟩
  | 81 => ⟨S_, .i32⟩
  | 82 => ⟨S4096, .i32⟩
  | 83 => ⟨S4096, .i1⟩
  | 84 => ⟨S4096, .i1⟩
  | 85 => ⟨S_, .i32⟩
  | 86 => ⟨S4096, .i32⟩
  | 87 => ⟨S4096, .i32⟩
  | 88 => ⟨S4096, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S4096, .i32⟩
  | 96 => ⟨S4096, .i32⟩
  | 97 => ⟨S_, .i32⟩
  | 98 => ⟨S4096, .i32⟩
  | 99 => ⟨S4096, .i1⟩
  | 100 => ⟨S_, .i32⟩
  | 101 => ⟨S4096, .i32⟩
  | 102 => ⟨S4096, .i1⟩
  | 103 => ⟨S_, .i32⟩
  | 104 => ⟨S_, .i1⟩
  | 105 => ⟨S4096, .i1⟩
  | 106 => ⟨S4096, .i1⟩
  | 107 => ⟨S4096, .i1⟩
  | 108 => ⟨S4096, .i32⟩
  | 109 => ⟨S4096, .i32⟩
  | 110 => ⟨S4096, .i32⟩
  | 111 => ⟨S4096, .i32⟩
  | 112 => ⟨S64x64, .i32⟩
  | 113 => ⟨S_, .i32⟩
  | 114 => ⟨S_, .i32⟩
  | 115 => ⟨S4096, .i32⟩
  | 116 => ⟨S4096, .i1⟩
  | 117 => ⟨S_, .i32⟩
  | 118 => ⟨S_, .i32⟩
  | 119 => ⟨S4096, .i32⟩
  | 120 => ⟨S4096, .i32⟩
  | 121 => ⟨S_, .i32⟩
  | 122 => ⟨S_, .i32⟩
  | 123 => ⟨S4096, .i32⟩
  | 124 => ⟨S4096, .i32⟩
  | 125 => ⟨S_, .i32⟩
  | 126 => ⟨S64x64, .i32⟩
  | 127 => ⟨S64x64, .i1⟩
  | _ => ⟨S128x64x128, .f32⟩

abbrev hbmTy0_1 (i : Nat) : BufTy := match i % 128 with
  | 0 => ⟨S64x64, .i32⟩
  | 1 => ⟨S_, .i32⟩
  | 2 => ⟨S_, .i32⟩
  | 3 => ⟨S4096, .i32⟩
  | 4 => ⟨S4096, .i32⟩
  | 5 => ⟨S4096, .i1⟩
  | 6 => ⟨S128, .i32⟩
  | 7 => ⟨S_, .i32⟩
  | 8 => ⟨S128, .i32⟩
  | 9 => ⟨S128, .i32⟩
  | 10 => ⟨S1x4096, .i32⟩
  | 11 => ⟨S128x1, .i32⟩
  | 12 => ⟨S128x4096, .i32⟩
  | 13 => ⟨S128x4096, .i32⟩
  | 14 => ⟨S128x4096, .i32⟩
  | 15 => ⟨S524288, .i32⟩
  | 16 => ⟨S1x4096, .i32⟩
  | 17 => ⟨S128x1, .i32⟩
  | 18 => ⟨S128x4096, .i32⟩
  | 19 => ⟨S128x4096, .i32⟩
  | 20 => ⟨S128x4096, .i32⟩
  | 21 => ⟨S524288, .i32⟩
  | 22 => ⟨S1x4096, .i1⟩
  | 23 => ⟨S128x4096, .i1⟩
  | 24 => ⟨S524288, .i1⟩
  | 25 => ⟨S8192, .i32⟩
  | 26 => ⟨S532480, .i32⟩
  | 27 => ⟨S532480, .i32⟩
  | 28 => ⟨S524288, .f32⟩
  | 29 => ⟨S_, .f32⟩
  | 30 => ⟨S8192, .f32⟩
  | 31 => ⟨S532480, .f32⟩
  | 32 => ⟨S_, .f32⟩
  | 33 => ⟨S8192, .f32⟩
  | 34 => ⟨S_, .i32⟩
  | 35 => ⟨S532480, .i32⟩
  | 36 => ⟨S532480, .i1⟩
  | 37 => ⟨S_, .i32⟩
  | 38 => ⟨S532480, .i32⟩
  | 39 => ⟨S532480, .i32⟩
  | 40 => ⟨S532480, .i32⟩
  | 41 => ⟨S532480x1, .i32⟩
  | 42 => ⟨S8192, .f32⟩
  | 43 => ⟨S_, .f32⟩
  | 44 => ⟨S8192, .f32⟩
  | 45 => ⟨S8192, .i1⟩
  | 46 => ⟨S_, .f32⟩
  | 47 => ⟨S8192, .f32⟩
  | 48 => ⟨S8192, .f32⟩
  | 49 => ⟨S8192, .f32⟩
  | 50 => ⟨S_, .f32⟩
  | 51 => ⟨S_, .f32⟩
  | 52 => ⟨S8192, .f32⟩
  | 53 => ⟨S8192, .f32⟩
  | 54 => ⟨S_, .i32⟩
  | 55 => ⟨S532480, .i32⟩
  | 56 => ⟨S532480, .i1⟩
  | 57 => ⟨S_, .i32⟩
  | 58 => ⟨S532480, .i32⟩
  | 59 => ⟨S532480, .i32⟩
  | 60 => ⟨S532480, .i32⟩
  | 61 => ⟨S532480x1, .i32⟩
  | 62 => ⟨S532480, .f32⟩
  | 63 => ⟨S_, .i32⟩
  | 64 => ⟨S532480, .i32⟩
  | 65 => ⟨S532480, .i1⟩
  | 66 => ⟨S_, .i32⟩
  | 67 => ⟨S532480, .i32⟩
  | 68 => ⟨S532480, .i32⟩
  | 69 => ⟨S532480, .i32⟩
  | 70 => ⟨S532480x1, .i32⟩
  | 71 => ⟨S532480, .f32⟩
  | 72 => ⟨S532480, .f32⟩
  | 73 => ⟨S8192x128, .f32⟩
  | 74 => ⟨S_, .i32⟩
  | 75 => ⟨S532480, .i32⟩
  | 76 => ⟨S532480, .i1⟩
  | 77 => ⟨S_, .i32⟩
  | 78 => ⟨S532480, .i32⟩
  | 79 => ⟨S532480, .i32⟩
  | 80 => ⟨S532480, .i32⟩
  | 81 => ⟨S532480x1, .i32⟩
  | 82 => ⟨S532480x128, .f32⟩
  | 83 => ⟨S532480, .f32⟩
  | 84 => ⟨S532480x1, .f32⟩
  | 85 => ⟨S532480x128, .f32⟩
  | 86 => ⟨S532480x128, .f32⟩
  | 87 => ⟨S_, .f32⟩
  | 88 => ⟨S8192x128, .f32⟩
  | 89 => ⟨S_, .i32⟩
  | 90 => ⟨S532480, .i32⟩
  | 91 => ⟨S532480, .i1⟩
  | 92 => ⟨S_, .i32⟩
  | 93 => ⟨S532480, .i32⟩
  | 94 => ⟨S532480, .i32⟩
  | 95 => ⟨S532480, .i32⟩
  | 96 => ⟨S532480x1, .i32⟩
  | 97 => ⟨S8192x128, .f32⟩
  | 98 => ⟨S1x128, .f32⟩
  | 99 => ⟨S8192x128, .f32⟩
  | 100 => ⟨S8192x128, .f32⟩
  | 101 => ⟨S_, .f32⟩
  | 102 => ⟨S8192x128, .f32⟩
  | 103 => ⟨S8192x128, .f32⟩
  | 104 => ⟨S8192x128, .f32⟩
  | 105 => ⟨S128x64x128, .f32⟩
  | _ => ⟨S128x64x128, .f32⟩

abbrev hbmTy (i : Nat) : BufTy := match i / 128 with
  | 0 => hbmTy0_0 i
  | 1 => hbmTy0_1 i
  | _ => ⟨S128x64x128, .f32⟩

abbrev bufTy : (tb : Table) → Fin (tcTables nBuf tb) → BufTy
  | .hbm, ⟨i, _⟩ => hbmTy i
  | _, _ => ⟨S128x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_call0_c : Ref sig .tc := ⟨.hbm, 10, rfl⟩
abbrev main_call0_call0_v0 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_call2_call0_c : Ref sig .tc := ⟨.hbm, 30, rfl⟩
abbrev main_call2_call0_v0 : Ref sig .tc := ⟨.hbm, 31, rfl⟩
abbrev main_v14 : Ref sig .tc := ⟨.hbm, 32, rfl⟩
abbrev main_c_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_c : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_call3_c_0 : Ref sig .tc := ⟨.hbm, 46, rfl⟩
abbrev main_call3_v11 : Ref sig .tc := ⟨.hbm, 47, rfl⟩
abbrev main_call3_v12 : Ref sig .tc := ⟨.hbm, 48, rfl⟩
abbrev main_v15 : Ref sig .tc := ⟨.hbm, 49, rfl⟩
abbrev main_c_6 : Ref sig .tc := ⟨.hbm, 50, rfl⟩
abbrev main_call4_v0 : Ref sig .tc := ⟨.hbm, 51, rfl⟩
abbrev main_call4_c : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_c_1 : Ref sig .tc := ⟨.hbm, 58, rfl⟩
abbrev main_call4_v5 : Ref sig .tc := ⟨.hbm, 59, rfl⟩
abbrev main_call4_v6 : Ref sig .tc := ⟨.hbm, 60, rfl⟩
abbrev main_call4_c_2 : Ref sig .tc := ⟨.hbm, 61, rfl⟩
abbrev main_call4_v7 : Ref sig .tc := ⟨.hbm, 62, rfl⟩
abbrev main_call4_v8 : Ref sig .tc := ⟨.hbm, 63, rfl⟩
abbrev main_call4_c_3 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_v16 : Ref sig .tc := ⟨.hbm, 71, rfl⟩
abbrev main_c_7 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_v6 : Ref sig .tc := ⟨.hbm, 79, rfl⟩
abbrev main_call5_v7 : Ref sig .tc := ⟨.hbm, 80, rfl⟩
abbrev main_call5_c : Ref sig .tc := ⟨.hbm, 81, rfl⟩
abbrev main_call5_v8 : Ref sig .tc := ⟨.hbm, 82, rfl⟩
abbrev main_call5_v9 : Ref sig .tc := ⟨.hbm, 83, rfl⟩
abbrev main_call5_v10 : Ref sig .tc := ⟨.hbm, 84, rfl⟩
abbrev main_call5_c_0 : Ref sig .tc := ⟨.hbm, 85, rfl⟩
abbrev main_call5_v11 : Ref sig .tc := ⟨.hbm, 86, rfl⟩
abbrev main_call5_v12 : Ref sig .tc := ⟨.hbm, 87, rfl⟩
abbrev main_v17 : Ref sig .tc := ⟨.hbm, 88, rfl⟩
abbrev main_c_8 : Ref sig .tc := ⟨.hbm, 89, rfl⟩
abbrev main_call6_v0 : Ref sig .tc := ⟨.hbm, 90, rfl⟩
abbrev main_call6_c : Ref sig .tc := ⟨.hbm, 91, rfl⟩
abbrev main_call6_v1 : Ref sig .tc := ⟨.hbm, 92, rfl⟩
abbrev main_call6_c_0 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_call6_c_1 : Ref sig .tc := ⟨.hbm, 97, rfl⟩
abbrev main_call6_v5 : Ref sig .tc := ⟨.hbm, 98, rfl⟩
abbrev main_call6_v6 : Ref sig .tc := ⟨.hbm, 99, rfl⟩
abbrev main_call6_c_2 : Ref sig .tc := ⟨.hbm, 100, rfl⟩
abbrev main_call6_v7 : Ref sig .tc := ⟨.hbm, 101, rfl⟩
abbrev main_call6_v8 : Ref sig .tc := ⟨.hbm, 102, rfl⟩
abbrev main_call6_c_3 : Ref sig .tc := ⟨.hbm, 103, rfl⟩
abbrev main_call6_v9 : Ref sig .tc := ⟨.hbm, 104, rfl⟩
abbrev main_call6_v10 : Ref sig .tc := ⟨.hbm, 105, rfl⟩
abbrev main_call6_v11 : Ref sig .tc := ⟨.hbm, 106, rfl⟩
abbrev main_call6_v12 : Ref sig .tc := ⟨.hbm, 107, rfl⟩
abbrev main_call6_v13 : Ref sig .tc := ⟨.hbm, 108, rfl⟩
abbrev main_call6_v14 : Ref sig .tc := ⟨.hbm, 109, rfl⟩
abbrev main_v18 : Ref sig .tc := ⟨.hbm, 110, rfl⟩
abbrev main_v19 : Ref sig .tc := ⟨.hbm, 111, rfl⟩
abbrev main_v20 : Ref sig .tc := ⟨.hbm, 112, rfl⟩
abbrev main_c_9 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_c_10 : Ref sig .tc := ⟨.hbm, 117, rfl⟩
abbrev main_call7_v0 : Ref sig .tc := ⟨.hbm, 118, rfl⟩
abbrev main_call7_v1 : Ref sig .tc := ⟨.hbm, 119, rfl⟩
abbrev main_v24 : Ref sig .tc := ⟨.hbm, 120, rfl⟩
abbrev main_c_11 : Ref sig .tc := ⟨.hbm, 121, rfl⟩
abbrev main_call8_v0 : Ref sig .tc := ⟨.hbm, 122, rfl⟩
abbrev main_call8_v1 : Ref sig .tc := ⟨.hbm, 123, rfl⟩
abbrev main_v25 : Ref sig .tc := ⟨.hbm, 124, rfl⟩
abbrev main_call9_c : Ref sig .tc := ⟨.hbm, 125, rfl⟩
abbrev main_call9_v0 : Ref sig .tc := ⟨.hbm, 126, rfl⟩
abbrev main_call9_v1 : Ref sig .tc := ⟨.hbm, 127, rfl⟩
abbrev main_call9_v2 : Ref sig .tc := ⟨.hbm, 128, rfl⟩
abbrev main_call9_c_0 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_c_12 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_cst : Ref sig .tc := ⟨.hbm, 157, rfl⟩
abbrev main_v52 : Ref sig .tc := ⟨.hbm, 158, rfl⟩
abbrev main_v53 : Ref sig .tc := ⟨.hbm, 159, rfl⟩
abbrev main_cst_13 : Ref sig .tc := ⟨.hbm, 160, rfl⟩
abbrev main_v54 : Ref sig .tc := ⟨.hbm, 161, rfl⟩
abbrev main_c_14 : Ref sig .tc := ⟨.hbm, 162, rfl⟩
abbrev main_v55 : Ref sig .tc := ⟨.hbm, 163, rfl⟩
abbrev main_v56 : Ref sig .tc := ⟨.hbm, 164, rfl⟩
abbrev main_c_15 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_cst_16 : Ref sig .tc := ⟨.hbm, 171, rfl⟩
abbrev main_v62 : Ref sig .tc := ⟨.hbm, 172, rfl⟩
abbrev main_v63 : Ref sig .tc := ⟨.hbm, 173, rfl⟩
abbrev main_cst_17 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_cst_18 : Ref sig .tc := ⟨.hbm, 178, rfl⟩
abbrev main_call10_v0 : Ref sig .tc := ⟨.hbm, 179, rfl⟩
abbrev main_call10_v1 : Ref sig .tc := ⟨.hbm, 180, rfl⟩
abbrev main_v67 : Ref sig .tc := ⟨.hbm, 181, rfl⟩
abbrev main_c_19 : Ref sig .tc := ⟨.hbm, 182, rfl⟩
abbrev main_v68 : Ref sig .tc := ⟨.hbm, 183, rfl⟩
abbrev main_v69 : Ref sig .tc := ⟨.hbm, 184, rfl⟩
abbrev main_c_20 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_v73 : Ref sig .tc := ⟨.hbm, 189, rfl⟩
abbrev main_v74 : Ref sig .tc := ⟨.hbm, 190, rfl⟩
abbrev main_c_21 : Ref sig .tc := ⟨.hbm, 191, rfl⟩
abbrev main_v75 : Ref sig .tc := ⟨.hbm, 192, rfl⟩
abbrev main_v76 : Ref sig .tc := ⟨.hbm, 193, rfl⟩
abbrev main_c_22 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_v80 : Ref sig .tc := ⟨.hbm, 198, rfl⟩
abbrev main_v81 : Ref sig .tc := ⟨.hbm, 199, rfl⟩
abbrev main_v82 : Ref sig .tc := ⟨.hbm, 200, rfl⟩
abbrev main_v83 : Ref sig .tc := ⟨.hbm, 201, rfl⟩
abbrev main_c_23 : Ref sig .tc := ⟨.hbm, 202, rfl⟩
abbrev main_v84 : Ref sig .tc := ⟨.hbm, 203, rfl⟩
abbrev main_v85 : Ref sig .tc := ⟨.hbm, 204, rfl⟩
abbrev main_c_24 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_v94 : Ref sig .tc := ⟨.hbm, 214, rfl⟩
abbrev main_cst_25 : Ref sig .tc := ⟨.hbm, 215, rfl⟩
abbrev main_v95 : Ref sig .tc := ⟨.hbm, 216, rfl⟩
abbrev main_c_26 : Ref sig .tc := ⟨.hbm, 217, rfl⟩
abbrev main_v96 : Ref sig .tc := ⟨.hbm, 218, rfl⟩
abbrev main_v97 : Ref sig .tc := ⟨.hbm, 219, rfl⟩
abbrev main_c_27 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_call11_cst : Ref sig .tc := ⟨.hbm, 229, rfl⟩
abbrev main_call11_v0 : Ref sig .tc := ⟨.hbm, 230, rfl⟩
abbrev main_v106 : Ref sig .tc := ⟨.hbm, 231, rfl⟩
abbrev main_v107 : Ref sig .tc := ⟨.hbm, 232, rfl⟩
abbrev main_v108 : Ref sig .tc := ⟨.hbm, 233, rfl⟩

abbrev nD : Nat := 1
abbrev τ : Topo := Topo.v7x

variable {F : FTy → Type} [FloatOps F]

class Facts₀ : Prop where
  shapeCasts_S128x64x128_S8192x128 : S128x64x128.ShapeCasts S8192x128
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  reducesTo_S64x64_S_d0_1 : S64x64.ReducesTo [0, 1] S_
  bcast_S_S128 : S_.BroadcastsInDim S128 (![] : Fin 0 → Fin S128.rank)
  bcast_S4096_S1x4096_1 : S4096.BroadcastsInDim S1x4096 (![1] : Fin 1 → Fin S1x4096.rank)
  bcast_S128_S128x1_0 : S128.BroadcastsInDim S128x1 (![0] : Fin 1 → Fin S128x1.rank)
  bcast_S1x4096_S128x4096_0_1 : S1x4096.BroadcastsInDim S128x4096 (![0, 1] : Fin 2 → Fin S128x4096.rank)
  bcast_S128x1_S128x4096_0_1 : S128x1.BroadcastsInDim S128x4096 (![0, 1] : Fin 2 → Fin S128x4096.rank)
  shapeCasts_S128x4096_S524288 : S128x4096.ShapeCasts S524288
  concatenates_S524288_S8192_S532480_d0 : Shape.Concatenates [S524288, S8192] S532480 0
  bcast_S_S8192 : S_.BroadcastsInDim S8192 (![] : Fin 0 → Fin S8192.rank)
  bcast_S_S532480 : S_.BroadcastsInDim S532480 (![] : Fin 0 → Fin S532480.rank)
  bcast_S532480_S532480x1_0 : S532480.BroadcastsInDim S532480x1 (![0] : Fin 1 → Fin S532480x1.rank)
  bcast_S532480x1_S532480x128_0_1 : S532480x1.BroadcastsInDim S532480x128 (![0, 1] : Fin 2 → Fin S532480x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S8192x128_S128x64x128 : S8192x128.ShapeCasts S128x64x128
  scatter_S4096_S4096x1_S4096_n_0_0_1_wf : ScatterDims.WF S4096 S4096x1 S4096 [] [0] [0] 1
  scatter_S8192_S532480x1_S532480_n_0_0_1_wf : ScatterDims.WF S8192 S532480x1 S532480 [] [0] [0] 1
  gather_S8192_S532480x1_S532480_n_0_n_n_0_1_1_wf : GatherDims.WF S8192 S532480x1 S532480 [] [0] [] [0] [] 1 ![1]
  dot_S8192x128_S128x128_S8192x128_1_0_0_1_n_n_wf : DotDims.WF S8192x128 S128x128 S8192x128 [1] [0] [0] [1] [] []
  gather_S8192x128_S532480x1_S532480x128_1_0_n_n_0_1_1128_wf : GatherDims.WF S8192x128 S532480x1 S532480x128 [1] [0] [] [0] [] 1 ![1, 128]
  scatter_S8192x128_S532480x1_S532480x128_1_0_0_1_wf : ScatterDims.WF S8192x128 S532480x1 S532480x128 [1] [0] [0] 1

variable [Facts₀]

def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf
def scatter_S8192_S532480x1_S532480_n_0_0_1 : ScatterDims S8192 S532480x1 S532480 where
  updateWindowDims := []
  insertedWindowDims := [0]
  scatterDimsToOperandDims := [0]
  indexVectorDim := 1
  wf := scatter_S8192_S532480x1_S532480_n_0_0_1_wf
def gather_S8192_S532480x1_S532480_n_0_n_n_0_1_1 : GatherDims S8192 S532480x1 S532480 where
  offsetDims := []
  collapsedSliceDims := [0]
  operandBatchingDims := []
  startIndicesBatchingDims := []
  startIndexMap := [0]
  indexVectorDim := 1
  sliceSizes := ![1]
  wf := gather_S8192_S532480x1_S532480_n_0_n_n_0_1_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S532480x1_S532480x128_1_0_n_n_0_1_1128 : GatherDims S8192x128 S532480x1 S532480x128 where
  offsetDims := [1]
  collapsedSliceDims := [0]
  operandBatchingDims := []
  startIndicesBatchingDims := []
  startIndexMap := [0]
  indexVectorDim := 1
  sliceSizes := ![1, 128]
  wf := gather_S8192x128_S532480x1_S532480x128_1_0_n_n_0_1_1128_wf
def scatter_S8192x128_S532480x1_S532480x128_1_0_0_1 : ScatterDims S8192x128 S532480x1 S532480x128 where
  updateWindowDims := [1]
  insertedWindowDims := [0]
  scatterDimsToOperandDims := [0]
  indexVectorDim := 1
  wf := scatter_S8192x128_S532480x1_S532480x128_1_0_0_1_wf

class Facts : Prop extends Facts₀ where

variable [Facts]
-- ==== Proof.Spec.lean ====
/-
  The graph convolution both programs compute, written once as a function of the four argument arrays
  x : [128, 64, 128], graph : [64, 64], W : [128, 128], b : [128].

  Every batch i carries the same 64-node graph. With w r c the weight of the edge r → c, node c has degree
  deg c = ∑_r w r c + 1 (the one is its self loop), dinv c = deg c ^ (-1/2), and the layer's output at node c,
  feature f, is  max (∑_r Ŝ c r · (x·W) i r f + b f, 0) + x i c f  with the normalized operator
  Ŝ c r = (w r c + [c = r]) · dinv c · dinv r.

  The two programs differ in two ways only. The kernel weighs an edge by the VALUE of the graph's entry
  (wK) and applies Ŝ as one matrix; the reference weighs every NONZERO entry by one (wR) and adds up one
  message per edge and one per self loop. On a graph whose entries are 0 or 1 the weights agree, and the two
  arrangements of the sum agree because every summand's coefficient is non-negative, so that the product
  distributes over the sum of the edge's weight and the self loop's on the extended reals.
-/
import Idealize.ShloMosaic.PureOps.Ideal
import Idealize.ShloMosaic.Lib.ValueIdx

noncomputable section

open Idealize.ShloMosaic Idealize.ShloMosaic.ValueIdx

namespace Cert.Gcn

abbrev SX : Shape := ⟨3, ![128, 64, 128]⟩
abbrev SG : Shape := ⟨2, ![64, 64]⟩
abbrev SW : Shape := ⟨2, ![128, 128]⟩
abbrev SB : Shape := ⟨1, ![128]⟩

/-- Entry (r, c) of the graph as the kernel weighs the edge r → c: the integer's value. -/
def wK (g : SG.Idx → BitVec 32) (r c : Fin 64) : EReal := (((g (ix2 r c)).toInt : ℝ) : EReal)

/-- Entry (r, c) as the reference weighs it: one for an edge (a nonzero entry), zero for none. -/
def wR (g : SG.Idx → BitVec 32) (r c : Fin 64) : EReal := if g (ix2 r c) = 0#32 then 0 else 1

/-- The degree of node c under the weights w, its self loop counted. -/
def deg (w : Fin 64 → Fin 64 → EReal) (c : Fin 64) : EReal := (∑ r : Fin 64, w r c) + 1

/-- deg c ^ (-1/2). -/
def dinv (w : Fin 64 → Fin 64 → EReal) (c : Fin 64) : EReal := Ideal.rsqrt (deg w c)

/-- The linear transform x·W at batch i, node r, feature f. -/
def xw (x : SX.Idx → EReal) (W : SW.Idx → EReal) (i : Fin 128) (r : Fin 64) (f : Fin 128) : EReal :=
  ∑ k : Fin 128, x (ix3 i r k) * W (ix2 k f)

/-- The aggregation as ONE normalized operator applied to x·W (the kernel's arrangement). -/
def aggK (w : Fin 64 → Fin 64 → EReal) (x : SX.Idx → EReal) (W : SW.Idx → EReal) (i : Fin 128) (c : Fin 64)
    (f : Fin 128) : EReal :=
  ∑ r : Fin 64, ((w r c + if c = r then 1 else 0) * (dinv w c * dinv w r)) * xw x W i r f

/-- The aggregation as one message per edge into c plus the self loop's (the reference's arrangement). -/
def aggR (w : Fin 64 → Fin 64 → EReal) (x : SX.Idx → EReal) (W : SW.Idx → EReal) (i : Fin 128) (c : Fin 64)
    (f : Fin 128) : EReal :=
  (∑ r : Fin 64, xw x W i r f * ((dinv w r * dinv w c) * w r c)) + xw x W i c f * ((dinv w c * dinv w c) * 1)

/-- The layer's output in the kernel's arrangement, the graph's entries as weights. -/
def outK (x : SX.Idx → EReal) (g : SG.Idx → BitVec 32) (W : SW.Idx → EReal) (b : SB.Idx → EReal) : SX.Idx → EReal :=
  fun j => max (aggK (wK g) x W (j 0) (j 1) (j 2) + b (ix1 (j 2))) 0 + x j

/-- The layer's output in the reference's arrangement, every nonzero entry an edge of weight one. -/
def outR (x : SX.Idx → EReal) (g : SG.Idx → BitVec 32) (W : SW.Idx → EReal) (b : SB.Idx → EReal) : SX.Idx → EReal :=
  fun j => max (aggR (wR g) x W (j 0) (j 1) (j 2) + b (ix1 (j 2))) 0 + x j

end Cert.Gcn

end
-- ==== Proof.Bridge.lean ====
/-
  The two arrangements of the aggregation agree on a graph whose entries are 0 or 1.

  On such a graph the kernel's weight (the entry's value) and the reference's (one for a nonzero entry) are the
  same number, 0 or 1. Every degree is then a sum of zeros and ones plus one, hence positive, and its inverse
  square root is non-negative. So in the kernel's summand ((w r c + [c = r]) · (dinv c · dinv r)) · xw r the two
  factors that are split, w r c + [c = r] and then w r c · d + [c = r] · d, are sums of NON-NEGATIVE extended
  reals, over which the product distributes whatever the third factor is (it may be infinite). The [c = r] part
  of the sum over r is the single term r = c, the self loop's message; the rest is the sum of the edges'.
-/
import proofs.«172550_g12077448036551_cont_sun_c4_50_16_alg».proof.Proof.Spec
import Mathlib.Data.EReal.Operations
import Mathlib.Data.EReal.Inv

noncomputable section

open Idealize.ShloMosaic Idealize.ShloMosaic.ValueIdx

namespace Cert.Gcn

/-- The inverse square root of a positive extended real is non-negative (zero at +∞). -/
theorem rsqrt_nonneg_of_pos {y : EReal} (hy : 0 < y) : 0 ≤ Ideal.rsqrt y := by
  induction y using EReal.rec with
  | bot => exact absurd hy (not_lt.2 bot_le)
  | top => simp
  | coe r =>
    have hr : 0 < r := EReal.coe_pos.1 hy
    rw [Ideal.rsqrt_coe, if_neg (not_lt.2 hr.le), if_neg hr.ne']
    exact EReal.coe_nonneg.2 (inv_nonneg.2 (Real.sqrt_nonneg r))

/-- Weights that are 0 or 1. -/
def ZeroOne (w : Fin 64 → Fin 64 → EReal) : Prop := ∀ r c, w r c = 0 ∨ w r c = 1

theorem ZeroOne.nonneg {w : Fin 64 → Fin 64 → EReal} (hw : ZeroOne w) (r c : Fin 64) : 0 ≤ w r c := by
  rcases hw r c with h | h <;> rw [h]
  exact zero_le_one

/-- A degree under 0/1 weights is at least one: a sum of non-negative terms plus the self loop's one. -/
theorem one_le_deg {w : Fin 64 → Fin 64 → EReal} (hw : ZeroOne w) (c : Fin 64) : 1 ≤ deg w c :=
  le_add_of_nonneg_left (Finset.sum_nonneg fun r _ => hw.nonneg r c)

/-- So it is positive. -/
theorem deg_pos {w : Fin 64 → Fin 64 → EReal} (hw : ZeroOne w) (c : Fin 64) : 0 < deg w c :=
  lt_of_lt_of_le zero_lt_one (one_le_deg hw c)

theorem dinv_nonneg {w : Fin 64 → Fin 64 → EReal} (hw : ZeroOne w) (c : Fin 64) : 0 ≤ dinv w c :=
  rsqrt_nonneg_of_pos (deg_pos hw c)

/-- The operator applied as one matrix is the sum of the edges' messages plus the self loop's. -/
theorem aggK_eq_aggR {w : Fin 64 → Fin 64 → EReal} (hw : ZeroOne w) (x : SX.Idx → EReal) (W : SW.Idx → EReal)
    (i : Fin 128) (c : Fin 64) (f : Fin 128) : aggK w x W i c f = aggR w x W i c f := by
  unfold aggK aggR
  have hterm : ∀ r : Fin 64,
      ((w r c + if c = r then 1 else 0) * (dinv w c * dinv w r)) * xw x W i r f
        = xw x W i r f * ((dinv w r * dinv w c) * w r c)
          + (if c = r then xw x W i r f * ((dinv w c * dinv w r) * 1) else 0) := by
    intro r
    have hd : 0 ≤ dinv w c * dinv w r := mul_nonneg (dinv_nonneg hw c) (dinv_nonneg hw r)
    have hδ : (0 : EReal) ≤ if c = r then 1 else 0 := by split <;> simp
    rw [EReal.right_distrib_of_nonneg (hw.nonneg r c) hδ,
      EReal.right_distrib_of_nonneg (mul_nonneg (hw.nonneg r c) hd) (mul_nonneg hδ hd)]
    congr 1
    · rw [mul_comm (dinv w r) (dinv w c), mul_comm (w r c) _, mul_comm _ (xw x W i r f)]
    · split
      · rw [one_mul, mul_one, mul_comm]
      · rw [zero_mul, zero_mul]
  rw [Finset.sum_congr rfl fun r _ => hterm r, Finset.sum_add_distrib, Finset.sum_ite_eq Finset.univ c]
  simp only [Finset.mem_univ, if_true]

/-- On a graph of zeros and ones the entry's value is the edge's indicator. -/
theorem wK_eq_wR (g : SG.Idx → BitVec 32) (h01 : ∀ p, g p = 0#32 ∨ g p = 1#32) : wK g = wR g := by
  funext r c
  unfold wK wR
  rcases h01 (ix2 r c) with h | h <;> rw [h]
  · simp
  · rw [if_neg (by decide)]; simp

theorem zeroOne_wR (g : SG.Idx → BitVec 32) : ZeroOne (wR g) := by
  intro r c
  unfold wR
  split
  · exact Or.inl rfl
  · exact Or.inr rfl

/-- The two arrangements of the layer agree on a graph of zeros and ones. -/
theorem outK_eq_outR (x : SX.Idx → EReal) (g : SG.Idx → BitVec 32) (W : SW.Idx → EReal) (b : SB.Idx → EReal)
    (h01 : ∀ p, g p = 0#32 ∨ g p = 1#32) : outK x g W b = outR x g W b := by
  funext j
  have e : aggK (wK g) x W (j 0) (j 1) (j 2) = aggR (wR g) x W (j 0) (j 1) (j 2) :=
    (congrArg (fun w => aggK w x W (j 0) (j 1) (j 2)) (wK_eq_wR g h01)).trans
      (aggK_eq_aggR (zeroOne_wR g) x W (j 0) (j 1) (j 2))
  exact congrArg (fun t => max (t + b (ix1 (j 2))) 0 + x j) e

end Cert.Gcn

end
-- ==== Proof.Pre01.lean ====
/-
  What the precondition says of the graph: every entry is 0 or 1.

  The precondition is a conjunction of four "all entries satisfy …" tests, each a reduction by `and` to a single
  bit: the three float arrays are finite, and every entry of the graph equals 0 or equals 1. The conjunction is
  one exactly when each conjunct is; a reduction by `and` to one bit is one exactly when every entry's bit is; and
  the entry's bit is the `or` of two equality tests.
-/
import proofs.«172550_g12077448036551_cont_sun_c4_50_16_alg».proof.Pre_finite_inputs
import Idealize.ShloMosaic.Lib.ReduceAll
import Idealize.ShloMosaic.Lib.Affine
import Idealize.ShloMosaic.Lib.ValueIdx

noncomputable section

open Idealize.ShloMosaic

namespace Cert.Gcn

open Cert.Pre_finite_inputs

variable [Cert.Pre_finite_inputs.Facts]

/-- The rank-zero shape has one index. -/
instance subsingleton_scalarIdx : Subsingleton S_.Idx := ⟨fun a b => funext fun d => d.elim0⟩

/-- Where the precondition holds, every entry of the graph is the word 0 or the word 1. -/
theorem graph01_of_pre {F : FTy → Type} [FloatOps F] (x : FVec F S128x64x128 .f32) (g : IVec S64x64 32)
    (W : FVec F S128x128 .f32) (b : FVec F S128 .f32)
    (h : Cert.Pre_finite_inputs.fn (F := F) x g W b = fun _ => 1#1) (p : S64x64.Idx) :
    g p = 0#32 ∨ g p = 1#32 := by
  have h0 := congrFun h ValueIdx.ix0
  dsimp only [Cert.Pre_finite_inputs.fn, Cert.Pre_finite_inputs.fn_part1] at h0
  -- the last conjunct: the reduction by `and` of the entries' tests
  have h1 := (IntOp.andi_eq_one.1 h0).2
  -- so the test holds at every entry, at p in particular
  have h2 := Host.reduce_andi_all _ _ _ _ ValueIdx.ix0 h1 p
  rcases IntOp.ori_eq_one.1 h2 with e | e
  · exact Or.inl (IntOp.cmpi_eq.1 e)
  · exact Or.inr (IntOp.cmpi_eq.1 e)

end Cert.Gcn

end
-- ==== Proof.LibColumn.lean ====
/-
  Column forms of the layout operations, read at an index given by its coordinates, and a row sum as a
  finite sum.

  A reduction along the last axis that keeps the reduced axis as a unit axis produces a COLUMN: a vector of
  length `a` re-laid as an `[a, 1]` array.  Such a column is then spread along its unit axis to a full
  `[a, b]` array, every entry of row `p` being the column's entry at `p`.  The lemmas below read these two
  steps entry by entry, and read the sum of a row of an `[a, b]` array of extended reals as the sum over
  the `b` column coordinates.
-/
import Idealize.ShloMosaic.Lib.ValueLayout
import Idealize.ShloMosaic.PureOps.Ideal.Laws

noncomputable section

open scoped BigOperators

namespace Cert.LibColumn

open Idealize.ShloMosaic Idealize.ShloMosaic.ValueIdx

variable {α : Type}

/-- A vector of length `a` re-laid as the column `[a, 1]` has, at `(i, u)`, the vector's entry `i`:
    the row-major position of `(i, u)` in `[a, 1]` is `i · 1 + 0 = i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` has, at `(p, c)`, the column's entry of row `p`, whatever the
    column coordinate `c`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the last axis of an `[a, b]` array of extended reals, started from the zero word, is at
    row `r` the sum over the `b` entries of that row. -/
theorem rowSum_apply {a b : ℕ} (src : FVec Ideal ⟨2, ![a, b]⟩ .f32)
    (h : (⟨2, ![a, b]⟩ : Shape).Reduces [1] ⟨1, ![a]⟩) (r : Fin a) :
    multiReduction .add [1] ⟨1, ![a]⟩ src 0x00000000#32 h (.inl rfl) rfl (ix1 r)
      = ∑ k : Fin b, src (ix2 r k) := by
  refine (Ideal.multiReduction_add_single src 0x00000000#32 h (.inl rfl) rfl (ix1 r)).trans ?_
  refine Finset.sum_congr rfl fun k _ => congrArg src ?_
  funext d
  match d with
  | ⟨0, _⟩ => rfl
  | ⟨1, _⟩ => rfl

end Cert.LibColumn

end
-- ==== Proof.KernelOperator.lean ====
/-
  The normalized operator of the graph convolution, as the kernel's body builds it from the 64 × 64 block of
  integer graph entries, read entry by entry.

  The entries are converted to floats (entry (r, c) is the weight of the edge r → c). Summing over the first
  axis gives each node's in-degree; one is added for the self loop and the reciprocal square root taken. The
  operator's entry (c, r) is (w r c + [c = r]) · dinv c · dinv r: the transposed weights plus the identity
  matrix — which the body builds by comparing a grid of row numbers with a grid of column numbers —, times the
  outer product of the inverse root degrees, laid out as a column spread along rows times a row spread along
  columns.
-/
import proofs.«172550_g12077448036551_cont_sun_c4_50_16_alg».proof.Proof.Gen.KernelIdeal.Skeleton
import proofs.«172550_g12077448036551_cont_sun_c4_50_16_alg».proof.Proof.Spec
import proofs.«172550_g12077448036551_cont_sun_c4_50_16_alg».proof.Proof.LibColumn
import Idealize.ShloMosaic.Lib.ValueLayout
import Idealize.ShloMosaic.PureOps.Ideal.Laws

noncomputable section

namespace Cert.Gcn.KernelSide

open Idealize.ShloMosaic Idealize.ShloMosaic.ValueIdx Cert.KernelIdeal Cert.KernelIdeal.Gen

/-- The graph's entries read as floats. -/
def wv (v0 : Vec Ideal S64x64 .i32) : FVec Ideal S64x64 .f32 := sitofp .f32 v0

/-- Entry (r, c) is the integer's value: the weight of the edge r → c. -/
theorem wv_apply (v0 : Vec Ideal S64x64 .i32) (r c : Fin 64) : wv v0 (ix2 r c) = wK v0 r c := rfl

/-- The float word of 1.0 is the extended real one. -/
theorem one_f32 : Ideal.ofBits .f32 0x3F800000#32 = 1 := IdealRules.sign_bit.ideal_onePat .f32

/-- The sum over the first axis of a 64 × 64 array, at column c, is the sum over the rows of that column. -/
theorem colsum_apply (src : FVec Ideal S64x64 .f32) (hφ : FKind.Formats .f32)
    (hacc : (0x00000000#32 : BitVec 32) = 0x00000000#32) (c : Fin 64) :
    multiReduction .add [0] S64 src 0x00000000#32 reduces_S64x64_S64 hφ hacc (ix1 c) = ∑ r : Fin 64, src (ix2 r c) := by
  refine (Ideal.multiReduction_add_single src 0x00000000#32 reduces_S64x64_S64 hφ hacc (ix1 c)).trans ?_
  refine Finset.sum_congr rfl fun r _ => congrArg src ?_
  funext a
  match a with
  | ⟨0, _⟩ => rfl
  | ⟨1, _⟩ => rfl

/-- The inverse root degrees: the column sums plus one, under the reciprocal square root. -/
def dv (v0 : Vec Ideal S64x64 .i32) : FVec Ideal S64 .f32 :=
  rsqrt (addf (multiReduction .add [0] S64 (wv v0) 0x00000000#32 reduces_S64x64_S64 (.inl rfl) rfl)
    (broadcast S64 (Scalar.ofBits .f32 0x3F800000#32)))

/-- At node c it is deg c ^ (-1/2), the degree counting the self loop. -/
theorem dv_apply (v0 : Vec Ideal S64x64 .i32) (c : Fin 64) : dv v0 (ix1 c) = dinv (wK v0) c := by
  unfold dv dinv deg
  show Ideal.rsqrt (_ + Ideal.ofBits .f32 0x3F800000#32) = _
  rw [one_f32, colsum_apply]
  rfl

/-- The identity matrix as the body builds it: a grid of row numbers compared with a grid of column numbers,
    the one-bit answer widened to a word and converted to a float. -/
def eye : FVec Ideal S64x64 .f32 :=
  sitofp .f32 (extui 32 (cmpi .eq (addi (iota .tc S64x64 32 [0] iota_S64x64_d0_w32) (broadcast S64x64 0#32))
    (iota .tc S64x64 32 [1] iota_S64x64_d1_w32)) natLt_1_32)

/-- Its entry (c, r) is one on the diagonal and zero off it: two numbers below 64 are equal as 32-bit words
    exactly when they are equal. -/
theorem eye_apply (c r : Fin 64) : eye (ix2 c r) = if c = r then 1 else 0 := by
  unfold eye
  show ((((IntOp.cmpi .eq (IntOp.addi (iota .tc S64x64 32 [0] iota_S64x64_d0_w32 (ix2 c r)) 0#32)
    (iota .tc S64x64 32 [1] iota_S64x64_d1_w32 (ix2 c r))).setWidth 32).toInt : ℝ) : EReal) = _
  rw [iota_single_apply, iota_single_apply]
  show ((((IntOp.cmpi .eq (IntOp.addi (BitVec.ofNat 32 c.val) 0#32) (BitVec.ofNat 32 r.val)).setWidth 32).toInt : ℝ) : EReal) = _
  by_cases h : c = r
  · subst h
    rw [if_pos rfl]
    have : IntOp.cmpi .eq (IntOp.addi (BitVec.ofNat 32 c.val) 0#32) (BitVec.ofNat 32 c.val) = 1#1 := by
      simp [IntOp.cmpi, IntOp.addi]
    rw [this]
    norm_num
  · rw [if_neg h]
    have hne : c.val ≠ r.val := fun e => h (Fin.ext e)
    have hc : c.val < 64 := c.isLt
    have hr : r.val < 64 := r.isLt
    have : IntOp.cmpi .eq (IntOp.addi (BitVec.ofNat 32 c.val) 0#32) (BitVec.ofNat 32 r.val) = 0#1 := by
      simp only [IntOp.cmpi, IntOp.addi, BitVec.add_zero]
      have : (BitVec.ofNat 32 c.val == BitVec.ofNat 32 r.val) = false := by
        rw [beq_eq_false_iff_ne]
        intro e
        have := congrArg BitVec.toNat e
        simp only [BitVec.toNat_ofNat] at this
        omega
      rw [this]; rfl
    rw [this]
    norm_num

/-- The normalized operator: the transposed weights plus the identity, times the outer product of the inverse
    root degrees. -/
def opS (v0 : Vec Ideal S64x64 .i32) : FVec Ideal S64x64 .f32 :=
  mulf (addf (transpose S64x64 [1, 0] (wv v0) transposes_S64x64_p1_0_S64x64) eye)
    (mulf (broadcastTo S64x64 (shapeCast S64x1 (dv v0) shapeCasts_S64_S64x1) broadcasts_S64x1_S64x64)
      (broadcastTo S64x64 (shapeCast S1x64 (dv v0) shapeCasts_S64_S1x64) broadcasts_S1x64_S64x64))

/-- Its entry (c, r): the weight of r → c plus the self loop's, times dinv c · dinv r. -/
theorem opS_apply (v0 : Vec Ideal S64x64 .i32) (c r : Fin 64) :
    opS v0 (ix2 c r) = (wK v0 r c + if c = r then 1 else 0) * (dinv (wK v0) c * dinv (wK v0) r) := by
  unfold opS
  show (transpose S64x64 [1, 0] (wv v0) transposes_S64x64_p1_0_S64x64 (ix2 c r) + eye (ix2 c r))
    * (broadcastTo S64x64 (shapeCast S64x1 (dv v0) shapeCasts_S64_S64x1) broadcasts_S64x1_S64x64 (ix2 c r)
      * broadcastTo S64x64 (shapeCast S1x64 (dv v0) shapeCasts_S64_S1x64) broadcasts_S1x64_S64x64 (ix2 c r)) = _
  rw [transpose_ix2_apply, eye_apply, Cert.LibColumn.broadcastTo_a1_ab_apply, broadcastTo_1b_ab_apply,
    Cert.LibColumn.shapeCast_a_a1_apply, shapeCast_a_1a_apply, dv_apply, dv_apply, wv_apply]

end Cert.Gcn.KernelSide

end
-- ==== Proof.KernelBlockDiag.lean ====
/-
  The 128 × 128 block-diagonal operator [[s, 0], [0, s]] the kernel's body assembles from the 64 × 64 normalized
  operator s by three concatenations, read entry by entry.

  Each 128 × 128 tile of the second matrix product holds two consecutive batches of 64 nodes. Putting s on the
  diagonal and zero off it applies s to each batch separately: a row below 64 only meets columns below 64, a
  row from 64 on only meets columns from 64 on. A two-piece concatenation is read where the coordinate along the
  joined axis falls: below the first piece's extent in the first piece, otherwise in the second, that extent
  less.
-/
import proofs.«172550_g12077448036551_cont_sun_c4_50_16_alg».proof.Proof.KernelOperator

noncomputable section

namespace Cert.Gcn.KernelSide

open Idealize.ShloMosaic Idealize.ShloMosaic.ValueIdx Cert.KernelIdeal Cert.KernelIdeal.Gen

variable {α : Type}

/-- Two 64 × 64 pieces side by side: a column below 64 reads the left piece. -/
theorem cat1_left (x₁ x₂ : S64x64.Idx → α) (a : Fin 64) (n : Fin 128) (b : Fin 64) (hb : n.val = b.val) :
    concatenate S64x128 1 [⟨S64x64, x₁⟩, ⟨S64x64, x₂⟩] concatenates_S64x64_S64x64_S64x128_d1 (ix2 a n) = x₁ (ix2 a b) :=
  concatenate_pair_apply_left 1 x₁ x₂ concatenates_S64x64_S64x64_S64x128_d1 (ix2 a n) rfl (ix2 a b) fun ax => by
    match ax with
    | ⟨0, _⟩ => rfl
    | ⟨1, _⟩ => exact hb.symm

/-- A column from 64 on reads the right piece, 64 columns back. -/
theorem cat1_right (x₁ x₂ : S64x64.Idx → α) (a : Fin 64) (n : Fin 128) (b : Fin 64) (hb : n.val = 64 + b.val) :
    concatenate S64x128 1 [⟨S64x64, x₁⟩, ⟨S64x64, x₂⟩] concatenates_S64x64_S64x64_S64x128_d1 (ix2 a n) = x₂ (ix2 a b) :=
  concatenate_pair_apply_right 1 x₁ x₂ concatenates_S64x64_S64x64_S64x128_d1 (ix2 a n) rfl rfl (ix2 a b)
    (fun ax hax => by
      match ax with
      | ⟨0, _⟩ => rfl
      | ⟨1, _⟩ => exact absurd rfl hax)
    (by show b.val + 64 = n.val; omega)

/-- Two 64 × 128 pieces one above the other: a row below 64 reads the upper piece. -/
theorem cat0_left (x₁ x₂ : S64x128.Idx → α) (a : Fin 128) (n : Fin 128) (c : Fin 64) (hc : a.val = c.val) :
    concatenate S128x128 0 [⟨S64x128, x₁⟩, ⟨S64x128, x₂⟩] concatenates_S64x128_S64x128_S128x128_d0 (ix2 a n) = x₁ (ix2 c n) :=
  concatenate_pair_apply_left 0 x₁ x₂ concatenates_S64x128_S64x128_S128x128_d0 (ix2 a n) rfl (ix2 c n) fun ax => by
    match ax with
    | ⟨0, _⟩ => exact hc.symm
    | ⟨1, _⟩ => rfl

/-- A row from 64 on reads the lower piece, 64 rows back. -/
theorem cat0_right (x₁ x₂ : S64x128.Idx → α) (a : Fin 128) (n : Fin 128) (c : Fin 64) (hc : a.val = 64 + c.val) :
    concatenate S128x128 0 [⟨S64x128, x₁⟩, ⟨S64x128, x₂⟩] concatenates_S64x128_S64x128_S128x128_d0 (ix2 a n) = x₂ (ix2 c n) :=
  concatenate_pair_apply_right 0 x₁ x₂ concatenates_S64x128_S64x128_S128x128_d0 (ix2 a n) rfl rfl (ix2 c n)
    (fun ax hax => by
      match ax with
      | ⟨0, _⟩ => exact absurd rfl hax
      | ⟨1, _⟩ => rfl)
    (by show c.val + 64 = a.val; omega)

/-- The 128 × 128 operator [[s, 0], [0, s]]: two graphs' worth of nodes, each acted on by s. -/
def opBlock (v0 : Vec Ideal S64x64 .i32) : FVec Ideal S128x128 .bf16 :=
  concatenate S128x128 0
    [⟨S64x128, concatenate S64x128 1 [⟨S64x64, (truncf .bf16 (opS v0) bitsLt_bf16_f32 : FVec Ideal S64x64 .bf16)⟩,
        ⟨S64x64, (broadcast S64x64 (Scalar.ofBits .bf16 0x0000#16) : FVec Ideal S64x64 .bf16)⟩] concatenates_S64x64_S64x64_S64x128_d1⟩,
     ⟨S64x128, concatenate S64x128 1 [⟨S64x64, (broadcast S64x64 (Scalar.ofBits .bf16 0x0000#16) : FVec Ideal S64x64 .bf16)⟩,
        ⟨S64x64, (truncf .bf16 (opS v0) bitsLt_bf16_f32 : FVec Ideal S64x64 .bf16)⟩] concatenates_S64x64_S64x64_S64x128_d1⟩]
    concatenates_S64x128_S64x128_S128x128_d0

theorem zero_bf16 : Ideal.ofBits .bf16 0x0000#16 = 0 := IdealRules.sign_bit.ideal_zero .bf16

/-- Inside either diagonal block the operator is s. -/
theorem opBlock_diag (v0 : Vec Ideal S64x64 .i32) (a n : Fin 128) (c r : Fin 64)
    (h : (a.val = c.val ∧ n.val = r.val) ∨ (a.val = 64 + c.val ∧ n.val = 64 + r.val)) :
    opBlock v0 (ix2 a n) = opS v0 (ix2 c r) := by
  unfold opBlock
  rcases h with ⟨ha, hn⟩ | ⟨ha, hn⟩
  · rw [cat0_left _ _ a n c ha, cat1_left _ _ c n r hn]; rfl
  · rw [cat0_right _ _ a n c ha, cat1_right _ _ c n r hn]; rfl

/-- Inside either off-diagonal block it is zero. -/
theorem opBlock_off (v0 : Vec Ideal S64x64 .i32) (a n : Fin 128) (c r : Fin 64)
    (h : (a.val = c.val ∧ n.val = 64 + r.val) ∨ (a.val = 64 + c.val ∧ n.val = r.val)) :
    opBlock v0 (ix2 a n) = 0 := by
  unfold opBlock
  rcases h with ⟨ha, hn⟩ | ⟨ha, hn⟩
  · rw [cat0_left _ _ a n c ha, cat1_right _ _ c n r hn]; exact zero_bf16
  · rw [cat0_right _ _ a n c ha, cat1_left _ _ c n r hn]; exact zero_bf16

end Cert.Gcn.KernelSide
end
-- ==== Proof.LibPlainDot.lean ====
/-
  A plain two-dimensional contraction read as a sum over the contracted extent.

  A dot of an [M, K] operand with a [K, N] operand contracts the left operand's second axis with the right
  operand's first. Its contraction index has one coordinate, so the sum over contraction indices is a sum over
  `k : Fin K`, and the operands are read at (row, k) and (k, column). The four coordinate facts are hypotheses:
  for a record with literal dimension lists each of them holds by computation.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M, K] × [K, N] dot at output index `j`, re-indexed by the one contracted
    coordinate: the left operand at (j 0, k) times the right operand at (k, j 1), summed over `k : Fin K`. -/
theorem plain_sum {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (lhs : (⟨2, ![M, K]⟩ : Shape).Idx → EReal) (rhs : (⟨2, ![K, N]⟩ : Shape).Idx → EReal) (j : (⟨2, ![M, N]⟩ : Shape).Idx) :
    ∑ k : D.contr.Idx, lhs (D.lhsIdx j k) * rhs (D.rhsIdx j k) = ∑ k : Fin K, lhs (ix2 (j 0) k) * rhs (ix2 k (j 1)) := by
  rw [← Equiv.sum_comp (contrEquiv1 D K hr hs).symm]
  refine Finset.sum_congr rfl fun k _ => ?_
  have e1 : D.lhsIdx j ((contrEquiv1 D K hr hs).symm k) = ix2 (j 0) k := by
    funext a; apply Fin.ext
    match a with
    | ⟨0, _⟩ => exact hl0 j _
    | ⟨1, _⟩ => exact (hl1 j _).trans (contrEquiv1_symm_val D K hr hs k)
  have e2 : D.rhsIdx j ((contrEquiv1 D K hr hs).symm k) = ix2 k (j 1) := by
    funext a; apply Fin.ext
    match a with
    | ⟨0, _⟩ => exact (hr0 j _).trans (contrEquiv1_symm_val D K hr hs k)
    | ⟨1, _⟩ => exact hr1 j _
  exact congrArg₂ (fun a b => lhs a * rhs b) e1 e2

/-- A matrix unit's product into the zero accumulator, at the exact values, is that sum. -/
theorem matmul_zero_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (lhs : FVec Ideal ⟨2, ![M, K]⟩ φ₁) (rhs : FVec Ideal ⟨2, ![K, N]⟩ φ₂) (j : (⟨2, ![M, N]⟩ : Shape).Idx) :
    FloatOps.matmul D prec lhs rhs (constant ⟨2, ![M, N]⟩ .f32 0x00000000#32) j = ∑ k : Fin K, lhs (ix2 (j 0) k) * rhs (ix2 k (j 1)) :=
  (Ideal.matmul_constant_zero_apply D prec lhs rhs j).trans (plain_sum D hr hs hl0 hl1 hr0 hr1 lhs rhs j)

/-- The host's dot_general, at the exact values, is the same sum. -/
theorem dotGeneral_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (sched : HostSchedule) (lhs : FVec Ideal ⟨2, ![M, K]⟩ φ₁) (rhs : FVec Ideal ⟨2, ![K, N]⟩ φ₂)
    (j : (⟨2, ![M, N]⟩ : Shape).Idx) :
    FloatOps.dotGeneral D prec sched lhs rhs j = ∑ k : Fin K, lhs (ix2 (j 0) k) * rhs (ix2 k (j 1)) :=
  (Ideal.dotGeneral_apply D prec sched lhs rhs j).trans (plain_sum D hr hs hl0 hl1 hr0 hr1 lhs rhs j)

end Cert.LibPlainDot

end
-- ==== Proof.KernelXW.lean ====
/-
  The linear transform x·W as the kernel's body computes it: the block of 64 batches of 64 nodes is flattened to
  4096 rows of 128 features and multiplied by the 128 × 128 weight matrix into a zero accumulator.

  Row p = q·64 + r of the flattened block is batch q, node r (both arrays are read in row-major order), so the
  product's entry (p, f) is the sum over k of x (q, r, k) · W (k, f). Narrowing the operands to a shorter float
  format changes nothing at the exact values.
-/
import proofs.«172550_g12077448036551_cont_sun_c4_50_16_alg».proof.Proof.Gen.KernelIdeal.Skeleton
import proofs.«172550_g12077448036551_cont_sun_c4_50_16_alg».proof.Proof.LibPlainDot
import Idealize.ShloMosaic.Lib.ValueLayout
import Idealize.ShloMosaic.PureOps.Ideal.Laws

noncomputable section

namespace Cert.Gcn.KernelSide

open Idealize.ShloMosaic Idealize.ShloMosaic.ValueIdx Cert.KernelIdeal Cert.KernelIdeal.Gen

/-- The block of 64 batches flattened to 4096 rows, times W. -/
def xwFlat (v26 : Vec Ideal S64x64x128 .f32) (v29 : Vec Ideal S128x128 .f32) : FVec Ideal S4096x128 .f32 :=
  matmul dot_S4096x128_S128x128_S4096x128_1_0_0_1_n_n none
    (truncf .bf16 (shapeCast S4096x128 v26 shapeCasts_S64x64x128_S4096x128) bitsLt_bf16_f32)
    (truncf .bf16 v29 bitsLt_bf16_f32) (constant S4096x128 .f32 0x00000000#32)

/-- Row q·64 + r of the flattened block is batch q, node r. -/
theorem flat_apply (v26 : Vec Ideal S64x64x128 .f32) (p : Fin 4096) (q r : Fin 64) (k : Fin 128) (hp : p.val = q.val * 64 + r.val) :
    shapeCast S4096x128 v26 shapeCasts_S64x64x128_S4096x128 (ix2 p k) = v26 (ix3 q r k) :=
  shapeCast_apply v26 shapeCasts_S64x64x128_S4096x128 _ _ (by
    rw [Shape.rowMajor_val_three, Shape.rowMajor_val_two]
    show (q.val * 64 + r.val) * 128 + k.val = p.val * 128 + k.val
    rw [hp])

theorem xwFlat_apply (v26 : Vec Ideal S64x64x128 .f32) (v29 : Vec Ideal S128x128 .f32) (p : Fin 4096) (q r : Fin 64) (f : Fin 128)
    (hp : p.val = q.val * 64 + r.val) :
    xwFlat v26 v29 (ix2 p f) = ∑ k : Fin 128, v26 (ix3 q r k) * v29 (ix2 k f) := by
  unfold xwFlat
  refine (Cert.LibPlainDot.matmul_zero_plain dot_S4096x128_S128x128_S4096x128_1_0_0_1_n_n rfl rfl
    (fun _ _ => rfl) (fun _ _ => rfl) (fun _ _ => rfl) (fun _ _ => rfl) none _ _ (ix2 p f)).trans ?_
  refine Finset.sum_congr rfl fun k _ => ?_
  show shapeCast S4096x128 v26 shapeCasts_S64x64x128_S4096x128 (ix2 p k) * v29 (ix2 k f) = _
  rw [flat_apply v26 p q r k hp]

end Cert.Gcn.KernelSide
end
-- ==== Proof.KernelBatched.lean ====
/-
  A batched matrix product read as a sum over the contracted extent, and a sum over 128 coordinates split in two
  halves.

  A dot of a [B, M, K] operand with a [B, K, N] operand that shares the leading axis as a batch axis and contracts
  the left operand's last axis with the right operand's middle one has a contraction index of one coordinate: the
  sum over contraction indices is a sum over k : Fin K of the left operand at (b, row, k) times the right operand at
  (b, k, column). The six coordinate facts are hypotheses; for a record with literal dimension lists each holds by
  computation.
-/
import proofs.«172550_g12077448036551_cont_sun_c4_50_16_alg».proof.Proof.Gen.KernelIdeal.Skeleton
import Idealize.ShloMosaic.Lib.ValueLayout
import Idealize.ShloMosaic.PureOps.Ideal.Laws

noncomputable section

namespace Cert.Gcn.KernelSide

open Idealize.ShloMosaic Idealize.ShloMosaic.ValueIdx Cert.KernelIdeal Cert.KernelIdeal.Gen

/-- The contraction sum of a batched [B, M, K] × [B, K, N] dot at output index j, re-indexed by the one contracted
    coordinate: within batch j 0, the left operand at (j 1, k) times the right operand at (k, j 2). -/
theorem batched_sum {B M K N : Nat} (D : DotDims ⟨3, ![B, M, K]⟩ ⟨3, ![B, K, N]⟩ ⟨3, ![B, M, N]⟩)
    (hr : D.contr.rank = 1) (hs : D.contr.size ⟨0, by omega⟩ = K)
    (hl0 : ∀ j k, (D.lhsIdx j k 0).val = (j 0).val) (hl1 : ∀ j k, (D.lhsIdx j k 1).val = (j 1).val)
    (hl2 : ∀ j k, (D.lhsIdx j k 2).val = (k ⟨0, by omega⟩).val)
    (hr0 : ∀ j k, (D.rhsIdx j k 0).val = (j 0).val) (hr1 : ∀ j k, (D.rhsIdx j k 1).val = (k ⟨0, by omega⟩).val)
    (hr2 : ∀ j k, (D.rhsIdx j k 2).val = (j 2).val)
    (lhs : (⟨3, ![B, M, K]⟩ : Shape).Idx → EReal) (rhs : (⟨3, ![B, K, N]⟩ : Shape).Idx → EReal)
    (j : (⟨3, ![B, M, N]⟩ : Shape).Idx) :
    ∑ k : D.contr.Idx, lhs (D.lhsIdx j k) * rhs (D.rhsIdx j k)
      = ∑ k : Fin K, lhs (ix3 (j 0) (j 1) k) * rhs (ix3 (j 0) k (j 2)) := by
  rw [← Equiv.sum_comp (contrEquiv1 D K hr hs).symm]
  refine Finset.sum_congr rfl fun k _ => ?_
  have e1 : D.lhsIdx j ((contrEquiv1 D K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val D K hr hs k)
  have e2 : D.rhsIdx j ((contrEquiv1 D K hr hs).symm k) = ix3 (j 0) k (j 2) := by
    funext a; apply Fin.ext
    match a with
    | ⟨0, _⟩ => exact hr0 j _
    | ⟨1, _⟩ => exact (hr1 j _).trans (contrEquiv1_symm_val D K hr hs k)
    | ⟨2, _⟩ => exact hr2 j _
  exact congrArg₂ (fun a b => lhs a * rhs b) e1 e2

/-- A batched matrix product into the zero accumulator, at the exact values, is that sum. -/
theorem bmm_zero {B M K N : Nat} {φ₁ φ₂ : FTy} (D : DotDims ⟨3, ![B, M, K]⟩ ⟨3, ![B, K, N]⟩ ⟨3, ![B, M, N]⟩)
    (hr : D.contr.rank = 1) (hs : D.contr.size ⟨0, by omega⟩ = K)
    (hl0 : ∀ j k, (D.lhsIdx j k 0).val = (j 0).val) (hl1 : ∀ j k, (D.lhsIdx j k 1).val = (j 1).val)
    (hl2 : ∀ j k, (D.lhsIdx j k 2).val = (k ⟨0, by omega⟩).val)
    (hr0 : ∀ j k, (D.rhsIdx j k 0).val = (j 0).val) (hr1 : ∀ j k, (D.rhsIdx j k 1).val = (k ⟨0, by omega⟩).val)
    (hr2 : ∀ j k, (D.rhsIdx j k 2).val = (j 2).val)
    (prec : Option ContractPrecision) (lhs : FVec Ideal ⟨3, ![B, M, K]⟩ φ₁) (rhs : FVec Ideal ⟨3, ![B, K, N]⟩ φ₂)
    (j : (⟨3, ![B, M, N]⟩ : Shape).Idx) :
    FloatOps.matmul D prec lhs rhs (constant ⟨3, ![B, M, N]⟩ .f32 0x00000000#32) j
      = ∑ k : Fin K, lhs (ix3 (j 0) (j 1) k) * rhs (ix3 (j 0) k (j 2)) :=
  (Ideal.matmul_constant_zero_apply D prec lhs rhs j).trans (batched_sum D hr hs hl0 hl1 hl2 hr0 hr1 hr2 lhs rhs j)

/-- A sum over 128 coordinates is the sum over the first 64 plus the sum over the last 64. -/
theorem sum_split128 {M : Type} [AddCommMonoid M] (f : Fin 128 → M) :
    ∑ n : Fin 128, f n = ∑ r : Fin 64, f ⟨r.val, by omega⟩ + ∑ r : Fin 64, f ⟨64 + r.val, by omega⟩ :=
  Fin.sum_univ_add (a := 64) (b := 64) f

/-- The printed batched record contracts the left operand's last axis with the right operand's middle one, within a batch. -/
theorem bmm_printed (lhs rhs : FVec Ideal S32x128x128 .bf16) (b : Fin 32) (a f : Fin 128) :
    matmul dot_S32x128x128_S32x128x128_S32x128x128_2_1_1_2_0_0 none lhs rhs (constant S32x128x128 .f32 0x00000000#32) (ix3 b a f)
      = ∑ n : Fin 128, lhs (ix3 b a n) * rhs (ix3 b n f) :=
  bmm_zero dot_S32x128x128_S32x128x128_S32x128x128_2_1_1_2_0_0 rfl rfl
    (fun _ _ => rfl) (fun _ _ => rfl) (fun _ _ => rfl) (fun _ _ => rfl) (fun _ _ => rfl) (fun _ _ => rfl) none lhs rhs (ix3 b a f)

end Cert.Gcn.KernelSide
end
-- ==== Proof.KernelAgg.lean ====
/-
  The aggregation step of the kernel's body: the normalized operator applied to x·W, batch by batch.

  The 4096 rows of x·W are cut in 32 tiles of 128 rows — two batches of 64 nodes each — and every tile is
  multiplied from the left by the 128 × 128 block-diagonal operator [[s, 0], [0, s]]; the result is viewed again as
  64 batches of 64 nodes. Batch q sits in tile q / 2, in its upper half when q is even and its lower half when q
  is odd. The contraction over 128 = 64 + 64 coordinates splits accordingly: in the half that faces the diagonal
  block the terms are s (c, r) · (x·W) (q, r, f); in the other half every term is a product with zero, which is
  zero on the extended reals whatever the other factor. So entry (q, c, f) is the sum over the 64 nodes r of
  s (c, r) · (x·W) (q, r, f).
-/
import proofs.«172550_g12077448036551_cont_sun_c4_50_16_alg».proof.Proof.KernelBlockDiag
import proofs.«172550_g12077448036551_cont_sun_c4_50_16_alg».proof.Proof.KernelXW
import proofs.«172550_g12077448036551_cont_sun_c4_50_16_alg».proof.Proof.KernelBatched

noncomputable section

namespace Cert.Gcn.KernelSide

open Idealize.ShloMosaic Idealize.ShloMosaic.ValueIdx Cert.KernelIdeal Cert.KernelIdeal.Gen

variable {α : Type}

/-- Pairs of batches: entry (q, c, f) of the [64, 64, 128] view is entry (b, a, f) of the [32, 128, 128] array at the
    same row-major position, b·128 + a = q·64 + c. -/
theorem pair_apply (X : S32x128x128.Idx → α) (q c : Fin 64) (f : Fin 128) (b : Fin 32) (a : Fin 128)
    (h : b.val * 128 + a.val = q.val * 64 + c.val) :
    shapeCast S64x64x128 X shapeCasts_S32x128x128_S64x64x128 (ix3 q c f) = X (ix3 b a f) :=
  shapeCast_apply X shapeCasts_S32x128x128_S64x64x128 _ _ (by
    rw [Shape.rowMajor_val_three, Shape.rowMajor_val_three]
    show (b.val * 128 + a.val) * 128 + f.val = (q.val * 64 + c.val) * 128 + f.val
    rw [h])

/-- Tiles of 128 rows: entry (b, n, f) of the [32, 128, 128] view is row p = b·128 + n of the [4096, 128] array. -/
theorem tile_apply (X : S4096x128.Idx → α) (b : Fin 32) (n f : Fin 128) (p : Fin 4096) (hp : p.val = b.val * 128 + n.val) :
    shapeCast S32x128x128 X shapeCasts_S4096x128_S32x128x128 (ix3 b n f) = X (ix2 p f) :=
  shapeCast_apply X shapeCasts_S4096x128_S32x128x128 _ _ (by
    rw [Shape.rowMajor_val_two, Shape.rowMajor_val_three]
    show p.val * 128 + f.val = (b.val * 128 + n.val) * 128 + f.val
    rw [hp])

/-- The block-diagonal operator, the same for each of the 32 pairs of batches. -/
def opTiles (v0 : Vec Ideal S64x64 .i32) : FVec Ideal S32x128x128 .bf16 :=
  broadcastTo S32x128x128 (shapeCast S1x128x128 (opBlock v0) shapeCasts_S128x128_S1x128x128) broadcasts_S1x128x128_S32x128x128

theorem opTiles_apply (v0 : Vec Ideal S64x64 .i32) (b : Fin 32) (a n : Fin 128) : opTiles v0 (ix3 b a n) = opBlock v0 (ix2 a n) := by
  unfold opTiles
  refine (broadcastTo_apply _ broadcasts_S1x128x128_S32x128x128 (ix3 b a n) (ix3 (0 : Fin 1) a n) fun ax => ?_).trans
    (shapeCast_ab_1ab_apply (opBlock v0) shapeCasts_S128x128_S1x128x128 0 a n)
  match ax with
  | ⟨0, _⟩ => rfl
  | ⟨1, _⟩ => rfl
  | ⟨2, _⟩ => rfl

/-- x·W cut in 32 tiles of 128 rows: two batches each. -/
def xwTiles (v26 : Vec Ideal S64x64x128 .f32) (v29 : Vec Ideal S128x128 .f32) : FVec Ideal S32x128x128 .bf16 :=
  truncf .bf16 (shapeCast S32x128x128 (xwFlat v26 v29) shapeCasts_S4096x128_S32x128x128) bitsLt_bf16_f32

theorem xwTiles_apply (v26 : Vec Ideal S64x64x128 .f32) (v29 : Vec Ideal S128x128 .f32) (b : Fin 32) (n f : Fin 128) (q r : Fin 64)
    (hp : b.val * 128 + n.val = q.val * 64 + r.val) :
    xwTiles v26 v29 (ix3 b n f) = ∑ k : Fin 128, v26 (ix3 q r k) * v29 (ix2 k f) := by
  have hb : b.val < 32 := b.isLt
  have hn : n.val < 128 := n.isLt
  unfold xwTiles
  show shapeCast S32x128x128 (xwFlat v26 v29) shapeCasts_S4096x128_S32x128x128 (ix3 b n f) = _
  rw [tile_apply _ b n f ⟨b.val * 128 + n.val, by omega⟩ rfl]
  exact xwFlat_apply v26 v29 _ q r f hp

/-- The aggregation: each tile of x·W multiplied by the block-diagonal operator, viewed again as 64 batches. -/
def aggV (v0 : Vec Ideal S64x64 .i32) (v26 : Vec Ideal S64x64x128 .f32) (v29 : Vec Ideal S128x128 .f32) : FVec Ideal S64x64x128 .f32 :=
  shapeCast S64x64x128
    (matmul dot_S32x128x128_S32x128x128_S32x128x128_2_1_1_2_0_0 none (opTiles v0) (xwTiles v26 v29)
      (constant S32x128x128 .f32 0x00000000#32))
    shapeCasts_S32x128x128_S64x64x128

/-- One term of the contraction inside a diagonal block. -/
theorem term_diag (v0 : Vec Ideal S64x64 .i32) (v26 : Vec Ideal S64x64x128 .f32) (v29 : Vec Ideal S128x128 .f32)
    (b : Fin 32) (a n f : Fin 128) (q c r : Fin 64)
    (hd : (a.val = c.val ∧ n.val = r.val) ∨ (a.val = 64 + c.val ∧ n.val = 64 + r.val))
    (hp : b.val * 128 + n.val = q.val * 64 + r.val) :
    opTiles v0 (ix3 b a n) * xwTiles v26 v29 (ix3 b n f) = opS v0 (ix2 c r) * ∑ k : Fin 128, v26 (ix3 q r k) * v29 (ix2 k f) := by
  rw [opTiles_apply, opBlock_diag v0 a n c r hd, xwTiles_apply v26 v29 b n f q r hp]

/-- One term inside an off-diagonal block: zero times anything on the extended reals is zero. -/
theorem term_off (v0 : Vec Ideal S64x64 .i32) (v26 : Vec Ideal S64x64x128 .f32) (v29 : Vec Ideal S128x128 .f32)
    (b : Fin 32) (a n f : Fin 128) (c r : Fin 64)
    (ho : (a.val = c.val ∧ n.val = 64 + r.val) ∨ (a.val = 64 + c.val ∧ n.val = r.val)) :
    opTiles v0 (ix3 b a n) * xwTiles v26 v29 (ix3 b n f) = 0 := by
  rw [opTiles_apply, opBlock_off v0 a n c r ho]
  exact zero_mul _

theorem aggV_apply (v0 : Vec Ideal S64x64 .i32) (v26 : Vec Ideal S64x64x128 .f32) (v29 : Vec Ideal S128x128 .f32)
    (q c : Fin 64) (f : Fin 128) :
    aggV v0 v26 v29 (ix3 q c f) = ∑ r : Fin 64, opS v0 (ix2 c r) * ∑ k : Fin 128, v26 (ix3 q r k) * v29 (ix2 k f) := by
  have hq : q.val < 64 := q.isLt
  have hc : c.val < 64 := c.isLt
  obtain ⟨b, hb⟩ : ∃ b : Fin 32, b.val = q.val / 2 := ⟨⟨q.val / 2, by omega⟩, rfl⟩
  obtain ⟨a, ha⟩ : ∃ a : Fin 128, a.val = q.val % 2 * 64 + c.val := ⟨⟨q.val % 2 * 64 + c.val, by omega⟩, rfl⟩
  unfold aggV
  rw [pair_apply _ q c f b a (by omega)]
  refine (bmm_printed (opTiles v0) (xwTiles v26 v29) b a f).trans ?_
  rw [sum_split128]
  rcases Nat.mod_two_eq_zero_or_one q.val with h0 | h1
  · exact (congrArg₂ (· + ·)
      (Finset.sum_congr rfl fun r _ => term_diag v0 v26 v29 b a ⟨r.val, by omega⟩ f q c r
        (Or.inl ⟨by omega, rfl⟩) (by show b.val * 128 + r.val = _; omega))
      (Finset.sum_eq_zero fun r _ => term_off v0 v26 v29 b a ⟨64 + r.val, by omega⟩ f c r (Or.inl ⟨by omega, rfl⟩))).trans
      (add_zero _)
  · exact (congrArg₂ (· + ·)
      (Finset.sum_eq_zero fun r _ => term_off v0 v26 v29 b a ⟨r.val, by omega⟩ f c r (Or.inr ⟨by omega, rfl⟩))
      (Finset.sum_congr rfl fun r _ => term_diag v0 v26 v29 b a ⟨64 + r.val, by omega⟩ f q c r
        (Or.inr ⟨by omega, rfl⟩) (by show b.val * 128 + (64 + r.val) = _; omega))).trans
      (zero_add _)

end Cert.Gcn.KernelSide
end
-- ==== Proof.KernelPayload.lean ====
/-
  The whole arithmetic of the kernel's body at one entry of its output block.

  After the aggregation the body adds the bias — one row of 128 features, spread over every batch and node —, takes
  the maximum with zero and adds the input block back. Read at batch q of the block, node c, feature f this is
  max (∑_r s (c, r) · (x·W) (q, r, f) + b f, 0) + x (q, c, f), with s the normalized operator. The specification's
  kernel-side arrangement is the same sum with the same grouping and order of the factors, so the body's result at a
  point of the grid is the specification's output on the 64 batches the point's x block holds.
-/
import proofs.«172550_g12077448036551_cont_sun_c4_50_16_alg».proof.Proof.KernelAgg

noncomputable section

namespace Cert.Gcn.KernelSide

open Idealize.ShloMosaic Idealize.ShloMosaic.ValueIdx Cert.KernelIdeal Cert.KernelIdeal.Gen

/-- The bias row spread over every batch and node. -/
def biasV (v38 : Vec Ideal S1x128 .f32) : FVec Ideal S64x64x128 .f32 :=
  broadcastTo S64x64x128 (shapeCast S1x1x128 (shapeCast S1x128 v38 shapeCasts_S1x128_S1x128) shapeCasts_S1x128_S1x1x128)
    broadcasts_S1x1x128_S64x64x128

theorem biasV_apply (v38 : Vec Ideal S1x128 .f32) (q c : Fin 64) (f : Fin 128) : biasV v38 (ix3 q c f) = v38 (ix2 (0 : Fin 1) f) := by
  unfold biasV
  rw [shapeCast_self]
  refine (broadcastTo_apply _ broadcasts_S1x1x128_S64x64x128 (ix3 q c f) (ix3 (0 : Fin 1) (0 : Fin 1) f) fun ax => ?_).trans
    (shapeCast_ab_1ab_apply v38 shapeCasts_S1x128_S1x1x128 0 0 f)
  match ax with
  | ⟨0, _⟩ => rfl
  | ⟨1, _⟩ => rfl
  | ⟨2, _⟩ => rfl

set_option maxRecDepth 65536 in
/-- The body's arithmetic up to the bias is the aggregation plus the spread bias row: the same operations, named. -/
theorem pay2_eq (v0 : Vec Ideal S64x64 .i32) (v26 : Vec Ideal S64x64x128 .f32) (v29 : Vec Ideal S128x128 .f32) (v38 : Vec Ideal S1x128 .f32) :
    k0_pay2 v0 v26 v29 v38 = addf (aggV v0 v26 v29) (biasV v38) := rfl

/-- THE BODY'S RESULT at batch q of the block, node c, feature f. -/
theorem pay_apply (v0 : Vec Ideal S64x64 .i32) (v26 : Vec Ideal S64x64x128 .f32) (v29 : Vec Ideal S128x128 .f32) (v38 : Vec Ideal S1x128 .f32)
    (q c : Fin 64) (f : Fin 128) :
    k0_pay1 v26 (k0_pay2 v0 v26 v29 v38) (Scalar.ofBits .f32 0x00000000#32) (ix3 q c f)
      = max ((∑ r : Fin 64, ((wK v0 r c + if c = r then 1 else 0) * (dinv (wK v0) c * dinv (wK v0) r))
              * ∑ k : Fin 128, v26 (ix3 q r k) * v29 (ix2 k f)) + v38 (ix2 (0 : Fin 1) f)) 0 + v26 (ix3 q c f) := by
  rw [pay2_eq]
  unfold k0_pay1
  show max (aggV v0 v26 v29 (ix3 q c f) + biasV v38 (ix3 q c f)) (Ideal.ofBits .f32 0x00000000#32) + v26 (ix3 q c f) = _
  rw [aggV_apply, biasV_apply, Ideal.ofBits_zero_f32, Finset.sum_congr rfl fun r _ => by rw [opS_apply]]

/-- THE BODY'S RESULT IS THE LAYER'S OUTPUT: if the four blocks are what the windows stage at a point T — batches
    64·T … 64·T + 63 of x, the whole graph, the whole weight matrix, the bias as one row — the body's result at
    (q, c, f) is the layer's output at (64·T + q, c, f). The kernel's arrangement of the sum is the specification's
    own, so only the blocks are exchanged for the arrays. -/
theorem point_of_blocks (x0 : Vec Ideal S64x64x128 .f32) (x1 : Vec Ideal S64x64 .i32) (x2 : Vec Ideal S128x128 .f32)
    (x3 : Vec Ideal S1x128 .f32) (X : SX.Idx → EReal) (g : SG.Idx → BitVec 32) (W : SW.Idx → EReal) (b : SB.Idx → EReal) (T : Nat)
    (h0 : ∀ (q r : Fin 64) (k : Fin 128) (i : Fin 128), i.val = 64 * T + q.val → x0 (ix3 q r k) = X (ix3 i r k))
    (h1 : ∀ r s : Fin 64, x1 (ix2 r s) = g (ix2 r s)) (h2 : ∀ k f : Fin 128, x2 (ix2 k f) = W (ix2 k f))
    (h3 : ∀ f : Fin 128, x3 (ix2 (0 : Fin 1) f) = b (ix1 f))
    (q c : Fin 64) (f : Fin 128) (i : Fin 128) (hi : i.val = 64 * T + q.val) :
    k0_pay1 x0 (k0_pay2 x1 x0 x2 x3) (Scalar.ofBits .f32 0x00000000#32) (ix3 q c f) = outK X g W b (ix3 i c f) := by
  refine (pay_apply x1 x0 x2 x3 q c f).trans ?_
  have hw : wK x1 = wK g := funext fun r => funext fun s => by unfold wK; rw [h1]
  show _ = max (aggK (wK g) X W i c f + b (ix1 f)) 0 + X (ix3 i c f)
  unfold aggK xw
  rw [hw, h3, h0 q c f i hi]
  refine congrArg (fun z => max (z + b (ix1 f)) 0 + X (ix3 i c f)) ?_
  refine Finset.sum_congr rfl fun r _ => ?_
  have hs : ∑ k : Fin 128, x0 (ix3 q r k) * x2 (ix2 k f) = ∑ k : Fin 128, X (ix3 i r k) * W (ix2 k f) :=
    Finset.sum_congr rfl fun k _ => by rw [h0 q r k i hi, h2]
  rw [hs]

end Cert.Gcn.KernelSide
end
-- ==== Proof.KernelBlocks.lean ====
/-
  What each input window of the kernel stages at a grid point, read entry by entry off the argument arrays.

  The grid has two points. At point t the x window holds batches 64·t … 64·t + 63 of x (its block index along the
  batch axis is t, and a block's coordinate in the array is always block index × block size + the coordinate inside
  the block); the graph, the weight matrix and the bias windows hold their whole arrays at both points. The bias
  window does not stage the bias argument itself but an array one host operation wrote before the region: the bias
  re-laid as one row of 128, whose entry (0, f) is the bias at f.
-/
import proofs.«172550_g12077448036551_cont_sun_c4_50_16_alg».proof.Proof.Gen.KernelIdeal.Value
import Idealize.ShloMosaic.Lib.Pipeline.Value
import Idealize.ShloMosaic.Lib.Tactic
import Idealize.ShloMosaic.Lib.ValueLayout

noncomputable section

namespace Cert.Gcn.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The printed index maps, decided over the two grid points: the x window and the output window move along the
    batch axis with the point; the graph, the weights and the bias stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The x window's block at point t is batches 64·t … 64·t + 63 of the argument. -/
theorem blk0_apply (c : Dev nD) (t : Fin cfg0.N) (q r : Fin 64) (k : Fin 128) (i : Fin 128) (hi : i.val = 64 * t.val + q.val) :
    (iblk m c 0 t : Vec Ideal S64x64x128 .f32) (ix3 q r k)
      = (m ((c : Thread nD τ).loc main_arg0) : S128x64x128.Idx → EReal) (ix3 i r k) := by
  obtain ⟨e0, e1, e2, -⟩ := idx_facts t
  show V m c main_arg0 (((cfg0.win 0).blk t).view.emb (ix3 q r k)) = _
  rw [V_main_arg0]
  refine congrArg _ (funext fun a => Fin.ext ?_)
  match a with
  | ⟨0, _⟩ => show win0_0.index t (0 : Fin 3) * 64 + 1 * q.val = i.val; omega
  | ⟨1, _⟩ => show win0_0.index t (1 : Fin 3) * 64 + 1 * r.val = r.val; omega
  | ⟨2, _⟩ => show win0_0.index t (2 : Fin 3) * 128 + 1 * k.val = k.val; omega

/-- The graph window's block is the whole graph at every point. -/
theorem blk1_apply (c : Dev nD) (t : Fin cfg0.N) (r s : Fin 64) :
    (iblk m c 1 t : Vec Ideal S64x64 .i32) (ix2 r s)
      = (m ((c : Thread nD τ).loc main_arg1) : S64x64.Idx → BitVec 32) (ix2 r s) := by
  obtain ⟨-, -, -, e0, e1, -⟩ := idx_facts t
  show V m c main_arg1 (((cfg0.win 1).blk t).view.emb (ix2 r s)) = _
  rw [V_main_arg1]
  refine congrArg _ (funext fun a => Fin.ext ?_)
  match a with
  | ⟨0, _⟩ => show win0_1.index t (0 : Fin 2) * 64 + 1 * r.val = r.val; omega
  | ⟨1, _⟩ => show win0_1.index t (1 : Fin 2) * 64 + 1 * s.val = s.val; omega

/-- The weight window's block is the whole weight matrix at every point. -/
theorem blk2_apply (c : Dev nD) (t : Fin cfg0.N) (k f : Fin 128) :
    (iblk m c 2 t : Vec Ideal S128x128 .f32) (ix2 k f)
      = (m ((c : Thread nD τ).loc main_arg2) : S128x128.Idx → EReal) (ix2 k f) := by
  obtain ⟨-, -, -, -, -, e0, e1, -⟩ := idx_facts t
  show V m c main_arg2 (((cfg0.win 2).blk t).view.emb (ix2 k f)) = _
  rw [V_main_arg2]
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * f.val = f.val; omega

/-- The array the bias window stages was written by one host operation before the region: the bias re-laid as one row. -/
theorem bias_row (c : Dev nD) :
    (V m c main_v0 : S1x128.Idx → EReal)
      = shapeCast S1x128 (m ((c : Thread nD τ).loc main_arg3) : S128.Idx → EReal) shapeCasts_S128_S1x128 := by
  dsimp only [Gen.V, Gen.hostOps0]
  after_results
  rfl

/-- The bias window's block is that row at every point: entry (0, f) is the bias at f. -/
theorem blk3_apply (c : Dev nD) (t : Fin cfg0.N) (f : Fin 128) :
    (iblk m c 3 t : Vec Ideal S1x128 .f32) (ix2 (0 : Fin 1) f)
      = (m ((c : Thread nD τ).loc main_arg3) : S128.Idx → EReal) (ix1 f) := by
  obtain ⟨-, -, -, -, -, -, -, e0, e1, -⟩ := idx_facts t
  show V m c main_v0 (((cfg0.win 3).blk t).view.emb (ix2 (0 : Fin 1) f)) = _
  rw [bias_row]
  have he : ((cfg0.win 3).blk t).view.emb (ix2 (0 : Fin 1) f) = (ix2 (0 : Fin 1) f : S1x128.Idx) :=
    funext fun a => Fin.ext (by
      match a with
      | ⟨0, _⟩ => show win0_3.index t (0 : Fin 2) * 1 + 1 * 0 = 0; omega
      | ⟨1, _⟩ => show win0_3.index t (1 : Fin 2) * 128 + 1 * f.val = f.val; omega)
  rw [he]
  exact shapeCast_a_1a_apply _ shapeCasts_S128_S1x128 (0 : Fin 1) f

end Cert.Gcn.KernelSide
end
-- ==== Proof.KernelRun.lean ====
/-
  The kernel's run: after it, the output array holds the layer's output in the kernel's arrangement, and the four
  argument arrays are as launched.

  Each of the two grid points writes back one block of 64 batches. What point t writes is the body's result on the
  blocks its windows stage there, which is the specification's output restricted to batches 64·t … 64·t + 63: entry
  (q, c, f) of the block is entry (64·t + q, c, f) of the array. The two blocks tile the 128 batches — batch i lies in
  the block of point i / 64 —, so the whole array ends at the specification's output.
-/
import proofs.«172550_g12077448036551_cont_sun_c4_50_16_alg».proof.Proof.KernelPayload
import proofs.«172550_g12077448036551_cont_sun_c4_50_16_alg».proof.Proof.KernelBlocks

noncomputable section

namespace Cert.Gcn.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The layer's output in the kernel's arrangement, of the four argument arrays as launched on core c. -/
abbrev G (c : Dev nD) : S128x64x128.Idx → EReal :=
  Cert.Gcn.outK (m ((c : Thread nD τ).loc main_arg0)) (m ((c : Thread nD τ).loc main_arg1))
    (m ((c : Thread nD τ).loc main_arg2)) (m ((c : Thread nD τ).loc main_arg3))

/-- The body's result on the blocks staged at point t, at entry y of the block, is the layer's output at the array
    index under y. -/
theorem point_eq (c : Dev nD) (t : Fin cfg0.N) (y : S64x64x128.Idx) :
    k0_pay1 (iblk m c 0 t : Vec Ideal S64x64x128 .f32)
        (k0_pay2 (iblk m c 1 t : Vec Ideal S64x64 .i32) (iblk m c 0 t : Vec Ideal S64x64x128 .f32)
          (iblk m c 2 t : Vec Ideal S128x128 .f32) (iblk m c 3 t : Vec Ideal S1x128 .f32))
        (Scalar.ofBits .f32 0x00000000#32) y
      = G m c (((cfg0.win 4).blk t).view.emb y) := by
  obtain ⟨q, c', f, rfl⟩ : ∃ (q c' : Fin 64) (f : Fin 128), y = ix3 q c' f := ⟨y 0, y 1, y 2, eq_ix3 y⟩
  have ht : t.val < 2 := Nat.lt_of_lt_of_eq t.isLt N_0
  have hq : q.val < 64 := q.isLt
  obtain ⟨i, hi⟩ : ∃ i : Fin 128, i.val = 64 * t.val + q.val := ⟨⟨64 * t.val + q.val, by omega⟩, rfl⟩
  obtain ⟨-, -, -, -, -, -, -, -, -, e0, e1, e2⟩ := idx_facts t
  have he : ((cfg0.win 4).blk t).view.emb (ix3 q c' f) = (ix3 i c' f : S128x64x128.Idx) :=
    funext fun a => Fin.ext (by
      match a with
      | ⟨0, _⟩ => show win0_4.index t (0 : Fin 3) * 64 + 1 * q.val = i.val; omega
      | ⟨1, _⟩ => show win0_4.index t (1 : Fin 3) * 64 + 1 * c'.val = c'.val; omega
      | ⟨2, _⟩ => show win0_4.index t (2 : Fin 3) * 128 + 1 * f.val = f.val; omega)
  rw [he]
  exact point_of_blocks (iblk m c 0 t) (iblk m c 1 t) (iblk m c 2 t) (iblk m c 3 t)
    (m ((c : Thread nD τ).loc main_arg0)) (m ((c : Thread nD τ).loc main_arg1))
    (m ((c : Thread nD τ).loc main_arg2)) (m ((c : Thread nD τ).loc main_arg3)) t.val
    (fun q r k i hi => blk0_apply m c t q r k i hi) (blk1_apply m c t) (blk2_apply m c t) (blk3_apply m c t)
    q c' f i hi

/-- WHAT POINT t WRITES BACK is block t of the layer's output. -/
theorem flushed_eq (c : Dev nD) (t : Fin cfg0.N) :
    (dats m 0 c).flushed 4 t = ((cfg0.win 4).blk t).view.read (Elt Ideal) (G m c) := by
  rw [Cert.KernelIdeal.Value.flushed4]
  unfold out0_4
  rw [View.canon_unit_zero hz3]
  simp only [View.ld_unit_zero (S := S64x64x128) hz3, View.ld_unit_zero (S := S64x64) hz2,
    View.ld_unit_zero (S := S128x128) hz2, View.ld_unit_zero (S := S1x128) hz2]
  funext y
  exact point_eq m c t y

/-- An index of the array is in point t's block iff each coordinate is in the block's range on its axis. -/
theorem mem_blk (t : Fin cfg0.N) (i : S128x64x128.Idx) :
    i ∈ ((cfg0.win 4).blk t).view.set ↔ ∀ a : Fin 3, win0_4.index t a * S64x64x128.size a ≤ (i a).val
      ∧ (i a).val < win0_4.index t a * S64x64x128.size a + S64x64x128.size a := by
  show i ∈ ((View.whole main_v1).slice (win0_4.rect t)).set ↔ _
  rw [View.set_slice_whole, Rect.mem_set_unit]
  exact Iff.rfl

/-- Every index of the output array is in some point's block: batch i is in the block of point i / 64. -/
theorem cover (i : S128x64x128.Idx) :
    ∃ t : Fin cfg0.N, (cfg0.win 4).flush t = true ∧ i ∈ ((cfg0.win 4).blk t).view.set := by
  have hi0 : (i 0).val < 128 := (i 0).isLt
  have hi1 : (i 1).val < 64 := (i 1).isLt
  have hi2 : (i 2).val < 128 := (i 2).isLt
  obtain ⟨t, ht⟩ : ∃ t : Fin cfg0.N, t.val = (i 0).val / 64 :=
    ⟨⟨(i 0).val / 64, by show (i 0).val / 64 < grid0.N; rw [N_0]; omega⟩, rfl⟩
  obtain ⟨-, -, -, -, -, -, -, -, -, e0, e1, e2⟩ := idx_facts t
  refine ⟨t, flush0_4 t, ?_⟩
  rw [mem_blk]
  intro a
  match a with
  | ⟨0, _⟩ =>
    show win0_4.index t (0 : Fin 3) * 64 ≤ (i 0).val ∧ (i 0).val < win0_4.index t (0 : Fin 3) * 64 + 64
    omega
  | ⟨1, _⟩ =>
    show win0_4.index t (1 : Fin 3) * 64 ≤ (i 1).val ∧ (i 1).val < win0_4.index t (1 : Fin 3) * 64 + 64
    omega
  | ⟨2, _⟩ =>
    show win0_4.index t (2 : Fin 3) * 128 ≤ (i 2).val ∧ (i 2).val < win0_4.index t (2 : Fin 3) * 128 + 128
    omega

/-- THE OUTPUT ARRAY after the run is the layer's output. -/
theorem final (c : Dev nD) : (dats m 0 c).arrAt 4 cfg0.N = G m c :=
  (dats m 0 c).arrAt_eq_of_cover 4 (G m c) (fun t _ => flushed_eq m c t) cover

/-- THE KERNEL'S RUN: every weakly fair execution of the program on the TensorCores terminates, the output array at the
    layer's output in the kernel's arrangement, the four arguments unchanged. -/
theorem run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v1)
          = Cert.Gcn.outK (m ((c.tc : Thread _ _).loc Cert.KernelIdeal.main_arg0))
              (m ((c.tc : Thread _ _).loc Cert.KernelIdeal.main_arg1))
              (m ((c.tc : Thread _ _).loc Cert.KernelIdeal.main_arg2))
              (m ((c.tc : Thread _ _).loc Cert.KernelIdeal.main_arg3))
        ∧ r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)
        ∧ r.2.mem ((c.tc : Thread _ _).loc Cert.KernelIdeal.main_arg2) = m ((c.tc : Thread _ _).loc Cert.KernelIdeal.main_arg2)
        ∧ r.2.mem ((c.tc : Thread _ _).loc Cert.KernelIdeal.main_arg3) = m ((c.tc : Thread _ _).loc Cert.KernelIdeal.main_arg3) :=
  (θ_run Cert.KernelIdeal.defs _ _).mono (fun r h c => ⟨(h c).1.trans (final m c), (h c).2⟩)
    (Cert.KernelIdeal.Value.run_blocks m ρ)

end Cert.Gcn.KernelSide

end
-- ==== Proof.RefRunOps.lean ====
/-
  The reference program's @main as a list of its 230 host operations in program order, each call of an outlined
  function replaced by the callee's operations over that call's buffers, cut into consecutive windows
  (sizes [4, 5, 17, 3, 17, 22, 17, 22, 14, 13, 13, 9, 11, 11, 19, 12, 21]); beside each window the list of the buffers its operations write.
-/
import proofs.«172550_g12077448036551_cont_sun_c4_50_16_alg».proof.ReferenceIdeal
import Idealize.ShloMosaic.PureOps.Ideal
import Idealize.ShloMosaic.Lib.StableHlo.Run

noncomputable section

namespace Cert.Gcn.Ref

open Idealize.ShloMosaic Idealize.ShloMosaic.StableHlo Cert.ReferenceIdeal Cert.ReferenceIdeal.Facts₀

variable [Cert.ReferenceIdeal.Facts] {F : FTy → Type} [FloatOps F]

/-- Operations 1 … 4 of 230. -/
abbrev ops01 : List (HloOp τ sig (Elt F)) :=
  [ reshape main_arg0 main_v0 rfl shapeCasts_S128x64x128_S8192x128,
    nullary main_c (constantI S_ 32 0#32),
    unary main_c main_v1 (broadcastInDim S64x64 ![] bcast_S_S64x64 : (⟨S_, .i32⟩ : BufTy).Contents (Elt F) → (⟨S64x64, .i32⟩ : BufTy).Contents (Elt F)),
    binary main_arg1 main_v1 main_v2 (cmpi .ne : (⟨S64x64, .i32⟩ : BufTy).Contents (Elt F) → (⟨S64x64, .i32⟩ : BufTy).Contents (Elt F) → (⟨S64x64, .i1⟩ : BufTy).Contents (Elt F)) ]
/-- The buffers they write. -/
abbrev W01 : List (Ref sig .tc) := [main_v0, main_c, main_v1, main_v2]

/-- Operations 5 … 9 of 230. -/
abbrev ops02 : List (HloOp τ sig (Elt F)) :=
  [ reshape main_v2 main_call0_v0 rfl shapeCasts_S64x64_S4096,
    unary main_call0_v0 main_call0_v1 ((extui 32 · natLt_1_32) : (⟨S4096, .i1⟩ : BufTy).Contents (Elt F) → (⟨S4096, .i32⟩ : BufTy).Contents (Elt F)),
    nullary main_call0_call0_c (constantI S_ 32 0#32),
    unary main_call0_call0_c main_call0_call0_v0 (broadcastInDim S_ ![] bcast_S_S_ : (⟨S_, .i32⟩ : BufTy).Contents (Elt F) → (⟨S_, .i32⟩ : BufTy).Contents (Elt F)),
    binary main_call0_v1 main_call0_call0_v0 main_v3 ((fun x v => Host.reduceWindow IntOp.addi ![4096] ![1] ![4095] ![0] x v reduceWindows_S4096_S4096_w4096s1p4095_0 h_S_) : (⟨S4096, .i32⟩ : BufTy).Contents (Elt F) → (⟨S_, .i32⟩ : BufTy).Contents (Elt F) → (⟨S4096, .i32⟩ : BufTy).Contents (Elt F)) ]
/-- The buffers they write. -/
abbrev W02 : List (Ref sig .tc) := [main_call0_v0, main_call0_v1, main_call0_call0_c, main_call0_call0_v0, main_v3]

/-- Operations 10 … 26 of 230. -/
abbrev ops03 : List (HloOp τ sig (Elt F)) :=
  [ nullary main_c_0 (constantI S_ 32 0#32),
    unary main_c_0 main_v4 (broadcastInDim S4096 ![] bcast_S_S4096 : (⟨S_, .i32⟩ : BufTy).Contents (Elt F) → (⟨S4096, .i32⟩ : BufTy).Contents (Elt F)),
    nullary main_c_1 (constantI S_ 32 0#32),
    unary main_c_1 main_call1_v0 (id : (⟨S_, .i32⟩ : BufTy).Contents (Elt F) → (⟨S_, .i32⟩ : BufTy).Contents (Elt F)),
    unary main_call1_v0 main_call1_v1 (broadcastInDim S4096 ![] bcast_S_S4096 : (⟨S_, .i32⟩ : BufTy).Contents (Elt F) → (⟨S4096, .i32⟩ : BufTy).Contents (Elt F)),
    binary main_call1_v1 main_v3 main_v5 (maxsi : (⟨S4096, .i32⟩ : BufTy).Contents (Elt F) → (⟨S4096, .i32⟩ : BufTy).Contents (Elt F) → (⟨S4096, .i32⟩ : BufTy).Contents (Elt F)),
    nullary main_c_2 (constantI S_ 32 0#32),
    unary main_c_2 main_v6 (broadcastInDim S4096 ![] bcast_S_S4096 : (⟨S_, .i32⟩ : BufTy).Contents (Elt F) → (⟨S4096, .i32⟩ : BufTy).Contents (Elt F)),
    binary main_v5 main_v6 main_v7 (cmpi .slt : (⟨S4096, .i32⟩ : BufTy).Contents (Elt F) → (⟨S4096, .i32⟩ : BufTy).Contents (Elt F) → (⟨S4096, .i1⟩ : BufTy).Contents (Elt F)),
    nullary main_c_3 (constantI S_ 32 4096#32),
    unary main_c_3 main_v8 (broadcastInDim S4096 ![] bcast_S_S4096 : (⟨S_, .i32⟩ : BufTy).Contents (Elt F) → (⟨S4096, .i32⟩ : BufTy).Contents (Elt F)),
    binary main_v5 main_v8 main_v9 (addi : (⟨S4096, .i32⟩ : BufTy).Contents (Elt F) → (⟨S4096, .i32⟩ : BufTy).Contents (Elt F) → (⟨S4096, .i32⟩ : BufTy).Contents (Elt F)),
    ternary main_v7 main_v9 main_v5 main_v10 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v10 main_v11 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v12 (broadcastInDim S4096 ![] bcast_S_S4096 : (⟨S_, .i32⟩ : BufTy).Contents (Elt F) → (⟨S4096, .i32⟩ : BufTy).Contents (Elt F)),
    ternary main_v4 main_v11 main_v12 main_v13 ((fun x i u => Host.scatter scatter_S4096_S4096x1_S4096_n_0_0_1 IntOp.addi x i u) : (⟨S4096, .i32⟩ : BufTy).Contents (Elt F) → (⟨S4096x1, .i32⟩ : BufTy).Contents (Elt F) → (⟨S4096, .i32⟩ : BufTy).Contents (Elt F) → (⟨S4096, .i32⟩ : BufTy).Contents (Elt F)) ]
/-- The buffers they write. -/
abbrev W03 : List (Ref sig .tc) := [main_c_0, main_v4, main_c_1, main_call1_v0, main_call1_v1, main_v5, main_c_2, main_v6, main_v7, main_c_3, main_v8, main_v9, main_v10, main_v11, main_c_4, main_v12, main_v13]

/-- Operations 27 … 29 of 230. -/
abbrev ops04 : List (HloOp τ sig (Elt F)) :=
  [ nullary main_call2_call0_c (constantI S_ 32 0#32),
    unary main_call2_call0_c main_call2_call0_v0 (broadcastInDim S_ ![] bcast_S_S_ : (⟨S_, .i32⟩ : BufTy).Contents (Elt F) → (⟨S_, .i32⟩ : BufTy).Contents (Elt F)),
    binary main_v13 main_call2_call0_v0 main_v14 ((fun x v => Host.reduceWindow IntOp.addi ![4096] ![1] ![4095] ![0] x v reduceWindows_S4096_S4096_w4096s1p4095_0 h_S_) : (⟨S4096, .i32⟩ : BufTy).Contents (Elt F) → (⟨S_, .i32⟩ : BufTy).Contents (Elt F) → (⟨S4096, .i32⟩ : BufTy).Contents (Elt F)) ]
/-- The buffers they write. -/
abbrev W04 : List (Ref sig .tc) := [main_call2_call0_c, main_call2_call0_v0, main_v14]

/-- Operations 30 … 46 of 230. -/
abbrev ops05 : List (HloOp τ sig (Elt F)) :=
  [ nullary main_c_5 (constantI S_ 32 64#32),
    unary main_c_5 main_call3_v0 (broadcastInDim S4096 ![] bcast_S_S4096 : (⟨S_, .i32⟩ : BufTy).Contents (Elt F) → (⟨S4096, .i32⟩ : BufTy).Contents (Elt F)),
    binary main_v14 main_call3_v0 main_call3_v1 (Host.divsi : (⟨S4096, .i32⟩ : BufTy).Contents (Elt F) → (⟨S4096, .i32⟩ : BufTy).Contents (Elt F) → (⟨S4096, .i32⟩ : BufTy).Contents (Elt F)),
    unary main_v14 main_call3_v2 (signi : (⟨S4096, .i32⟩ : BufTy).Contents (Elt F) → (⟨S4096, .i32⟩ : BufTy).Contents (Elt F)),
    unary main_c_5 main_call3_v3 (signi : (⟨S_, .i32⟩ : BufTy).Contents (Elt F) → (⟨S_, .i32⟩ : BufTy).Contents (Elt F)),
    unary main_call3_v3 main_call3_v4 (broadcastInDim S4096 ![] bcast_S_S4096 : (⟨S_, .i32⟩ : BufTy).Contents (Elt F) → (⟨S4096, .i32⟩ : BufTy).Contents (Elt F)),
    binary main_call3_v2 main_call3_v4 main_call3_v5 (cmpi .ne : (⟨S4096, .i32⟩ : BufTy).Contents (Elt F) → (⟨S4096, .i32⟩ : BufTy).Contents (Elt F) → (⟨S4096, .i1⟩ : BufTy).Contents (Elt F)),
    unary main_c_5 main_call3_v6 (broadcastInDim S4096 ![] bcast_S_S4096 : (⟨S_, .i32⟩ : BufTy).Contents (Elt F) → (⟨S4096, .i32⟩ : BufTy).Contents (Elt F)),
    binary main_v14 main_call3_v6 main_call3_v7 (Host.remsi : (⟨S4096, .i32⟩ : BufTy).Contents (Elt F) → (⟨S4096, .i32⟩ : BufTy).Contents (Elt F) → (⟨S4096, .i32⟩ : BufTy).Contents (Elt F)),
    nullary main_call3_c (constantI S_ 32 0#32),
    unary main_call3_c main_call3_v8 (broadcastInDim S4096 ![] bcast_S_S4096 : (⟨S_, .i32⟩ : BufTy).Contents (Elt F) → (⟨S4096, .i32⟩ : BufTy).Contents (Elt F)),
    binary main_call3_v7 main_call3_v8 main_call3_v9 (cmpi .ne : (⟨S4096, .i32⟩ : BufTy).Contents (Elt F) → (⟨S4096, .i32⟩ : BufTy).Contents (Elt F) → (⟨S4096, .i1⟩ : BufTy).Contents (Elt F)),
    binary main_call3_v5 main_call3_v9 main_call3_v10 (andi : (⟨S4096, .i1⟩ : BufTy).Contents (Elt F) → (⟨S4096, .i1⟩ : BufTy).Contents (Elt F) → (⟨S4096, .i1⟩ : BufTy).Contents (Elt F)),
    nullary main_call3_c_0 (constantI S_ 32 1#32),
    unary main_call3_c_0 main_call3_v11 (broadcastInDim S4096 ![] bcast_S_S4096 : (⟨S_, .i32⟩ : BufTy).Contents (Elt F) → (⟨S4096, .i32⟩ : BufTy).Contents (Elt F)),
    binary main_call3_v1 main_call3_v11 main_call3_v12 (subi : (⟨S4096, .i32⟩ : BufTy).Contents (Elt F) → (⟨S4096, .i32⟩ : BufTy).Contents (Elt F) → (⟨S4096, .i32⟩ : BufTy).Contents (Elt F)),
    ternary main_call3_v10 main_call3_v12 main_call3_v1 main_v15 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]
/-- The buffers they write. -/
abbrev W05 : List (Ref sig .tc) := [main_c_5, main_call3_v0, main_call3_v1, main_call3_v2, main_call3_v3, main_call3_v4, main_call3_v5, main_call3_v6, main_call3_v7, main_call3_c, main_call3_v8, main_call3_v9, main_call3_v10, main_call3_c_0, main_call3_v11, main_call3_v12, main_v15]

/-- Operations 47 … 68 of 230. -/
abbrev ops06 : List (HloOp τ sig (Elt F)) :=
  [ nullary main_c_6 (constantI S_ 32 64#32),
    unary main_c_6 main_call4_v0 (id : (⟨S_, .i32⟩ : BufTy).Contents (Elt F) → (⟨S_, .i32⟩ : BufTy).Contents (Elt F)),
    nullary main_call4_c (constantI S_ 32 0#32),
    binary main_call4_v0 main_call4_c main_call4_v1 (cmpi .eq : (⟨S_, .i32⟩ : BufTy).Contents (Elt F) → (⟨S_, .i32⟩ : BufTy).Contents (Elt F) → (⟨S_, .i1⟩ : BufTy).Contents (Elt F)),
    nullary main_call4_c_0 (constantI S_ 32 1#32),
    ternary main_call4_v1 main_call4_c_0 main_call4_v0 main_call4_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call4_v2 main_call4_v3 (broadcastInDim S4096 ![] bcast_S_S4096 : (⟨S_, .i32⟩ : BufTy).Contents (Elt F) → (⟨S4096, .i32⟩ : BufTy).Contents (Elt F)),
    binary main_v15 main_call4_v3 main_call4_v4 (Host.remsi : (⟨S4096, .i32⟩ : BufTy).Contents (Elt F) → (⟨S4096, .i32⟩ : BufTy).Contents (Elt F) → (⟨S4096, .i32⟩ : BufTy).Contents (Elt F)),
    nullary main_call4_c_1 (constantI S_ 32 0#32),
    unary main_call4_c_1 main_call4_v5 (broadcastInDim S4096 ![] bcast_S_S4096 : (⟨S_, .i32⟩ : BufTy).Contents (Elt F) → (⟨S4096, .i32⟩ : BufTy).Contents (Elt F)),
    binary main_call4_v4 main_call4_v5 main_call4_v6 (cmpi .ne : (⟨S4096, .i32⟩ : BufTy).Contents (Elt F) → (⟨S4096, .i32⟩ : BufTy).Contents (Elt F) → (⟨S4096, .i1⟩ : BufTy).Contents (Elt F)),
    nullary main_call4_c_2 (constantI S_ 32 0#32),
    unary main_call4_c_2 main_call4_v7 (broadcastInDim S4096 ![] bcast_S_S4096 : (⟨S_, .i32⟩ : BufTy).Contents (Elt F) → (⟨S4096, .i32⟩ : BufTy).Contents (Elt F)),
    binary main_call4_v4 main_call4_v7 main_call4_v8 (cmpi .slt : (⟨S4096, .i32⟩ : BufTy).Contents (Elt F) → (⟨S4096, .i32⟩ : BufTy).Contents (Elt F) → (⟨S4096, .i1⟩ : BufTy).Contents (Elt F)),
    nullary main_call4_c_3 (constantI S_ 32 0#32),
    binary main_call4_v2 main_call4_c_3 main_call4_v9 (cmpi .slt : (⟨S_, .i32⟩ : BufTy).Contents (Elt F) → (⟨S_, .i32⟩ : BufTy).Contents (Elt F) → (⟨S_, .i1⟩ : BufTy).Contents (Elt F)),
    unary main_call4_v9 main_call4_v10 (broadcastInDim S4096 ![] bcast_S_S4096 : (⟨S_, .i1⟩ : BufTy).Contents (Elt F) → (⟨S4096, .i1⟩ : BufTy).Contents (Elt F)),
    binary main_call4_v8 main_call4_v10 main_call4_v11 (cmpi .ne : (⟨S4096, .i1⟩ : BufTy).Contents (Elt F) → (⟨S4096, .i1⟩ : BufTy).Contents (Elt F) → (⟨S4096, .i1⟩ : BufTy).Contents (Elt F)),
    binary main_call4_v11 main_call4_v6 main_call4_v12 (andi : (⟨S4096, .i1⟩ : BufTy).Contents (Elt F) → (⟨S4096, .i1⟩ : BufTy).Contents (Elt F) → (⟨S4096, .i1⟩ : BufTy).Contents (Elt F)),
    unary main_call4_v2 main_call4_v13 (broadcastInDim S4096 ![] bcast_S_S4096 : (⟨S_, .i32⟩ : BufTy).Contents (Elt F) → (⟨S4096, .i32⟩ : BufTy).Contents (Elt F)),
    binary main_call4_v4 main_call4_v13 main_call4_v14 (addi : (⟨S4096, .i32⟩ : BufTy).Contents (Elt F) → (⟨S4096, .i32⟩ : BufTy).Contents (Elt F) → (⟨S4096, .i32⟩ : BufTy).Contents (Elt F)),
    ternary main_call4_v12 main_call4_v14 main_call4_v4 main_v16 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]
/-- The buffers they write. -/
abbrev W06 : List (Ref sig .tc) := [main_c_6, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v16]

/-- Operations 69 … 85 of 230. -/
abbrev ops07 : List (HloOp τ sig (Elt F)) :=
  [ nullary main_c_7 (constantI S_ 32 1#32),
    unary main_c_7 main_call5_v0 (broadcastInDim S4096 ![] bcast_S_S4096 : (⟨S_, .i32⟩ : BufTy).Contents (Elt F) → (⟨S4096, .i32⟩ : BufTy).Contents (Elt F)),
    binary main_v14 main_call5_v0 main_call5_v1 (Host.divsi : (⟨S4096, .i32⟩ : BufTy).Contents (Elt F) → (⟨S4096, .i32⟩ : BufTy).Contents (Elt F) → (⟨S4096, .i32⟩ : BufTy).Contents (Elt F)),
    unary main_v14 main_call5_v2 (signi : (⟨S4096, .i32⟩ : BufTy).Contents (Elt F) → (⟨S4096, .i32⟩ : BufTy).Contents (Elt F)),
    unary main_c_7 main_call5_v3 (signi : (⟨S_, .i32⟩ : BufTy).Contents (Elt F) → (⟨S_, .i32⟩ : BufTy).Contents (Elt F)),
    unary main_call5_v3 main_call5_v4 (broadcastInDim S4096 ![] bcast_S_S4096 : (⟨S_, .i32⟩ : BufTy).Contents (Elt F) → (⟨S4096, .i32⟩ : BufTy).Contents (Elt F)),
    binary main_call5_v2 main_call5_v4 main_call5_v5 (cmpi .ne : (⟨S4096, .i32⟩ : BufTy).Contents (Elt F) → (⟨S4096, .i32⟩ : BufTy).Contents (Elt F) → (⟨S4096, .i1⟩ : BufTy).Contents (Elt F)),
    unary main_c_7 main_call5_v6 (broadcastInDim S4096 ![] bcast_S_S4096 : (⟨S_, .i32⟩ : BufTy).Contents (Elt F) → (⟨S4096, .i32⟩ : BufTy).Contents (Elt F)),
    binary main_v14 main_call5_v6 main_call5_v7 (Host.remsi : (⟨S4096, .i32⟩ : BufTy).Contents (Elt F) → (⟨S4096, .i32⟩ : BufTy).Contents (Elt F) → (⟨S4096, .i32⟩ : BufTy).Contents (Elt F)),
    nullary main_call5_c (constantI S_ 32 0#32),
    unary main_call5_c main_call5_v8 (broadcastInDim S4096 ![] bcast_S_S4096 : (⟨S_, .i32⟩ : BufTy).Contents (Elt F) → (⟨S4096, .i32⟩ : BufTy).Contents (Elt F)),
    binary main_call5_v7 main_call5_v8 main_call5_v9 (cmpi .ne : (⟨S4096, .i32⟩ : BufTy).Contents (Elt F) → (⟨S4096, .i32⟩ : BufTy).Contents (Elt F) → (⟨S4096, .i1⟩ : BufTy).Contents (Elt F)),
    binary main_call5_v5 main_call5_v9 main_call5_v10 (andi : (⟨S4096, .i1⟩ : BufTy).Contents (Elt F) → (⟨S4096, .i1⟩ : BufTy).Contents (Elt F) → (⟨S4096, .i1⟩ : BufTy).Contents (Elt F)),
    nullary main_call5_c_0 (constantI S_ 32 1#32),
    unary main_call5_c_0 main_call5_v11 (broadcastInDim S4096 ![] bcast_S_S4096 : (⟨S_, .i32⟩ : BufTy).Contents (Elt F) → (⟨S4096, .i32⟩ : BufTy).Contents (Elt F)),
    binary main_call5_v1 main_call5_v11 main_call5_v12 (subi : (⟨S4096, .i32⟩ : BufTy).Contents (Elt F) → (⟨S4096, .i32⟩ : BufTy).Contents (Elt F) → (⟨S4096, .i32⟩ : BufTy).Contents (Elt F)),
    ternary main_call5_v10 main_call5_v12 main_call5_v1 main_v17 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]
/-- The buffers they write. -/
abbrev W07 : List (Ref sig .tc) := [main_c_7, main_call5_v0, main_call5_v1, main_call5_v2, main_call5_v3, main_call5_v4, main_call5_v5, main_call5_v6, main_call5_v7, main_call5_c, main_call5_v8, main_call5_v9, main_call5_v10, main_call5_c_0, main_call5_v11, main_call5_v12, main_v17]

/-- Operations 86 … 107 of 230. -/
abbrev ops08 : List (HloOp τ sig (Elt F)) :=
  [ nullary main_c_8 (constantI S_ 32 64#32),
    unary main_c_8 main_call6_v0 (id : (⟨S_, .i32⟩ : BufTy).Contents (Elt F) → (⟨S_, .i32⟩ : BufTy).Contents (Elt F)),
    nullary main_call6_c (constantI S_ 32 0#32),
    binary main_call6_v0 main_call6_c main_call6_v1 (cmpi .eq : (⟨S_, .i32⟩ : BufTy).Contents (Elt F) → (⟨S_, .i32⟩ : BufTy).Contents (Elt F) → (⟨S_, .i1⟩ : BufTy).Contents (Elt F)),
    nullary main_call6_c_0 (constantI S_ 32 1#32),
    ternary main_call6_v1 main_call6_c_0 main_call6_v0 main_call6_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call6_v2 main_call6_v3 (broadcastInDim S4096 ![] bcast_S_S4096 : (⟨S_, .i32⟩ : BufTy).Contents (Elt F) → (⟨S4096, .i32⟩ : BufTy).Contents (Elt F)),
    binary main_v17 main_call6_v3 main_call6_v4 (Host.remsi : (⟨S4096, .i32⟩ : BufTy).Contents (Elt F) → (⟨S4096, .i32⟩ : BufTy).Contents (Elt F) → (⟨S4096, .i32⟩ : BufTy).Contents (Elt F)),
    nullary main_call6_c_1 (constantI S_ 32 0#32),
    unary main_call6_c_1 main_call6_v5 (broadcastInDim S4096 ![] bcast_S_S4096 : (⟨S_, .i32⟩ : BufTy).Contents (Elt F) → (⟨S4096, .i32⟩ : BufTy).Contents (Elt F)),
    binary main_call6_v4 main_call6_v5 main_call6_v6 (cmpi .ne : (⟨S4096, .i32⟩ : BufTy).Contents (Elt F) → (⟨S4096, .i32⟩ : BufTy).Contents (Elt F) → (⟨S4096, .i1⟩ : BufTy).Contents (Elt F)),
    nullary main_call6_c_2 (constantI S_ 32 0#32),
    unary main_call6_c_2 main_call6_v7 (broadcastInDim S4096 ![] bcast_S_S4096 : (⟨S_, .i32⟩ : BufTy).Contents (Elt F) → (⟨S4096, .i32⟩ : BufTy).Contents (Elt F)),
    binary main_call6_v4 main_call6_v7 main_call6_v8 (cmpi .slt : (⟨S4096, .i32⟩ : BufTy).Contents (Elt F) → (⟨S4096, .i32⟩ : BufTy).Contents (Elt F) → (⟨S4096, .i1⟩ : BufTy).Contents (Elt F)),
    nullary main_call6_c_3 (constantI S_ 32 0#32),
    binary main_call6_v2 main_call6_c_3 main_call6_v9 (cmpi .slt : (⟨S_, .i32⟩ : BufTy).Contents (Elt F) → (⟨S_, .i32⟩ : BufTy).Contents (Elt F) → (⟨S_, .i1⟩ : BufTy).Contents (Elt F)),
    unary main_call6_v9 main_call6_v10 (broadcastInDim S4096 ![] bcast_S_S4096 : (⟨S_, .i1⟩ : BufTy).Contents (Elt F) → (⟨S4096, .i1⟩ : BufTy).Contents (Elt F)),
    binary main_call6_v8 main_call6_v10 main_call6_v11 (cmpi .ne : (⟨S4096, .i1⟩ : BufTy).Contents (Elt F) → (⟨S4096, .i1⟩ : BufTy).Contents (Elt F) → (⟨S4096, .i1⟩ : BufTy).Contents (Elt F)),
    binary main_call6_v11 main_call6_v6 main_call6_v12 (andi : (⟨S4096, .i1⟩ : BufTy).Contents (Elt F) → (⟨S4096, .i1⟩ : BufTy).Contents (Elt F) → (⟨S4096, .i1⟩ : BufTy).Contents (Elt F)),
    unary main_call6_v2 main_call6_v13 (broadcastInDim S4096 ![] bcast_S_S4096 : (⟨S_, .i32⟩ : BufTy).Contents (Elt F) → (⟨S4096, .i32⟩ : BufTy).Contents (Elt F)),
    binary main_call6_v4 main_call6_v13 main_call6_v14 (addi : (⟨S4096, .i32⟩ : BufTy).Contents (Elt F) → (⟨S4096, .i32⟩ : BufTy).Contents (Elt F) → (⟨S4096, .i32⟩ : BufTy).Contents (Elt F)),
    ternary main_call6_v12 main_call6_v14 main_call6_v4 main_v18 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]
/-- The buffers they write. -/
abbrev W08 : List (Ref sig .tc) := [main_c_8, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v18]

/-- Operations 108 … 121 of 230. -/
abbrev ops09 : List (HloOp τ sig (Elt F)) :=
  [ nullary main_v19 (iotaInDim S4096 32 0),
    unary main_v2 main_v20 ((extui 32 · natLt_1_32) : (⟨S64x64, .i1⟩ : BufTy).Contents (Elt F) → (⟨S64x64, .i32⟩ : BufTy).Contents (Elt F)),
    nullary main_c_9 (constantI S_ 32 0#32),
    binary main_v20 main_c_9 main_v21 ((fun x v => Host.reduce IntOp.addi x v reducesTo_S64x64_S_d0_1 h_S_) : (⟨S64x64, .i32⟩ : BufTy).Contents (Elt F) → (⟨S_, .i32⟩ : BufTy).Contents (Elt F) → (⟨S_, .i32⟩ : BufTy).Contents (Elt F)),
    unary main_v21 main_v22 (broadcastInDim S4096 ![] bcast_S_S4096 : (⟨S_, .i32⟩ : BufTy).Contents (Elt F) → (⟨S4096, .i32⟩ : BufTy).Contents (Elt F)),
    binary main_v19 main_v22 main_v23 (cmpi .sge : (⟨S4096, .i32⟩ : BufTy).Contents (Elt F) → (⟨S4096, .i32⟩ : BufTy).Contents (Elt F) → (⟨S4096, .i1⟩ : BufTy).Contents (Elt F)),
    nullary main_c_10 (constantI S_ 32 0#32),
    unary main_c_10 main_call7_v0 (id : (⟨S_, .i32⟩ : BufTy).Contents (Elt F) → (⟨S_, .i32⟩ : BufTy).Contents (Elt F)),
    unary main_call7_v0 main_call7_v1 (broadcastInDim S4096 ![] bcast_S_S4096 : (⟨S_, .i32⟩ : BufTy).Contents (Elt F) → (⟨S4096, .i32⟩ : BufTy).Contents (Elt F)),
    ternary main_v23 main_call7_v1 main_v16 main_v24 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_11 (constantI S_ 32 0#32),
    unary main_c_11 main_call8_v0 (id : (⟨S_, .i32⟩ : BufTy).Contents (Elt F) → (⟨S_, .i32⟩ : BufTy).Contents (Elt F)),
    unary main_call8_v0 main_call8_v1 (broadcastInDim S4096 ![] bcast_S_S4096 : (⟨S_, .i32⟩ : BufTy).Contents (Elt F) → (⟨S4096, .i32⟩ : BufTy).Contents (Elt F)),
    ternary main_v23 main_call8_v1 main_v18 main_v25 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]
/-- The buffers they write. -/
abbrev W09 : List (Ref sig .tc) := [main_v19, main_v20, main_c_9, main_v21, main_v22, main_v23, main_c_10, main_call7_v0, main_call7_v1, main_v24, main_c_11, main_call8_v0, main_call8_v1, main_v25]

/-- Operations 122 … 134 of 230. -/
abbrev ops10 : List (HloOp τ sig (Elt F)) :=
  [ nullary main_call9_c (constantI S_ 32 0#32),
    unary main_call9_c main_call9_v0 (broadcastInDim S64x64 ![] bcast_S_S64x64 : (⟨S_, .i32⟩ : BufTy).Contents (Elt F) → (⟨S64x64, .i32⟩ : BufTy).Contents (Elt F)),
    binary main_arg1 main_call9_v0 main_call9_v1 (cmpi .ne : (⟨S64x64, .i32⟩ : BufTy).Contents (Elt F) → (⟨S64x64, .i32⟩ : BufTy).Contents (Elt F) → (⟨S64x64, .i1⟩ : BufTy).Contents (Elt F)),
    unary main_call9_v1 main_call9_v2 ((extui 32 · natLt_1_32) : (⟨S64x64, .i1⟩ : BufTy).Contents (Elt F) → (⟨S64x64, .i32⟩ : BufTy).Contents (Elt F)),
    nullary main_call9_c_0 (constantI S_ 32 0#32),
    binary main_call9_v2 main_call9_c_0 main_v26 ((fun x v => Host.reduce IntOp.addi x v reducesTo_S64x64_S_d0_1 h_S_) : (⟨S64x64, .i32⟩ : BufTy).Contents (Elt F) → (⟨S_, .i32⟩ : BufTy).Contents (Elt F) → (⟨S_, .i32⟩ : BufTy).Contents (Elt F)),
    nullary main_v27 (iotaInDim S4096 32 0),
    unary main_v26 main_v28 (broadcastInDim S4096 ![] bcast_S_S4096 : (⟨S_, .i32⟩ : BufTy).Contents (Elt F) → (⟨S4096, .i32⟩ : BufTy).Contents (Elt F)),
    binary main_v27 main_v28 main_v29 (cmpi .slt : (⟨S4096, .i32⟩ : BufTy).Contents (Elt F) → (⟨S4096, .i32⟩ : BufTy).Contents (Elt F) → (⟨S4096, .i1⟩ : BufTy).Contents (Elt F)),
    nullary main_v30 (iotaInDim S128 32 0),
    nullary main_c_12 (constantI S_ 32 64#32),
    unary main_c_12 main_v31 (broadcastInDim S128 ![] bcast_S_S128 : (⟨S_, .i32⟩ : BufTy).Contents (Elt F) → (⟨S128, .i32⟩ : BufTy).Contents (Elt F)),
    binary main_v30 main_v31 main_v32 (muli : (⟨S128, .i32⟩ : BufTy).Contents (Elt F) → (⟨S128, .i32⟩ : BufTy).Contents (Elt F) → (⟨S128, .i32⟩ : BufTy).Contents (Elt F)) ]
/-- The buffers they write. -/
abbrev W10 : List (Ref sig .tc) := [main_call9_c, main_call9_v0, main_call9_v1, main_call9_v2, main_call9_c_0, main_v26, main_v27, main_v28, main_v29, main_v30, main_c_12, main_v31, main_v32]

/-- Operations 135 … 147 of 230. -/
abbrev ops11 : List (HloOp τ sig (Elt F)) :=
  [ unary main_v24 main_v33 (broadcastInDim S1x4096 ![1] bcast_S4096_S1x4096_1 : (⟨S4096, .i32⟩ : BufTy).Contents (Elt F) → (⟨S1x4096, .i32⟩ : BufTy).Contents (Elt F)),
    unary main_v32 main_v34 (broadcastInDim S128x1 ![0] bcast_S128_S128x1_0 : (⟨S128, .i32⟩ : BufTy).Contents (Elt F) → (⟨S128x1, .i32⟩ : BufTy).Contents (Elt F)),
    unary main_v33 main_v35 (broadcastInDim S128x4096 ![0, 1] bcast_S1x4096_S128x4096_0_1 : (⟨S1x4096, .i32⟩ : BufTy).Contents (Elt F) → (⟨S128x4096, .i32⟩ : BufTy).Contents (Elt F)),
    unary main_v34 main_v36 (broadcastInDim S128x4096 ![0, 1] bcast_S128x1_S128x4096_0_1 : (⟨S128x1, .i32⟩ : BufTy).Contents (Elt F) → (⟨S128x4096, .i32⟩ : BufTy).Contents (Elt F)),
    binary main_v35 main_v36 main_v37 (addi : (⟨S128x4096, .i32⟩ : BufTy).Contents (Elt F) → (⟨S128x4096, .i32⟩ : BufTy).Contents (Elt F) → (⟨S128x4096, .i32⟩ : BufTy).Contents (Elt F)),
    reshape main_v37 main_v38 rfl shapeCasts_S128x4096_S524288,
    unary main_v25 main_v39 (broadcastInDim S1x4096 ![1] bcast_S4096_S1x4096_1 : (⟨S4096, .i32⟩ : BufTy).Contents (Elt F) → (⟨S1x4096, .i32⟩ : BufTy).Contents (Elt F)),
    unary main_v32 main_v40 (broadcastInDim S128x1 ![0] bcast_S128_S128x1_0 : (⟨S128, .i32⟩ : BufTy).Contents (Elt F) → (⟨S128x1, .i32⟩ : BufTy).Contents (Elt F)),
    unary main_v39 main_v41 (broadcastInDim S128x4096 ![0, 1] bcast_S1x4096_S128x4096_0_1 : (⟨S1x4096, .i32⟩ : BufTy).Contents (Elt F) → (⟨S128x4096, .i32⟩ : BufTy).Contents (Elt F)),
    unary main_v40 main_v42 (broadcastInDim S128x4096 ![0, 1] bcast_S128x1_S128x4096_0_1 : (⟨S128x1, .i32⟩ : BufTy).Contents (Elt F) → (⟨S128x4096, .i32⟩ : BufTy).Contents (Elt F)),
    binary main_v41 main_v42 main_v43 (addi : (⟨S128x4096, .i32⟩ : BufTy).Contents (Elt F) → (⟨S128x4096, .i32⟩ : BufTy).Contents (Elt F) → (⟨S128x4096, .i32⟩ : BufTy).Contents (Elt F)),
    reshape main_v43 main_v44 rfl shapeCasts_S128x4096_S524288,
    unary main_v29 main_v45 (broadcastInDim S1x4096 ![1] bcast_S4096_S1x4096_1 : (⟨S4096, .i1⟩ : BufTy).Contents (Elt F) → (⟨S1x4096, .i1⟩ : BufTy).Contents (Elt F)) ]
/-- The buffers they write. -/
abbrev W11 : List (Ref sig .tc) := [main_v33, main_v34, main_v35, main_v36, main_v37, main_v38, main_v39, main_v40, main_v41, main_v42, main_v43, main_v44, main_v45]

/-- Operations 148 … 156 of 230. -/
abbrev ops12 : List (HloOp τ sig (Elt F)) :=
  [ unary main_v45 main_v46 (broadcastInDim S128x4096 ![0, 1] bcast_S1x4096_S128x4096_0_1 : (⟨S1x4096, .i1⟩ : BufTy).Contents (Elt F) → (⟨S128x4096, .i1⟩ : BufTy).Contents (Elt F)),
    reshape main_v46 main_v47 rfl shapeCasts_S128x4096_S524288,
    nullary main_v48 (iotaInDim S8192 32 0),
    binary main_v38 main_v48 main_v49 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    binary main_v44 main_v48 main_v50 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    unary main_v47 main_v51 (uitofp .f32 : (⟨S524288, .i1⟩ : BufTy).Contents (Elt F) → (⟨S524288, .f32⟩ : BufTy).Contents (Elt F)),
    nullary main_cst (constant S_ .f32 0x3F800000#32),
    unary main_cst main_v52 (broadcastInDim S8192 ![] bcast_S_S8192 : (⟨S_, .f32⟩ : BufTy).Contents (Elt F) → (⟨S8192, .f32⟩ : BufTy).Contents (Elt F)),
    binary main_v51 main_v52 main_v53 ((fun a b => concatenate S532480 0 [⟨S524288, a⟩, ⟨S8192, b⟩] concatenates_S524288_S8192_S532480_d0) : (⟨S524288, .f32⟩ : BufTy).Contents (Elt F) → (⟨S8192, .f32⟩ : BufTy).Contents (Elt F) → (⟨S532480, .f32⟩ : BufTy).Contents (Elt F)) ]
/-- The buffers they write. -/
abbrev W12 : List (Ref sig .tc) := [main_v46, main_v47, main_v48, main_v49, main_v50, main_v51, main_cst, main_v52, main_v53]

/-- Operations 157 … 167 of 230. -/
abbrev ops13 : List (HloOp τ sig (Elt F)) :=
  [ nullary main_cst_13 (constant S_ .f32 0x00000000#32),
    unary main_cst_13 main_v54 (broadcastInDim S8192 ![] bcast_S_S8192 : (⟨S_, .f32⟩ : BufTy).Contents (Elt F) → (⟨S8192, .f32⟩ : BufTy).Contents (Elt F)),
    nullary main_c_14 (constantI S_ 32 0#32),
    unary main_c_14 main_v55 (broadcastInDim S532480 ![] bcast_S_S532480 : (⟨S_, .i32⟩ : BufTy).Contents (Elt F) → (⟨S532480, .i32⟩ : BufTy).Contents (Elt F)),
    binary main_v50 main_v55 main_v56 (cmpi .slt : (⟨S532480, .i32⟩ : BufTy).Contents (Elt F) → (⟨S532480, .i32⟩ : BufTy).Contents (Elt F) → (⟨S532480, .i1⟩ : BufTy).Contents (Elt F)),
    nullary main_c_15 (constantI S_ 32 8192#32),
    unary main_c_15 main_v57 (broadcastInDim S532480 ![] bcast_S_S532480 : (⟨S_, .i32⟩ : BufTy).Contents (Elt F) → (⟨S532480, .i32⟩ : BufTy).Contents (Elt F)),
    binary main_v50 main_v57 main_v58 (addi : (⟨S532480, .i32⟩ : BufTy).Contents (Elt F) → (⟨S532480, .i32⟩ : BufTy).Contents (Elt F) → (⟨S532480, .i32⟩ : BufTy).Contents (Elt F)),
    ternary main_v56 main_v58 main_v50 main_v59 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v59 main_v60 (broadcastInDim S532480x1 ![0] bcast_S532480_S532480x1_0 : (⟨S532480, .i32⟩ : BufTy).Contents (Elt F) → (⟨S532480x1, .i32⟩ : BufTy).Contents (Elt F)),
    ternary main_v54 main_v60 main_v53 main_v61 ((fun x i u => Host.scatterAdd scatter_S8192_S532480x1_S532480_n_0_0_1 x i u) : (⟨S8192, .f32⟩ : BufTy).Contents (Elt F) → (⟨S532480x1, .i32⟩ : BufTy).Contents (Elt F) → (⟨S532480, .f32⟩ : BufTy).Contents (Elt F) → (⟨S8192, .f32⟩ : BufTy).Contents (Elt F)) ]
/-- The buffers they write. -/
abbrev W13 : List (Ref sig .tc) := [main_cst_13, main_v54, main_c_14, main_v55, main_v56, main_c_15, main_v57, main_v58, main_v59, main_v60, main_v61]

/-- Operations 168 … 178 of 230. -/
abbrev ops14 : List (HloOp τ sig (Elt F)) :=
  [ nullary main_cst_16 (constant S_ .f32 0x00000000#32),
    unary main_cst_16 main_v62 (broadcastInDim S8192 ![] bcast_S_S8192 : (⟨S_, .f32⟩ : BufTy).Contents (Elt F) → (⟨S8192, .f32⟩ : BufTy).Contents (Elt F)),
    binary main_v61 main_v62 main_v63 (cmpf .ogt : (⟨S8192, .f32⟩ : BufTy).Contents (Elt F) → (⟨S8192, .f32⟩ : BufTy).Contents (Elt F) → (⟨S8192, .i1⟩ : BufTy).Contents (Elt F)),
    nullary main_cst_17 (constant S_ .f32 0x2B8CBCCC#32),
    unary main_cst_17 main_v64 (broadcastInDim S8192 ![] bcast_S_S8192 : (⟨S_, .f32⟩ : BufTy).Contents (Elt F) → (⟨S8192, .f32⟩ : BufTy).Contents (Elt F)),
    binary main_v61 main_v64 main_v65 (maximumf : (⟨S8192, .f32⟩ : BufTy).Contents (Elt F) → (⟨S8192, .f32⟩ : BufTy).Contents (Elt F) → (⟨S8192, .f32⟩ : BufTy).Contents (Elt F)),
    unary main_v65 main_v66 (Host.rsqrt : (⟨S8192, .f32⟩ : BufTy).Contents (Elt F) → (⟨S8192, .f32⟩ : BufTy).Contents (Elt F)),
    nullary main_cst_18 (constant S_ .f32 0x00000000#32),
    unary main_cst_18 main_call10_v0 (id : (⟨S_, .f32⟩ : BufTy).Contents (Elt F) → (⟨S_, .f32⟩ : BufTy).Contents (Elt F)),
    unary main_call10_v0 main_call10_v1 (broadcastInDim S8192 ![] bcast_S_S8192 : (⟨S_, .f32⟩ : BufTy).Contents (Elt F) → (⟨S8192, .f32⟩ : BufTy).Contents (Elt F)),
    ternary main_v63 main_v66 main_call10_v1 main_v67 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)) ]
/-- The buffers they write. -/
abbrev W14 : List (Ref sig .tc) := [main_cst_16, main_v62, main_v63, main_cst_17, main_v64, main_v65, main_v66, main_cst_18, main_call10_v0, main_call10_v1, main_v67]

/-- Operations 179 … 197 of 230. -/
abbrev ops15 : List (HloOp τ sig (Elt F)) :=
  [ nullary main_c_19 (constantI S_ 32 0#32),
    unary main_c_19 main_v68 (broadcastInDim S532480 ![] bcast_S_S532480 : (⟨S_, .i32⟩ : BufTy).Contents (Elt F) → (⟨S532480, .i32⟩ : BufTy).Contents (Elt F)),
    binary main_v49 main_v68 main_v69 (cmpi .slt : (⟨S532480, .i32⟩ : BufTy).Contents (Elt F) → (⟨S532480, .i32⟩ : BufTy).Contents (Elt F) → (⟨S532480, .i1⟩ : BufTy).Contents (Elt F)),
    nullary main_c_20 (constantI S_ 32 8192#32),
    unary main_c_20 main_v70 (broadcastInDim S532480 ![] bcast_S_S532480 : (⟨S_, .i32⟩ : BufTy).Contents (Elt F) → (⟨S532480, .i32⟩ : BufTy).Contents (Elt F)),
    binary main_v49 main_v70 main_v71 (addi : (⟨S532480, .i32⟩ : BufTy).Contents (Elt F) → (⟨S532480, .i32⟩ : BufTy).Contents (Elt F) → (⟨S532480, .i32⟩ : BufTy).Contents (Elt F)),
    ternary main_v69 main_v71 main_v49 main_v72 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v72 main_v73 (broadcastInDim S532480x1 ![0] bcast_S532480_S532480x1_0 : (⟨S532480, .i32⟩ : BufTy).Contents (Elt F) → (⟨S532480x1, .i32⟩ : BufTy).Contents (Elt F)),
    binary main_v67 main_v73 main_v74 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    nullary main_c_21 (constantI S_ 32 0#32),
    unary main_c_21 main_v75 (broadcastInDim S532480 ![] bcast_S_S532480 : (⟨S_, .i32⟩ : BufTy).Contents (Elt F) → (⟨S532480, .i32⟩ : BufTy).Contents (Elt F)),
    binary main_v50 main_v75 main_v76 (cmpi .slt : (⟨S532480, .i32⟩ : BufTy).Contents (Elt F) → (⟨S532480, .i32⟩ : BufTy).Contents (Elt F) → (⟨S532480, .i1⟩ : BufTy).Contents (Elt F)),
    nullary main_c_22 (constantI S_ 32 8192#32),
    unary main_c_22 main_v77 (broadcastInDim S532480 ![] bcast_S_S532480 : (⟨S_, .i32⟩ : BufTy).Contents (Elt F) → (⟨S532480, .i32⟩ : BufTy).Contents (Elt F)),
    binary main_v50 main_v77 main_v78 (addi : (⟨S532480, .i32⟩ : BufTy).Contents (Elt F) → (⟨S532480, .i32⟩ : BufTy).Contents (Elt F) → (⟨S532480, .i32⟩ : BufTy).Contents (Elt F)),
    ternary main_v76 main_v78 main_v50 main_v79 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v79 main_v80 (broadcastInDim S532480x1 ![0] bcast_S532480_S532480x1_0 : (⟨S532480, .i32⟩ : BufTy).Contents (Elt F) → (⟨S532480x1, .i32⟩ : BufTy).Contents (Elt F)),
    binary main_v67 main_v80 main_v81 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    binary main_v74 main_v81 main_v82 (mulf : (⟨S532480, .f32⟩ : BufTy).Contents (Elt F) → (⟨S532480, .f32⟩ : BufTy).Contents (Elt F) → (⟨S532480, .f32⟩ : BufTy).Contents (Elt F)) ]
/-- The buffers they write. -/
abbrev W15 : List (Ref sig .tc) := [main_c_19, main_v68, main_v69, main_c_20, main_v70, main_v71, main_v72, main_v73, main_v74, main_c_21, main_v75, main_v76, main_c_22, main_v77, main_v78, main_v79, main_v80, main_v81, main_v82]

/-- Operations 198 … 209 of 230. -/
abbrev ops16 : List (HloOp τ sig (Elt F)) :=
  [ binary main_v0 main_arg2 main_v83 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_c_23 (constantI S_ 32 0#32),
    unary main_c_23 main_v84 (broadcastInDim S532480 ![] bcast_S_S532480 : (⟨S_, .i32⟩ : BufTy).Contents (Elt F) → (⟨S532480, .i32⟩ : BufTy).Contents (Elt F)),
    binary main_v49 main_v84 main_v85 (cmpi .slt : (⟨S532480, .i32⟩ : BufTy).Contents (Elt F) → (⟨S532480, .i32⟩ : BufTy).Contents (Elt F) → (⟨S532480, .i1⟩ : BufTy).Contents (Elt F)),
    nullary main_c_24 (constantI S_ 32 8192#32),
    unary main_c_24 main_v86 (broadcastInDim S532480 ![] bcast_S_S532480 : (⟨S_, .i32⟩ : BufTy).Contents (Elt F) → (⟨S532480, .i32⟩ : BufTy).Contents (Elt F)),
    binary main_v49 main_v86 main_v87 (addi : (⟨S532480, .i32⟩ : BufTy).Contents (Elt F) → (⟨S532480, .i32⟩ : BufTy).Contents (Elt F) → (⟨S532480, .i32⟩ : BufTy).Contents (Elt F)),
    ternary main_v85 main_v87 main_v49 main_v88 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v88 main_v89 (broadcastInDim S532480x1 ![0] bcast_S532480_S532480x1_0 : (⟨S532480, .i32⟩ : BufTy).Contents (Elt F) → (⟨S532480x1, .i32⟩ : BufTy).Contents (Elt F)),
    binary main_v83 main_v89 main_v90 ((fun x i => Host.gather gather_S8192x128_S532480x1_S532480x128_1_0_n_n_0_1_1128 x i) : (⟨S8192x128, .f32⟩ : BufTy).Contents (Elt F) → (⟨S532480x1, .i32⟩ : BufTy).Contents (Elt F) → (⟨S532480x128, .f32⟩ : BufTy).Contents (Elt F)),
    binary main_v82 main_v53 main_v91 (mulf : (⟨S532480, .f32⟩ : BufTy).Contents (Elt F) → (⟨S532480, .f32⟩ : BufTy).Contents (Elt F) → (⟨S532480, .f32⟩ : BufTy).Contents (Elt F)),
    unary main_v91 main_v92 (broadcastInDim S532480x1 ![0] bcast_S532480_S532480x1_0 : (⟨S532480, .f32⟩ : BufTy).Contents (Elt F) → (⟨S532480x1, .f32⟩ : BufTy).Contents (Elt F)) ]
/-- The buffers they write. -/
abbrev W16 : List (Ref sig .tc) := [main_v83, main_c_23, main_v84, main_v85, main_c_24, main_v86, main_v87, main_v88, main_v89, main_v90, main_v91, main_v92]

/-- Operations 210 … 230 of 230. -/
abbrev ops17 : List (HloOp τ sig (Elt F)) :=
  [ unary main_v92 main_v93 (broadcastInDim S532480x128 ![0, 1] bcast_S532480x1_S532480x128_0_1 : (⟨S532480x1, .f32⟩ : BufTy).Contents (Elt F) → (⟨S532480x128, .f32⟩ : BufTy).Contents (Elt F)),
    binary main_v90 main_v93 main_v94 (mulf : (⟨S532480x128, .f32⟩ : BufTy).Contents (Elt F) → (⟨S532480x128, .f32⟩ : BufTy).Contents (Elt F) → (⟨S532480x128, .f32⟩ : BufTy).Contents (Elt F)),
    nullary main_cst_25 (constant S_ .f32 0x00000000#32),
    unary main_cst_25 main_v95 (broadcastInDim S8192x128 ![] bcast_S_S8192x128 : (⟨S_, .f32⟩ : BufTy).Contents (Elt F) → (⟨S8192x128, .f32⟩ : BufTy).Contents (Elt F)),
    nullary main_c_26 (constantI S_ 32 0#32),
    unary main_c_26 main_v96 (broadcastInDim S532480 ![] bcast_S_S532480 : (⟨S_, .i32⟩ : BufTy).Contents (Elt F) → (⟨S532480, .i32⟩ : BufTy).Contents (Elt F)),
    binary main_v50 main_v96 main_v97 (cmpi .slt : (⟨S532480, .i32⟩ : BufTy).Contents (Elt F) → (⟨S532480, .i32⟩ : BufTy).Contents (Elt F) → (⟨S532480, .i1⟩ : BufTy).Contents (Elt F)),
    nullary main_c_27 (constantI S_ 32 8192#32),
    unary main_c_27 main_v98 (broadcastInDim S532480 ![] bcast_S_S532480 : (⟨S_, .i32⟩ : BufTy).Contents (Elt F) → (⟨S532480, .i32⟩ : BufTy).Contents (Elt F)),
    binary main_v50 main_v98 main_v99 (addi : (⟨S532480, .i32⟩ : BufTy).Contents (Elt F) → (⟨S532480, .i32⟩ : BufTy).Contents (Elt F) → (⟨S532480, .i32⟩ : BufTy).Contents (Elt F)),
    ternary main_v97 main_v99 main_v50 main_v100 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v100 main_v101 (broadcastInDim S532480x1 ![0] bcast_S532480_S532480x1_0 : (⟨S532480, .i32⟩ : BufTy).Contents (Elt F) → (⟨S532480x1, .i32⟩ : BufTy).Contents (Elt F)),
    ternary main_v95 main_v101 main_v94 main_v102 ((fun x i u => Host.scatterAdd scatter_S8192x128_S532480x1_S532480x128_1_0_0_1 x i u) : (⟨S8192x128, .f32⟩ : BufTy).Contents (Elt F) → (⟨S532480x1, .i32⟩ : BufTy).Contents (Elt F) → (⟨S532480x128, .f32⟩ : BufTy).Contents (Elt F) → (⟨S8192x128, .f32⟩ : BufTy).Contents (Elt F)),
    unary main_arg3 main_v103 (broadcastInDim S1x128 ![1] bcast_S128_S1x128_1 : (⟨S128, .f32⟩ : BufTy).Contents (Elt F) → (⟨S1x128, .f32⟩ : BufTy).Contents (Elt F)),
    unary main_v103 main_v104 (broadcastInDim S8192x128 ![0, 1] bcast_S1x128_S8192x128_0_1 : (⟨S1x128, .f32⟩ : BufTy).Contents (Elt F) → (⟨S8192x128, .f32⟩ : BufTy).Contents (Elt F)),
    binary main_v102 main_v104 main_v105 (addf : (⟨S8192x128, .f32⟩ : BufTy).Contents (Elt F) → (⟨S8192x128, .f32⟩ : BufTy).Contents (Elt F) → (⟨S8192x128, .f32⟩ : BufTy).Contents (Elt F)),
    nullary main_call11_cst (constant S_ .f32 0x00000000#32),
    unary main_call11_cst main_call11_v0 (broadcastInDim S8192x128 ![] bcast_S_S8192x128 : (⟨S_, .f32⟩ : BufTy).Contents (Elt F) → (⟨S8192x128, .f32⟩ : BufTy).Contents (Elt F)),
    binary main_v105 main_call11_v0 main_v106 (maximumf : (⟨S8192x128, .f32⟩ : BufTy).Contents (Elt F) → (⟨S8192x128, .f32⟩ : BufTy).Contents (Elt F) → (⟨S8192x128, .f32⟩ : BufTy).Contents (Elt F)),
    binary main_v106 main_v0 main_v107 (addf : (⟨S8192x128, .f32⟩ : BufTy).Contents (Elt F) → (⟨S8192x128, .f32⟩ : BufTy).Contents (Elt F) → (⟨S8192x128, .f32⟩ : BufTy).Contents (Elt F)),
    reshape main_v107 main_v108 rfl shapeCasts_S8192x128_S128x64x128 ]
/-- The buffers they write. -/
abbrev W17 : List (Ref sig .tc) := [main_v93, main_v94, main_cst_25, main_v95, main_c_26, main_v96, main_v97, main_c_27, main_v98, main_v99, main_v100, main_v101, main_v102, main_v103, main_v104, main_v105, main_call11_cst, main_call11_v0, main_v106, main_v107, main_v108]

/-- The operations of @main's statements' window 0. -/
abbrev opsP0 : List (HloOp τ sig (Elt F)) := ops01 ++ (ops02 ++ (ops03 ++ (ops04 ++ (ops05 ++ (ops06 ++ (ops07 ++ (ops08 ++ (ops09 ++ (ops10 ++ (ops11))))))))))
/-- The operations of @main's statements' window 1. -/
abbrev opsP1 : List (HloOp τ sig (Elt F)) := ops12 ++ (ops13 ++ (ops14 ++ (ops15 ++ (ops16))))
/-- The operations of @main's statements' window 2. -/
abbrev opsP2 : List (HloOp τ sig (Elt F)) := ops17

/-- @main's operations, in order. -/
abbrev ops : List (HloOp τ sig (Elt F)) := opsP0 ++ (opsP1 ++ opsP2)

end Cert.Gcn.Ref

end
-- ==== Proof.RefRunMainA.lean ====
/-
  The first window of @main's statements is the straight line of its operations: each outlined function's
  definition unfolded at its call and the call's record at its fields, both sides are one chain of host steps once
  the sequencing is reassociated. The two chains spell a callee's operation differently (the function over typed
  references, with the identity transports around it, against the function itself): the array operations are kept
  folded while the two are compared, so that only the transports unfold.
-/
import proofs.«172550_g12077448036551_cont_sun_c4_50_16_alg».proof.Proof.RefRunOps
import Idealize.ShloMosaic.Lib.StableHlo.Run

noncomputable section

namespace Cert.Gcn.Ref

open Idealize.ShloMosaic Idealize.ShloMosaic.TcCoe Idealize.SL.Sem Idealize.ShloMosaic.StableHlo Cert.ReferenceIdeal Cert.ReferenceIdeal.Facts₀

variable [Cert.ReferenceIdeal.Facts] {F : FTy → Type} [FloatOps F]

attribute [local irreducible] broadcastInDim shapeCast constantI iotaInDim cmpi cmpf extui maxsi addi subi muli andi select signi Host.divsi Host.remsi Host.reduceWindow Host.reduce Host.scatter Host.scatterAdd Host.gather Host.rsqrt concatenate uitofp mulf addf maximumf in
set_option maxRecDepth 16384 in
set_option maxHeartbeats 2000000 in
theorem main_part0_eq (c : Dev nD) : main_part0 (F := F) c = seq opsP0 := by
  simp only [main_part0, fn_cumsum.body, fn_cumsum_0.body, fn_clip.body, fn_cumsum_1.body, fn_floor_divide.body, fn_where.body,
    fn_remainder.body, fn_where_2.body, fn_where_3.body, fn_count_nonzero.body, opsP0, seq_append, seq, bind_assoc, pure_bind]
  rfl

end Cert.Gcn.Ref

end
-- ==== Proof.RefRunMainB.lean ====
/-
  The second and third windows of @main's statements are the straight lines of their operations (as the first).
-/
import proofs.«172550_g12077448036551_cont_sun_c4_50_16_alg».proof.Proof.RefRunOps
import Idealize.ShloMosaic.Lib.StableHlo.Run

noncomputable section

namespace Cert.Gcn.Ref

open Idealize.ShloMosaic Idealize.ShloMosaic.TcCoe Idealize.SL.Sem Idealize.ShloMosaic.StableHlo Cert.ReferenceIdeal Cert.ReferenceIdeal.Facts₀

variable [Cert.ReferenceIdeal.Facts] {F : FTy → Type} [FloatOps F]

attribute [local irreducible] broadcastInDim shapeCast constantI iotaInDim cmpi cmpf extui maxsi addi subi muli andi select signi Host.divsi Host.remsi Host.reduceWindow Host.reduce Host.scatter Host.scatterAdd Host.gather Host.rsqrt concatenate uitofp mulf addf maximumf in
set_option maxRecDepth 16384 in
set_option maxHeartbeats 2000000 in
theorem main_part1_eq (c : Dev nD) : main_part1 (F := F) c = seq opsP1 := by
  simp only [main_part1, fn_where_4.body, opsP1, seq_append, seq, bind_assoc, pure_bind]
  rfl

attribute [local irreducible] broadcastInDim shapeCast constantI iotaInDim cmpi cmpf extui maxsi addi subi muli andi select signi Host.divsi Host.remsi Host.reduceWindow Host.reduce Host.scatter Host.scatterAdd Host.gather Host.rsqrt concatenate uitofp mulf addf maximumf in
set_option maxRecDepth 16384 in
set_option maxHeartbeats 2000000 in
theorem main_part2_eq (c : Dev nD) : main_part2 (F := F) c = seq opsP2 := by
  simp only [main_part2, fn_relu.body, opsP2, seq, bind_assoc, pure_bind]
  rfl

end Cert.Gcn.Ref

end
-- ==== Proof.RefRunMain.lean ====
/-
  @main is the straight line of its operations (its three windows of statements in order), nothing in the
  signature is scoped, and every operation touches TensorCore buffers only: what the run of a straight line asks.
-/
import proofs.«172550_g12077448036551_cont_sun_c4_50_16_alg».proof.Proof.RefRunMainA
import proofs.«172550_g12077448036551_cont_sun_c4_50_16_alg».proof.Proof.RefRunMainB
import Idealize.ShloMosaic.Lib.StableHlo.Run

noncomputable section

namespace Cert.Gcn.Ref

open Idealize.ShloMosaic Idealize.ShloMosaic.TcCoe Idealize.SL.Sem Idealize.ShloMosaic.StableHlo Cert.ReferenceIdeal Cert.ReferenceIdeal.Facts₀

variable [Cert.ReferenceIdeal.Facts] {F : FTy → Type} [FloatOps F]

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Each operation of a literal window touches TensorCore buffers only: the builders' own facts, one per operation
    (the goal after `simp only [‹window›, List.Forall]` is their conjunction). -/
macro "window_sub" : tactic =>
  `(tactic| simp only [nullary_bufs_sub, unary_bufs_sub, binary_bufs_sub, ternary_bufs_sub, reshape_bufs_sub, and_self])

theorem ops01_sub : (ops01 : List (HloOp τ sig (Elt F))).Forall fun op => op.bufs ⊆ tcRefs τ sig := by
  simp only [ops01, List.Forall]; window_sub
theorem ops02_sub : (ops02 : List (HloOp τ sig (Elt F))).Forall fun op => op.bufs ⊆ tcRefs τ sig := by
  simp only [ops02, List.Forall]; window_sub
theorem ops03_sub : (ops03 : List (HloOp τ sig (Elt F))).Forall fun op => op.bufs ⊆ tcRefs τ sig := by
  simp only [ops03, List.Forall]; window_sub
theorem ops04_sub : (ops04 : List (HloOp τ sig (Elt F))).Forall fun op => op.bufs ⊆ tcRefs τ sig := by
  simp only [ops04, List.Forall]; window_sub
theorem ops05_sub : (ops05 : List (HloOp τ sig (Elt F))).Forall fun op => op.bufs ⊆ tcRefs τ sig := by
  simp only [ops05, List.Forall]; window_sub
theorem ops06_sub : (ops06 : List (HloOp τ sig (Elt F))).Forall fun op => op.bufs ⊆ tcRefs τ sig := by
  simp only [ops06, List.Forall]; window_sub
theorem ops07_sub : (ops07 : List (HloOp τ sig (Elt F))).Forall fun op => op.bufs ⊆ tcRefs τ sig := by
  simp only [ops07, List.Forall]; window_sub
theorem ops08_sub : (ops08 : List (HloOp τ sig (Elt F))).Forall fun op => op.bufs ⊆ tcRefs τ sig := by
  simp only [ops08, List.Forall]; window_sub
theorem ops09_sub : (ops09 : List (HloOp τ sig (Elt F))).Forall fun op => op.bufs ⊆ tcRefs τ sig := by
  simp only [ops09, List.Forall]; window_sub
theorem ops10_sub : (ops10 : List (HloOp τ sig (Elt F))).Forall fun op => op.bufs ⊆ tcRefs τ sig := by
  simp only [ops10, List.Forall]; window_sub
theorem ops11_sub : (ops11 : List (HloOp τ sig (Elt F))).Forall fun op => op.bufs ⊆ tcRefs τ sig := by
  simp only [ops11, List.Forall]; window_sub
theorem ops12_sub : (ops12 : List (HloOp τ sig (Elt F))).Forall fun op => op.bufs ⊆ tcRefs τ sig := by
  simp only [ops12, List.Forall]; window_sub
theorem ops13_sub : (ops13 : List (HloOp τ sig (Elt F))).Forall fun op => op.bufs ⊆ tcRefs τ sig := by
  simp only [ops13, List.Forall]; window_sub
theorem ops14_sub : (ops14 : List (HloOp τ sig (Elt F))).Forall fun op => op.bufs ⊆ tcRefs τ sig := by
  simp only [ops14, List.Forall]; window_sub
theorem ops15_sub : (ops15 : List (HloOp τ sig (Elt F))).Forall fun op => op.bufs ⊆ tcRefs τ sig := by
  simp only [ops15, List.Forall]; window_sub
theorem ops16_sub : (ops16 : List (HloOp τ sig (Elt F))).Forall fun op => op.bufs ⊆ tcRefs τ sig := by
  simp only [ops16, List.Forall]; window_sub
theorem ops17_sub : (ops17 : List (HloOp τ sig (Elt F))).Forall fun op => op.bufs ⊆ tcRefs τ sig := by
  simp only [ops17, List.Forall]; window_sub

theorem ops_sub : (ops : List (HloOp τ sig (Elt F))).Forall fun op => op.bufs ⊆ tcRefs τ sig := by
  simp only [ops, opsP0, opsP1, opsP2, List.forall_append]
  exact ⟨⟨ops01_sub, ops02_sub, ops03_sub, ops04_sub, ops05_sub, ops06_sub, ops07_sub, ops08_sub, ops09_sub, ops10_sub, ops11_sub⟩,
    ⟨ops12_sub, ops13_sub, ops14_sub, ops15_sub, ops16_sub⟩, ops17_sub⟩

end Cert.Gcn.Ref

end
-- ==== Proof.RefTerm.lean ====
/-
  The reference program's values as pure functions of its four argument arrays
  x : [128, 64, 128], g : [64, 64] (32-bit integers), W : [128, 128], b : [128], at the extended reals.

  One definition per named value, each built from the earlier ones, every operation the one the program
  states (the same library operation, dimension record and literal). The program's outlined functions are
  functions here (`fCumsum0`, `fFloorDivide`, …), applied where the program calls them, and three sequences of
  operations that the program repeats verbatim are functions too (`spread`, `wrapIdx`, `batchOff`).

  What the values are. `nzMask g` marks the nonzero entries of g; `nzCum`, `nzBin`, `nzFlat` are the running
  counts by which the k-th nonzero entry's flat position is found (`nzFlat g` at k); `nzRow`, `nzCol` split that
  position into row and column (zero past the number of nonzero entries, `nzCount g`), `nzValid` marks the
  first `nzCount g` slots. `src`, `dst` list, for each of the 128 batches, the 4096 edge slots' end points
  offset by 64 times the batch, followed by the 8192 self loops; `wgt` is one on a valid slot and on a self
  loop, zero on a slot past the count. `degv` adds the weights into the destination nodes, `dis` is its inverse
  square root, `xwv` the product x·W over the 8192 nodes, and `refOut` the normalized sum of messages plus the
  bias, clamped at zero, plus x.
-/
import proofs.«172550_g12077448036551_cont_sun_c4_50_16_alg».proof.ReferenceIdeal
import Idealize.ShloMosaic.PureOps.Ideal

noncomputable section

namespace Cert.Gcn.Ref

open Idealize.ShloMosaic Cert.ReferenceIdeal Cert.ReferenceIdeal.Facts₀

variable [Cert.ReferenceIdeal.Facts]

/-! ### The outlined functions -/

/-- @cumsum_0: the running sum along the axis (a window of 4096, padded 4095 low). -/
def fCumsum0 (a : IVec S4096 32) : IVec S4096 32 :=
  let c : IVec S_ 32 := constantI S_ 32 0#32                                        -- %c
  let v0 : IVec S_ 32 := broadcastInDim S_ ![] bcast_S_S_ c                         -- %0
  Host.reduceWindow IntOp.addi ![4096] ![1] ![4095] ![0] a v0 reduceWindows_S4096_S4096_w4096s1p4095_0 h_S_ -- %1

/-- @cumsum: the mask flattened, widened to 32 bits, summed along. -/
def fCumsum (a : IVec S64x64 1) : IVec S4096 32 :=
  let v0 : IVec S4096 1 := shapeCast S4096 a shapeCasts_S64x64_S4096                -- %0
  let v1 : IVec S4096 32 := extui 32 v0 natLt_1_32                                  -- %1
  fCumsum0 v1                                                                       -- %2

/-- @clip: the maximum with a scalar lower bound. -/
def fClip (a : IVec S4096 32) (lo : IVec S_ 32) : IVec S4096 32 :=
  let v0 : IVec S_ 32 := id lo                                                      -- %0
  let v1 : IVec S4096 32 := broadcastInDim S4096 ![] bcast_S_S4096 v0               -- %1
  maxsi v1 a                                                                        -- %2

/-- @floor_divide by a scalar: the truncated quotient, less one where the signs differ and the remainder is not zero. -/
def fFloorDivide (a : IVec S4096 32) (d : IVec S_ 32) : IVec S4096 32 :=
  let v0 : IVec S4096 32 := broadcastInDim S4096 ![] bcast_S_S4096 d                -- %0
  let v1 : IVec S4096 32 := Host.divsi a v0                                         -- %1
  let v2 : IVec S4096 32 := signi a                                                 -- %2
  let v3 : IVec S_ 32 := signi d                                                    -- %3
  let v4 : IVec S4096 32 := broadcastInDim S4096 ![] bcast_S_S4096 v3               -- %4
  let v5 : IVec S4096 1 := cmpi .ne v2 v4                                           -- %5
  let v6 : IVec S4096 32 := broadcastInDim S4096 ![] bcast_S_S4096 d                -- %6
  let v7 : IVec S4096 32 := Host.remsi a v6                                         -- %7
  let c : IVec S_ 32 := constantI S_ 32 0#32                                        -- %c
  let v8 : IVec S4096 32 := broadcastInDim S4096 ![] bcast_S_S4096 c                -- %8
  let v9 : IVec S4096 1 := cmpi .ne v7 v8                                           -- %9
  let v10 : IVec S4096 1 := andi v5 v9                                              -- %10
  let c0 : IVec S_ 32 := constantI S_ 32 1#32                                       -- %c_0
  let v11 : IVec S4096 32 := broadcastInDim S4096 ![] bcast_S_S4096 c0              -- %11
  let v12 : IVec S4096 32 := subi v1 v11                                            -- %12
  select v10 v12 v1                                                                 -- %13 (@_where)

/-- @remainder by a scalar: the truncated remainder (by one if the divisor is zero), plus the divisor where it
    is not zero and its sign differs from the divisor's. -/
def fRemainder (a : IVec S4096 32) (d : IVec S_ 32) : IVec S4096 32 :=
  let v0 : IVec S_ 32 := id d                                                       -- %0
  let c : IVec S_ 32 := constantI S_ 32 0#32                                        -- %c
  let v1 : IVec S_ 1 := cmpi .eq v0 c                                               -- %1
  let c0 : IVec S_ 32 := constantI S_ 32 1#32                                       -- %c_0
  let v2 : IVec S_ 32 := select v1 c0 v0                                            -- %2 (@_where_2)
  let v3 : IVec S4096 32 := broadcastInDim S4096 ![] bcast_S_S4096 v2               -- %3
  let v4 : IVec S4096 32 := Host.remsi a v3                                         -- %4
  let c1 : IVec S_ 32 := constantI S_ 32 0#32                                       -- %c_1
  let v5 : IVec S4096 32 := broadcastInDim S4096 ![] bcast_S_S4096 c1               -- %5
  let v6 : IVec S4096 1 := cmpi .ne v4 v5                                           -- %6
  let c2 : IVec S_ 32 := constantI S_ 32 0#32                                       -- %c_2
  let v7 : IVec S4096 32 := broadcastInDim S4096 ![] bcast_S_S4096 c2               -- %7
  let v8 : IVec S4096 1 := cmpi .slt v4 v7                                          -- %8
  let c3 : IVec S_ 32 := constantI S_ 32 0#32                                       -- %c_3
  let v9 : IVec S_ 1 := cmpi .slt v2 c3                                             -- %9
  let v10 : IVec S4096 1 := broadcastInDim S4096 ![] bcast_S_S4096 v9               -- %10
  let v11 : IVec S4096 1 := cmpi .ne v8 v10                                         -- %11
  let v12 : IVec S4096 1 := andi v11 v6                                             -- %12
  let v13 : IVec S4096 32 := broadcastInDim S4096 ![] bcast_S_S4096 v2              -- %13
  let v14 : IVec S4096 32 := addi v4 v13                                            -- %14
  select v12 v14 v4                                                                 -- %15

/-- @_where_3: a scalar where the mask is set, the array elsewhere. -/
def fWhere3 (m : IVec S4096 1) (s : IVec S_ 32) (a : IVec S4096 32) : IVec S4096 32 :=
  let v0 : IVec S_ 32 := id s                                                       -- %0
  let v1 : IVec S4096 32 := broadcastInDim S4096 ![] bcast_S_S4096 v0               -- %1
  select m v1 a                                                                     -- %2

/-- @count_nonzero: the number of nonzero entries. -/
def fCountNonzero (a : IVec S64x64 32) : IVec S_ 32 :=
  let c : IVec S_ 32 := constantI S_ 32 0#32                                        -- %c
  let v0 : IVec S64x64 32 := broadcastInDim S64x64 ![] bcast_S_S64x64 c             -- %0
  let v1 : IVec S64x64 1 := cmpi .ne a v0                                           -- %1
  let v2 : IVec S64x64 32 := extui 32 v1 natLt_1_32                                 -- %2
  let c0 : IVec S_ 32 := constantI S_ 32 0#32                                       -- %c_0
  Host.reduce IntOp.addi v2 c0 reducesTo_S64x64_S_d0_1 h_S_                         -- %3

/-- @_where_4: the array where the mask is set, a scalar elsewhere. -/
def fWhere4 (m : IVec S8192 1) (a : FVec Ideal S8192 .f32) (s : FVec Ideal S_ .f32) : FVec Ideal S8192 .f32 :=
  let v0 : FVec Ideal S_ .f32 := id s                                               -- %0
  let v1 : FVec Ideal S8192 .f32 := broadcastInDim S8192 ![] bcast_S_S8192 v0       -- %1
  select m a v1                                                                     -- %2

/-- @relu: the maximum with zero. -/
def fRelu (a : FVec Ideal S8192x128 .f32) : FVec Ideal S8192x128 .f32 :=
  let cst : FVec Ideal S_ .f32 := constant (F := Ideal) S_ .f32 0x00000000#32       -- %cst
  let v0 : FVec Ideal S8192x128 .f32 := broadcastInDim S8192x128 ![] bcast_S_S8192x128 cst -- %0
  maximumf a v0                                                                     -- %1

/-! ### Sequences the program repeats -/

/-- 64 times the batch number (%30 … %32). -/
def batchOff : IVec S128 32 :=
  let v30 : IVec S128 32 := iotaInDim S128 32 0                                     -- %30
  let c12 : IVec S_ 32 := constantI S_ 32 64#32                                     -- %c_12
  let v31 : IVec S128 32 := broadcastInDim S128 ![] bcast_S_S128 c12                -- %31
  muli v30 v31                                                                      -- %32

/-- A per-slot node number repeated for the 128 batches, each offset by 64 times the batch, flattened
    (%33 … %38, and again %39 … %44). -/
def spread (v : IVec S4096 32) : IVec S524288 32 :=
  let v33 : IVec S1x4096 32 := broadcastInDim S1x4096 ![1] bcast_S4096_S1x4096_1 v                 -- %33 / %39
  let v34 : IVec S128x1 32 := broadcastInDim S128x1 ![0] bcast_S128_S128x1_0 batchOff              -- %34 / %40
  let v35 : IVec S128x4096 32 := broadcastInDim S128x4096 ![0, 1] bcast_S1x4096_S128x4096_0_1 v33  -- %35 / %41
  let v36 : IVec S128x4096 32 := broadcastInDim S128x4096 ![0, 1] bcast_S128x1_S128x4096_0_1 v34   -- %36 / %42
  let v37 : IVec S128x4096 32 := addi v35 v36                                                      -- %37 / %43
  shapeCast S524288 v37 shapeCasts_S128x4096_S524288                                               -- %38 / %44

/-- An index list made non-negative (8192 added to a negative entry) and given a trailing axis of one: what
    each gather and scatter is handed (%55 … %60, %68 … %73, %75 … %80, %84 … %89, %96 … %101). -/
def wrapIdx (i : IVec S532480 32) : IVec S532480x1 32 :=
  let c : IVec S_ 32 := constantI S_ 32 0#32                                        -- %c_14 / 19 / 21 / 23 / 26
  let z : IVec S532480 32 := broadcastInDim S532480 ![] bcast_S_S532480 c           -- %55 / 68 / 75 / 84 / 96
  let lt : IVec S532480 1 := cmpi .slt i z                                          -- %56 / 69 / 76 / 85 / 97
  let c' : IVec S_ 32 := constantI S_ 32 8192#32                                    -- %c_15 / 20 / 22 / 24 / 27
  let n : IVec S532480 32 := broadcastInDim S532480 ![] bcast_S_S532480 c'          -- %57 / 70 / 77 / 86 / 98
  let s : IVec S532480 32 := addi i n                                               -- %58 / 71 / 78 / 87 / 99
  let w : IVec S532480 32 := select lt s i                                          -- %59 / 72 / 79 / 88 / 100
  broadcastInDim S532480x1 ![0] bcast_S532480_S532480x1_0 w                         -- %60 / 73 / 80 / 89 / 101

/-! ### The graph's edge list -/

/-- %2: one where the graph's entry is not zero. -/
def nzMask (g : IVec S64x64 32) : IVec S64x64 1 :=
  let c : IVec S_ 32 := constantI S_ 32 0#32                                        -- %c
  let v1 : IVec S64x64 32 := broadcastInDim S64x64 ![] bcast_S_S64x64 c             -- %1
  cmpi .ne g v1                                                                     -- %2

/-- %3: the running count of nonzero entries in flat order. -/
def nzCum (g : IVec S64x64 32) : IVec S4096 32 := fCumsum (nzMask g)

/-- %13: a histogram of the running counts (each flat position adds one at its count). -/
def nzBin (g : IVec S64x64 32) : IVec S4096 32 :=
  let c0 : IVec S_ 32 := constantI S_ 32 0#32                                       -- %c_0
  let v4 : IVec S4096 32 := broadcastInDim S4096 ![] bcast_S_S4096 c0               -- %4
  let c1 : IVec S_ 32 := constantI S_ 32 0#32                                       -- %c_1
  let v5 : IVec S4096 32 := fClip (nzCum g) c1                                      -- %5
  let c2 : IVec S_ 32 := constantI S_ 32 0#32                                       -- %c_2
  let v6 : IVec S4096 32 := broadcastInDim S4096 ![] bcast_S_S4096 c2               -- %6
  let v7 : IVec S4096 1 := cmpi .slt v5 v6                                          -- %7
  let c3 : IVec S_ 32 := constantI S_ 32 4096#32                                    -- %c_3
  let v8 : IVec S4096 32 := broadcastInDim S4096 ![] bcast_S_S4096 c3               -- %8
  let v9 : IVec S4096 32 := addi v5 v8                                              -- %9
  let v10 : IVec S4096 32 := select v7 v9 v5                                        -- %10
  let v11 : IVec S4096x1 32 := broadcastInDim S4096x1 ![0] bcast_S4096_S4096x1_0 v10 -- %11
  let c4 : IVec S_ 32 := constantI S_ 32 1#32                                       -- %c_4
  let v12 : IVec S4096 32 := broadcastInDim S4096 ![] bcast_S_S4096 c4              -- %12
  Host.scatter scatter_S4096_S4096x1_S4096_n_0_0_1 IntOp.addi v4 v11 v12            -- %13

/-- %14: the running sum of the histogram; at k, the flat position of the k-th nonzero entry. -/
def nzFlat (g : IVec S64x64 32) : IVec S4096 32 := fCumsum0 (nzBin g)

/-- %15: the flat position divided by 64. -/
def nzQuot (g : IVec S64x64 32) : IVec S4096 32 :=
  let c5 : IVec S_ 32 := constantI S_ 32 64#32                                      -- %c_5
  fFloorDivide (nzFlat g) c5                                                        -- %15

/-- %16: that quotient modulo 64, the entry's row. -/
def nzRowRaw (g : IVec S64x64 32) : IVec S4096 32 :=
  let c6 : IVec S_ 32 := constantI S_ 32 64#32                                      -- %c_6
  fRemainder (nzQuot g) c6                                                          -- %16

/-- %17: the flat position divided by one. -/
def nzFlat1 (g : IVec S64x64 32) : IVec S4096 32 :=
  let c7 : IVec S_ 32 := constantI S_ 32 1#32                                       -- %c_7
  fFloorDivide (nzFlat g) c7                                                        -- %17

/-- %18: the flat position modulo 64, the entry's column. -/
def nzColRaw (g : IVec S64x64 32) : IVec S4096 32 :=
  let c8 : IVec S_ 32 := constantI S_ 32 64#32                                      -- %c_8
  fRemainder (nzFlat1 g) c8                                                         -- %18

/-- %23: one at the slots from the number of nonzero entries on. -/
def nzPad (g : IVec S64x64 32) : IVec S4096 1 :=
  let v19 : IVec S4096 32 := iotaInDim S4096 32 0                                   -- %19
  let v20 : IVec S64x64 32 := extui 32 (nzMask g) natLt_1_32                        -- %20
  let c9 : IVec S_ 32 := constantI S_ 32 0#32                                       -- %c_9
  let v21 : IVec S_ 32 := Host.reduce IntOp.addi v20 c9 reducesTo_S64x64_S_d0_1 h_S_ -- %21
  let v22 : IVec S4096 32 := broadcastInDim S4096 ![] bcast_S_S4096 v21             -- %22
  cmpi .sge v19 v22                                                                 -- %23

/-- %24: the k-th nonzero entry's row, zero past the count. -/
def nzRow (g : IVec S64x64 32) : IVec S4096 32 :=
  let c10 : IVec S_ 32 := constantI S_ 32 0#32                                      -- %c_10
  fWhere3 (nzPad g) c10 (nzRowRaw g)                                                -- %24

/-- %25: the k-th nonzero entry's column, zero past the count. -/
def nzCol (g : IVec S64x64 32) : IVec S4096 32 :=
  let c11 : IVec S_ 32 := constantI S_ 32 0#32                                      -- %c_11
  fWhere3 (nzPad g) c11 (nzColRaw g)                                                -- %25

/-- %26: the number of nonzero entries. -/
def nzCount (g : IVec S64x64 32) : IVec S_ 32 := fCountNonzero g

/-- %29: one at the slots before the number of nonzero entries. -/
def nzValid (g : IVec S64x64 32) : IVec S4096 1 :=
  let v27 : IVec S4096 32 := iotaInDim S4096 32 0                                   -- %27
  let v28 : IVec S4096 32 := broadcastInDim S4096 ![] bcast_S_S4096 (nzCount g)     -- %28
  cmpi .slt v27 v28                                                                 -- %29

/-- %47: the valid-slot mask repeated for the 128 batches, flattened. -/
def validAll (g : IVec S64x64 32) : IVec S524288 1 :=
  let v45 : IVec S1x4096 1 := broadcastInDim S1x4096 ![1] bcast_S4096_S1x4096_1 (nzValid g)       -- %45
  let v46 : IVec S128x4096 1 := broadcastInDim S128x4096 ![0, 1] bcast_S1x4096_S128x4096_0_1 v45  -- %46
  shapeCast S524288 v46 shapeCasts_S128x4096_S524288                                              -- %47

/-- %48: the 8192 node numbers (the self loops' end points). -/
def selfIdx : IVec S8192 32 := iotaInDim S8192 32 0

/-- %49: the edges' first end points (the entries' rows, per batch), then the self loops'. -/
def src (g : IVec S64x64 32) : IVec S532480 32 :=
  concatenate S532480 0 [⟨S524288, spread (nzRow g)⟩, ⟨S8192, selfIdx⟩] concatenates_S524288_S8192_S532480_d0

/-- %50: the edges' second end points (the entries' columns, per batch), then the self loops'. -/
def dst (g : IVec S64x64 32) : IVec S532480 32 :=
  concatenate S532480 0 [⟨S524288, spread (nzCol g)⟩, ⟨S8192, selfIdx⟩] concatenates_S524288_S8192_S532480_d0

/-- %53: the edges' weights: one on a valid slot, zero on a slot past the count, one on a self loop. -/
def wgt (g : IVec S64x64 32) : FVec Ideal S532480 .f32 :=
  let v51 : FVec Ideal S524288 .f32 := uitofp (F := Ideal) .f32 (validAll g)        -- %51
  let cst : FVec Ideal S_ .f32 := constant (F := Ideal) S_ .f32 0x3F800000#32       -- %cst
  let v52 : FVec Ideal S8192 .f32 := broadcastInDim S8192 ![] bcast_S_S8192 cst     -- %52
  concatenate S532480 0 [⟨S524288, v51⟩, ⟨S8192, v52⟩] concatenates_S524288_S8192_S532480_d0 -- %53

/-! ### The normalization -/

/-- %61: each node's degree: the weights added up at the second end points. -/
def degv (g : IVec S64x64 32) : FVec Ideal S8192 .f32 :=
  let cst13 : FVec Ideal S_ .f32 := constant (F := Ideal) S_ .f32 0x00000000#32     -- %cst_13
  let v54 : FVec Ideal S8192 .f32 := broadcastInDim S8192 ![] bcast_S_S8192 cst13   -- %54
  Host.scatterAdd scatter_S8192_S532480x1_S532480_n_0_0_1 v54 (wrapIdx (dst g)) (wgt g) -- %61

/-- %67: the degree's inverse square root where the degree is positive, zero elsewhere. -/
def dis (g : IVec S64x64 32) : FVec Ideal S8192 .f32 :=
  let cst16 : FVec Ideal S_ .f32 := constant (F := Ideal) S_ .f32 0x00000000#32     -- %cst_16
  let v62 : FVec Ideal S8192 .f32 := broadcastInDim S8192 ![] bcast_S_S8192 cst16   -- %62
  let v63 : IVec S8192 1 := cmpf .ogt (degv g) v62                                  -- %63
  let cst17 : FVec Ideal S_ .f32 := constant (F := Ideal) S_ .f32 0x2B8CBCCC#32     -- %cst_17
  let v64 : FVec Ideal S8192 .f32 := broadcastInDim S8192 ![] bcast_S_S8192 cst17   -- %64
  let v65 : FVec Ideal S8192 .f32 := maximumf (degv g) v64                          -- %65
  let v66 : FVec Ideal S8192 .f32 := Host.rsqrt v65                                 -- %66
  let cst18 : FVec Ideal S_ .f32 := constant (F := Ideal) S_ .f32 0x00000000#32     -- %cst_18
  fWhere4 v63 v66 cst18                                                             -- %67

/-- %82: per edge, the product of the two end points' normalizations. -/
def coef (g : IVec S64x64 32) : FVec Ideal S532480 .f32 :=
  let v74 : FVec Ideal S532480 .f32 := Host.gather gather_S8192_S532480x1_S532480_n_0_n_n_0_1_1 (dis g) (wrapIdx (src g)) -- %74
  let v81 : FVec Ideal S532480 .f32 := Host.gather gather_S8192_S532480x1_S532480_n_0_n_n_0_1_1 (dis g) (wrapIdx (dst g)) -- %81
  mulf v74 v81                                                                      -- %82

/-! ### The layer -/

/-- %0: x with batch and node merged. -/
def x2d (x : FVec Ideal S128x64x128 .f32) : FVec Ideal S8192x128 .f32 :=
  shapeCast S8192x128 x shapeCasts_S128x64x128_S8192x128

/-- %83: x·W over the 8192 nodes. -/
def xwv (x : FVec Ideal S128x64x128 .f32) (W : FVec Ideal S128x128 .f32) : FVec Ideal S8192x128 .f32 :=
  Host.dotGeneral dot_S8192x128_S128x128_S8192x128_1_0_0_1_n_n none (x2d x) W

/-- %94: per edge, the first end point's row of x·W times the edge's coefficient and weight. -/
def msg (x : FVec Ideal S128x64x128 .f32) (g : IVec S64x64 32) (W : FVec Ideal S128x128 .f32) : FVec Ideal S532480x128 .f32 :=
  let v90 : FVec Ideal S532480x128 .f32 :=
    Host.gather gather_S8192x128_S532480x1_S532480x128_1_0_n_n_0_1_1128 (xwv x W) (wrapIdx (src g)) -- %90
  let v91 : FVec Ideal S532480 .f32 := mulf (coef g) (wgt g)                        -- %91
  let v92 : FVec Ideal S532480x1 .f32 := broadcastInDim S532480x1 ![0] bcast_S532480_S532480x1_0 v91 -- %92
  let v93 : FVec Ideal S532480x128 .f32 := broadcastInDim S532480x128 ![0, 1] bcast_S532480x1_S532480x128_0_1 v92 -- %93
  mulf v90 v93                                                                      -- %94

/-- %102: the messages added up at the second end points. -/
def aggv (x : FVec Ideal S128x64x128 .f32) (g : IVec S64x64 32) (W : FVec Ideal S128x128 .f32) : FVec Ideal S8192x128 .f32 :=
  let cst25 : FVec Ideal S_ .f32 := constant (F := Ideal) S_ .f32 0x00000000#32     -- %cst_25
  let v95 : FVec Ideal S8192x128 .f32 := broadcastInDim S8192x128 ![] bcast_S_S8192x128 cst25 -- %95
  Host.scatterAdd scatter_S8192x128_S532480x1_S532480x128_1_0_0_1 v95 (wrapIdx (dst g)) (msg x g W) -- %102

/-- %108: the sum plus the bias, clamped at zero, plus x, in x's shape. -/
def refOut (x : FVec Ideal S128x64x128 .f32) (g : IVec S64x64 32) (W : FVec Ideal S128x128 .f32)
    (b : FVec Ideal S128 .f32) : FVec Ideal S128x64x128 .f32 :=
  let v103 : FVec Ideal S1x128 .f32 := broadcastInDim S1x128 ![1] bcast_S128_S1x128_1 b                 -- %103
  let v104 : FVec Ideal S8192x128 .f32 := broadcastInDim S8192x128 ![0, 1] bcast_S1x128_S8192x128_0_1 v103 -- %104
  let v105 : FVec Ideal S8192x128 .f32 := addf (aggv x g W) v104                     -- %105
  let v106 : FVec Ideal S8192x128 .f32 := fRelu v105                                -- %106
  let v107 : FVec Ideal S8192x128 .f32 := addf v106 (x2d x)                       -- %107
  shapeCast S128x64x128 v107 shapeCasts_S8192x128_S128x64x128                       -- %108

end Cert.Gcn.Ref

end
-- ==== Proof.RefRunVal1.lean ====
/-
  The reference program's buffer contents, window by window (windows 1 … 11 of 17: the graph's edge list).

  `valK V0` is the contents after the first K windows of operations from the contents `V0`. For every buffer a later
  window reads, a lemma `valK_‹buffer›` says which of the values named in RefTerm.lean it holds, as a function of the
  argument buffers' contents in `V0`: a buffer the K-th window writes by reading the window's operations off
  (the operands by the lemmas of `val(K-1)`; what remains is one definition's unfolding), a buffer written earlier
  because the windows between do not write it (`valK_keep`).
-/
import proofs.«172550_g12077448036551_cont_sun_c4_50_16_alg».proof.Proof.RefRunOps
import proofs.«172550_g12077448036551_cont_sun_c4_50_16_alg».proof.Proof.RefTerm
import Idealize.ShloMosaic.Lib.StableHlo.Run

noncomputable section

namespace Cert.Gcn.Ref

open Idealize.ShloMosaic Idealize.ShloMosaic.TcCoe Idealize.SL.Sem Idealize.ShloMosaic.StableHlo Cert.ReferenceIdeal Cert.ReferenceIdeal.Facts₀

variable [Cert.ReferenceIdeal.Facts]

/-- The contents of the device's buffers, floats at the extended reals. -/
abbrev Vals : Type := Valuation τ sig (Elt Ideal)

/-- Each operation of a literal window writes one buffer, a member of the window's list (the goal after
    `simp only [‹window›, List.Forall]`: a conjunction, one inclusion per operation). -/
macro "window_writes" : tactic =>
  `(tactic| (and_intros
             all_goals (simp only [nullary_writes, unary_writes, binary_writes, ternary_writes, reshape_writes,
                 Finset.singleton_subset_iff, List.mem_toFinset]
                        exact List.mem_map_of_mem (by decide))))

/-- The buffer contents after the first 1 window. -/
def val01 (V0 : Vals) : Vals := after ops01 V0
theorem ops01_writes : (ops01 : List (HloOp τ sig (Elt Ideal))).Forall fun op =>
    op.writes ⊆ (W01.map (Proc.devRef (τ := τ) .tc)).toFinset := by
  simp only [ops01, List.Forall]; window_writes
/-- A buffer that window 1 does not write keeps its contents through it. -/
theorem val01_keep (V0 : Vals) (r : Ref sig .tc) (h : r ∉ W01) :
    val01 V0 (no_index (Proc.devRef .tc r)) = V0 (Proc.devRef .tc r) :=
  after_of_writes_sub ops01 _ ops01_writes h
/-- %0: x with batch and node merged. -/
theorem val01_v0 (V0 : Vals) : val01 V0 (no_index (Proc.devRef .tc main_v0)) = x2d (V0 (Proc.devRef .tc main_arg0)) := by
  unfold val01; simp only [ops01]; after_results_simp <;> rfl
/-- %2: the mask of nonzero entries. -/
theorem val01_v2 (V0 : Vals) : val01 V0 (no_index (Proc.devRef .tc main_v2)) = nzMask (V0 (Proc.devRef .tc main_arg1)) := by
  unfold val01; simp only [ops01]; after_results_simp <;> rfl

/-- The buffer contents after the first 2 windows. -/
def val02 (V0 : Vals) : Vals := after ops02 (val01 V0)
theorem ops02_writes : (ops02 : List (HloOp τ sig (Elt Ideal))).Forall fun op =>
    op.writes ⊆ (W02.map (Proc.devRef (τ := τ) .tc)).toFinset := by
  simp only [ops02, List.Forall]; window_writes
/-- A buffer that window 2 does not write keeps its contents through it. -/
theorem val02_keep (V0 : Vals) (r : Ref sig .tc) (h : r ∉ W02) :
    val02 V0 (no_index (Proc.devRef .tc r)) = val01 V0 (Proc.devRef .tc r) :=
  after_of_writes_sub ops02 _ ops02_writes h
/-- %3: the running count. -/
theorem val02_v3 (V0 : Vals) : val02 V0 (no_index (Proc.devRef .tc main_v3)) = nzCum (V0 (Proc.devRef .tc main_arg1)) := by
  unfold val02; simp only [ops02]; after_results_simp; simp only [val01_v2] <;> rfl

/-- The buffer contents after the first 3 windows. -/
def val03 (V0 : Vals) : Vals := after ops03 (val02 V0)
theorem ops03_writes : (ops03 : List (HloOp τ sig (Elt Ideal))).Forall fun op =>
    op.writes ⊆ (W03.map (Proc.devRef (τ := τ) .tc)).toFinset := by
  simp only [ops03, List.Forall]; window_writes
/-- A buffer that window 3 does not write keeps its contents through it. -/
theorem val03_keep (V0 : Vals) (r : Ref sig .tc) (h : r ∉ W03) :
    val03 V0 (no_index (Proc.devRef .tc r)) = val02 V0 (Proc.devRef .tc r) :=
  after_of_writes_sub ops03 _ ops03_writes h
/-- %13: the histogram of the running counts. -/
theorem val03_v13 (V0 : Vals) : val03 V0 (no_index (Proc.devRef .tc main_v13)) = nzBin (V0 (Proc.devRef .tc main_arg1)) := by
  unfold val03; simp only [ops03]; after_results_simp; simp only [val02_v3] <;> rfl

/-- The buffer contents after the first 4 windows. -/
def val04 (V0 : Vals) : Vals := after ops04 (val03 V0)
theorem ops04_writes : (ops04 : List (HloOp τ sig (Elt Ideal))).Forall fun op =>
    op.writes ⊆ (W04.map (Proc.devRef (τ := τ) .tc)).toFinset := by
  simp only [ops04, List.Forall]; window_writes
/-- A buffer that window 4 does not write keeps its contents through it. -/
theorem val04_keep (V0 : Vals) (r : Ref sig .tc) (h : r ∉ W04) :
    val04 V0 (no_index (Proc.devRef .tc r)) = val03 V0 (Proc.devRef .tc r) :=
  after_of_writes_sub ops04 _ ops04_writes h
/-- %14: the k-th nonzero entry's flat position. -/
theorem val04_v14 (V0 : Vals) : val04 V0 (no_index (Proc.devRef .tc main_v14)) = nzFlat (V0 (Proc.devRef .tc main_arg1)) := by
  unfold val04; simp only [ops04]; after_results_simp; simp only [val03_v13] <;> rfl

/-- The buffer contents after the first 5 windows. -/
def val05 (V0 : Vals) : Vals := after ops05 (val04 V0)
theorem ops05_writes : (ops05 : List (HloOp τ sig (Elt Ideal))).Forall fun op =>
    op.writes ⊆ (W05.map (Proc.devRef (τ := τ) .tc)).toFinset := by
  simp only [ops05, List.Forall]; window_writes
/-- A buffer that window 5 does not write keeps its contents through it. -/
theorem val05_keep (V0 : Vals) (r : Ref sig .tc) (h : r ∉ W05) :
    val05 V0 (no_index (Proc.devRef .tc r)) = val04 V0 (Proc.devRef .tc r) :=
  after_of_writes_sub ops05 _ ops05_writes h
/-- %15: the flat position divided by 64. -/
theorem val05_v15 (V0 : Vals) : val05 V0 (no_index (Proc.devRef .tc main_v15)) = nzQuot (V0 (Proc.devRef .tc main_arg1)) := by
  unfold val05; simp only [ops05]; after_results_simp; simp only [val04_v14] <;> rfl

/-- The buffer contents after the first 6 windows. -/
def val06 (V0 : Vals) : Vals := after ops06 (val05 V0)
theorem ops06_writes : (ops06 : List (HloOp τ sig (Elt Ideal))).Forall fun op =>
    op.writes ⊆ (W06.map (Proc.devRef (τ := τ) .tc)).toFinset := by
  simp only [ops06, List.Forall]; window_writes
/-- A buffer that window 6 does not write keeps its contents through it. -/
theorem val06_keep (V0 : Vals) (r : Ref sig .tc) (h : r ∉ W06) :
    val06 V0 (no_index (Proc.devRef .tc r)) = val05 V0 (Proc.devRef .tc r) :=
  after_of_writes_sub ops06 _ ops06_writes h
/-- %16: the row. -/
theorem val06_v16 (V0 : Vals) : val06 V0 (no_index (Proc.devRef .tc main_v16)) = nzRowRaw (V0 (Proc.devRef .tc main_arg1)) := by
  unfold val06; simp only [ops06]; after_results_simp; simp only [val05_v15] <;> rfl
/-- %14, kept through windows 5 and 6. -/
theorem val06_v14 (V0 : Vals) : val06 V0 (no_index (Proc.devRef .tc main_v14)) = nzFlat (V0 (Proc.devRef .tc main_arg1)) := by
  simp (disch := decide) only [val06_keep, val05_keep, val04_v14]

/-- The buffer contents after the first 7 windows. -/
def val07 (V0 : Vals) : Vals := after ops07 (val06 V0)
theorem ops07_writes : (ops07 : List (HloOp τ sig (Elt Ideal))).Forall fun op =>
    op.writes ⊆ (W07.map (Proc.devRef (τ := τ) .tc)).toFinset := by
  simp only [ops07, List.Forall]; window_writes
/-- A buffer that window 7 does not write keeps its contents through it. -/
theorem val07_keep (V0 : Vals) (r : Ref sig .tc) (h : r ∉ W07) :
    val07 V0 (no_index (Proc.devRef .tc r)) = val06 V0 (Proc.devRef .tc r) :=
  after_of_writes_sub ops07 _ ops07_writes h
/-- %17: the flat position divided by one. -/
theorem val07_v17 (V0 : Vals) : val07 V0 (no_index (Proc.devRef .tc main_v17)) = nzFlat1 (V0 (Proc.devRef .tc main_arg1)) := by
  unfold val07; simp only [ops07]; after_results_simp; simp only [val06_v14] <;> rfl

/-- The buffer contents after the first 8 windows. -/
def val08 (V0 : Vals) : Vals := after ops08 (val07 V0)
theorem ops08_writes : (ops08 : List (HloOp τ sig (Elt Ideal))).Forall fun op =>
    op.writes ⊆ (W08.map (Proc.devRef (τ := τ) .tc)).toFinset := by
  simp only [ops08, List.Forall]; window_writes
/-- A buffer that window 8 does not write keeps its contents through it. -/
theorem val08_keep (V0 : Vals) (r : Ref sig .tc) (h : r ∉ W08) :
    val08 V0 (no_index (Proc.devRef .tc r)) = val07 V0 (Proc.devRef .tc r) :=
  after_of_writes_sub ops08 _ ops08_writes h
/-- %18: the column. -/
theorem val08_v18 (V0 : Vals) : val08 V0 (no_index (Proc.devRef .tc main_v18)) = nzColRaw (V0 (Proc.devRef .tc main_arg1)) := by
  unfold val08; simp only [ops08]; after_results_simp; simp only [val07_v17] <;> rfl
/-- %16, kept through windows 7 and 8. -/
theorem val08_v16 (V0 : Vals) : val08 V0 (no_index (Proc.devRef .tc main_v16)) = nzRowRaw (V0 (Proc.devRef .tc main_arg1)) := by
  simp (disch := decide) only [val08_keep, val07_keep, val06_v16]
/-- %2, kept through windows 2 … 8. -/
theorem val08_v2 (V0 : Vals) : val08 V0 (no_index (Proc.devRef .tc main_v2)) = nzMask (V0 (Proc.devRef .tc main_arg1)) := by
  simp (disch := decide) only [val08_keep, val07_keep, val06_keep, val05_keep, val04_keep, val03_keep, val02_keep, val01_v2]

/-- The buffer contents after the first 9 windows. -/
def val09 (V0 : Vals) : Vals := after ops09 (val08 V0)
theorem ops09_writes : (ops09 : List (HloOp τ sig (Elt Ideal))).Forall fun op =>
    op.writes ⊆ (W09.map (Proc.devRef (τ := τ) .tc)).toFinset := by
  simp only [ops09, List.Forall]; window_writes
/-- A buffer that window 9 does not write keeps its contents through it. -/
theorem val09_keep (V0 : Vals) (r : Ref sig .tc) (h : r ∉ W09) :
    val09 V0 (no_index (Proc.devRef .tc r)) = val08 V0 (Proc.devRef .tc r) :=
  after_of_writes_sub ops09 _ ops09_writes h
/-- %24: the row, zero past the count. -/
theorem val09_v24 (V0 : Vals) : val09 V0 (no_index (Proc.devRef .tc main_v24)) = nzRow (V0 (Proc.devRef .tc main_arg1)) := by
  unfold val09; simp only [ops09]; after_results_simp; simp only [val08_v2, val08_v16] <;> rfl
/-- %25: the column, zero past the count. -/
theorem val09_v25 (V0 : Vals) : val09 V0 (no_index (Proc.devRef .tc main_v25)) = nzCol (V0 (Proc.devRef .tc main_arg1)) := by
  unfold val09; simp only [ops09]; after_results_simp; simp only [val08_v2, val08_v18] <;> rfl
/-- The graph, written by no operation. -/
theorem val09_arg1 (V0 : Vals) : val09 V0 (no_index (Proc.devRef .tc main_arg1)) = (V0 (Proc.devRef .tc main_arg1)) := by
  simp (disch := decide) only [val09_keep, val08_keep, val07_keep, val06_keep, val05_keep, val04_keep, val03_keep, val02_keep, val01_keep]

/-- The buffer contents after the first 10 windows. -/
def val10 (V0 : Vals) : Vals := after ops10 (val09 V0)
theorem ops10_writes : (ops10 : List (HloOp τ sig (Elt Ideal))).Forall fun op =>
    op.writes ⊆ (W10.map (Proc.devRef (τ := τ) .tc)).toFinset := by
  simp only [ops10, List.Forall]; window_writes
/-- A buffer that window 10 does not write keeps its contents through it. -/
theorem val10_keep (V0 : Vals) (r : Ref sig .tc) (h : r ∉ W10) :
    val10 V0 (no_index (Proc.devRef .tc r)) = val09 V0 (Proc.devRef .tc r) :=
  after_of_writes_sub ops10 _ ops10_writes h
/-- %29: the mask of valid slots. -/
theorem val10_v29 (V0 : Vals) : val10 V0 (no_index (Proc.devRef .tc main_v29)) = nzValid (V0 (Proc.devRef .tc main_arg1)) := by
  unfold val10; simp only [ops10]; after_results_simp; simp only [val09_arg1] <;> rfl
/-- %32: 64 times the batch number. -/
theorem val10_v32 (V0 : Vals) : val10 V0 (no_index (Proc.devRef .tc main_v32)) = batchOff := by
  unfold val10; simp only [ops10]; after_results_simp <;> rfl
/-- %24, kept through window 10. -/
theorem val10_v24 (V0 : Vals) : val10 V0 (no_index (Proc.devRef .tc main_v24)) = nzRow (V0 (Proc.devRef .tc main_arg1)) := by
  simp (disch := decide) only [val10_keep, val09_v24]
/-- %25, kept through window 10. -/
theorem val10_v25 (V0 : Vals) : val10 V0 (no_index (Proc.devRef .tc main_v25)) = nzCol (V0 (Proc.devRef .tc main_arg1)) := by
  simp (disch := decide) only [val10_keep, val09_v25]

/-- The buffer contents after the first 11 windows. -/
def val11 (V0 : Vals) : Vals := after ops11 (val10 V0)
theorem ops11_writes : (ops11 : List (HloOp τ sig (Elt Ideal))).Forall fun op =>
    op.writes ⊆ (W11.map (Proc.devRef (τ := τ) .tc)).toFinset := by
  simp only [ops11, List.Forall]; window_writes
/-- A buffer that window 11 does not write keeps its contents through it. -/
theorem val11_keep (V0 : Vals) (r : Ref sig .tc) (h : r ∉ W11) :
    val11 V0 (no_index (Proc.devRef .tc r)) = val10 V0 (Proc.devRef .tc r) :=
  after_of_writes_sub ops11 _ ops11_writes h
/-- %38: the rows per batch, offset, flattened. -/
theorem val11_v38 (V0 : Vals) : val11 V0 (no_index (Proc.devRef .tc main_v38)) = spread (nzRow (V0 (Proc.devRef .tc main_arg1))) := by
  unfold val11; simp only [ops11]; after_results_simp; simp only [val10_v24, val10_v32] <;> rfl
/-- %44: the columns per batch, offset, flattened. -/
theorem val11_v44 (V0 : Vals) : val11 V0 (no_index (Proc.devRef .tc main_v44)) = spread (nzCol (V0 (Proc.devRef .tc main_arg1))) := by
  unfold val11; simp only [ops11]; after_results_simp; simp only [val10_v25, val10_v32] <;> rfl
/-- %45: the valid-slot mask with a leading axis of one. -/
theorem val11_v45 (V0 : Vals) : val11 V0 (no_index (Proc.devRef .tc main_v45)) = broadcastInDim S1x4096 ![1] bcast_S4096_S1x4096_1 (nzValid (V0 (Proc.devRef .tc main_arg1))) := by
  unfold val11; simp only [ops11]; after_results_simp; simp only [val10_v29] <;> rfl

end Cert.Gcn.Ref

end
-- ==== Proof.RefRunVal2.lean ====
/-
  The reference program's buffer contents, window by window (windows 12 … 17 of 17: the edge weights, the
  normalization, the layer), in the shape of windows 1 … 11: `valK_‹buffer›` says which of the values named in
  RefTerm.lean the buffer holds after the first K windows, as a function of the argument buffers' contents.
-/
import proofs.«172550_g12077448036551_cont_sun_c4_50_16_alg».proof.Proof.RefRunVal1
import Idealize.ShloMosaic.Lib.StableHlo.Run

noncomputable section

namespace Cert.Gcn.Ref

open Idealize.ShloMosaic Idealize.ShloMosaic.TcCoe Idealize.SL.Sem Idealize.ShloMosaic.StableHlo Cert.ReferenceIdeal Cert.ReferenceIdeal.Facts₀

variable [Cert.ReferenceIdeal.Facts]

/-- The buffer contents after the first 12 windows. -/
def val12 (V0 : Vals) : Vals := after ops12 (val11 V0)
theorem ops12_writes : (ops12 : List (HloOp τ sig (Elt Ideal))).Forall fun op =>
    op.writes ⊆ (W12.map (Proc.devRef (τ := τ) .tc)).toFinset := by
  simp only [ops12, List.Forall]; window_writes
/-- A buffer that window 12 does not write keeps its contents through it. -/
theorem val12_keep (V0 : Vals) (r : Ref sig .tc) (h : r ∉ W12) :
    val12 V0 (no_index (Proc.devRef .tc r)) = val11 V0 (Proc.devRef .tc r) :=
  after_of_writes_sub ops12 _ ops12_writes h
/- The three concatenations hold their operands inside a list of (shape, array) pairs: the operands' contents are
   read there by rewriting, step by step. -/
/-- %49: the edges' first end points. -/
theorem val12_v49 (V0 : Vals) : val12 V0 (no_index (Proc.devRef .tc main_v49)) = src (V0 (Proc.devRef .tc main_arg1)) := by
  unfold val12; simp only [ops12]; after_results; rw [val11_v38]; rfl
/-- %50: the edges' second end points. -/
theorem val12_v50 (V0 : Vals) : val12 V0 (no_index (Proc.devRef .tc main_v50)) = dst (V0 (Proc.devRef .tc main_arg1)) := by
  unfold val12; simp only [ops12]; after_results; rw [val11_v44]; rfl
/-- %53: the edges' weights. -/
theorem val12_v53 (V0 : Vals) : val12 V0 (no_index (Proc.devRef .tc main_v53)) = wgt (V0 (Proc.devRef .tc main_arg1)) := by
  unfold val12; simp only [ops12]; after_results; rw [val11_v45]; rfl

/-- The buffer contents after the first 13 windows. -/
def val13 (V0 : Vals) : Vals := after ops13 (val12 V0)
theorem ops13_writes : (ops13 : List (HloOp τ sig (Elt Ideal))).Forall fun op =>
    op.writes ⊆ (W13.map (Proc.devRef (τ := τ) .tc)).toFinset := by
  simp only [ops13, List.Forall]; window_writes
/-- A buffer that window 13 does not write keeps its contents through it. -/
theorem val13_keep (V0 : Vals) (r : Ref sig .tc) (h : r ∉ W13) :
    val13 V0 (no_index (Proc.devRef .tc r)) = val12 V0 (Proc.devRef .tc r) :=
  after_of_writes_sub ops13 _ ops13_writes h
/-- %61: the degrees. -/
theorem val13_v61 (V0 : Vals) : val13 V0 (no_index (Proc.devRef .tc main_v61)) = degv (V0 (Proc.devRef .tc main_arg1)) := by
  unfold val13; simp only [ops13]; after_results_simp; simp only [val12_v50, val12_v53] <;> rfl

/-- The buffer contents after the first 14 windows. -/
def val14 (V0 : Vals) : Vals := after ops14 (val13 V0)
theorem ops14_writes : (ops14 : List (HloOp τ sig (Elt Ideal))).Forall fun op =>
    op.writes ⊆ (W14.map (Proc.devRef (τ := τ) .tc)).toFinset := by
  simp only [ops14, List.Forall]; window_writes
/-- A buffer that window 14 does not write keeps its contents through it. -/
theorem val14_keep (V0 : Vals) (r : Ref sig .tc) (h : r ∉ W14) :
    val14 V0 (no_index (Proc.devRef .tc r)) = val13 V0 (Proc.devRef .tc r) :=
  after_of_writes_sub ops14 _ ops14_writes h
/-- %67: the degrees' inverse square roots. -/
theorem val14_v67 (V0 : Vals) : val14 V0 (no_index (Proc.devRef .tc main_v67)) = dis (V0 (Proc.devRef .tc main_arg1)) := by
  unfold val14; simp only [ops14]; after_results_simp; simp only [val13_v61] <;> rfl
/-- %49, kept through windows 13 and 14. -/
theorem val14_v49 (V0 : Vals) : val14 V0 (no_index (Proc.devRef .tc main_v49)) = src (V0 (Proc.devRef .tc main_arg1)) := by
  simp (disch := decide) only [val14_keep, val13_keep, val12_v49]
/-- %50, kept through windows 13 and 14. -/
theorem val14_v50 (V0 : Vals) : val14 V0 (no_index (Proc.devRef .tc main_v50)) = dst (V0 (Proc.devRef .tc main_arg1)) := by
  simp (disch := decide) only [val14_keep, val13_keep, val12_v50]

/-- The buffer contents after the first 15 windows. -/
def val15 (V0 : Vals) : Vals := after ops15 (val14 V0)
theorem ops15_writes : (ops15 : List (HloOp τ sig (Elt Ideal))).Forall fun op =>
    op.writes ⊆ (W15.map (Proc.devRef (τ := τ) .tc)).toFinset := by
  simp only [ops15, List.Forall]; window_writes
/-- A buffer that window 15 does not write keeps its contents through it. -/
theorem val15_keep (V0 : Vals) (r : Ref sig .tc) (h : r ∉ W15) :
    val15 V0 (no_index (Proc.devRef .tc r)) = val14 V0 (Proc.devRef .tc r) :=
  after_of_writes_sub ops15 _ ops15_writes h
/-- %82: per edge, the product of its end points' normalizations. -/
theorem val15_v82 (V0 : Vals) : val15 V0 (no_index (Proc.devRef .tc main_v82)) = coef (V0 (Proc.devRef .tc main_arg1)) := by
  unfold val15; simp only [ops15]; after_results_simp; simp only [val14_v67, val14_v49, val14_v50] <;> rfl
/-- %49, kept through window 15. -/
theorem val15_v49 (V0 : Vals) : val15 V0 (no_index (Proc.devRef .tc main_v49)) = src (V0 (Proc.devRef .tc main_arg1)) := by
  simp (disch := decide) only [val15_keep, val14_v49]
/-- %50, kept through window 15. -/
theorem val15_v50 (V0 : Vals) : val15 V0 (no_index (Proc.devRef .tc main_v50)) = dst (V0 (Proc.devRef .tc main_arg1)) := by
  simp (disch := decide) only [val15_keep, val14_v50]
/-- %53, kept through windows 13 … 15. -/
theorem val15_v53 (V0 : Vals) : val15 V0 (no_index (Proc.devRef .tc main_v53)) = wgt (V0 (Proc.devRef .tc main_arg1)) := by
  simp (disch := decide) only [val15_keep, val14_keep, val13_keep, val12_v53]
/-- %0, kept through windows 2 … 15. -/
theorem val15_v0 (V0 : Vals) : val15 V0 (no_index (Proc.devRef .tc main_v0)) = x2d (V0 (Proc.devRef .tc main_arg0)) := by
  simp (disch := decide) only [val15_keep, val14_keep, val13_keep, val12_keep, val11_keep, val10_keep, val09_keep, val08_keep,
    val07_keep, val06_keep, val05_keep, val04_keep, val03_keep, val02_keep, val01_v0]
/-- W, written by no operation. -/
theorem val15_arg2 (V0 : Vals) : val15 V0 (no_index (Proc.devRef .tc main_arg2)) = V0 (Proc.devRef .tc main_arg2) := by
  simp (disch := decide) only [val15_keep, val14_keep, val13_keep, val12_keep, val11_keep, val10_keep, val09_keep, val08_keep,
    val07_keep, val06_keep, val05_keep, val04_keep, val03_keep, val02_keep, val01_keep]

/-- The buffer contents after the first 16 windows. -/
def val16 (V0 : Vals) : Vals := after ops16 (val15 V0)
theorem ops16_writes : (ops16 : List (HloOp τ sig (Elt Ideal))).Forall fun op =>
    op.writes ⊆ (W16.map (Proc.devRef (τ := τ) .tc)).toFinset := by
  simp only [ops16, List.Forall]; window_writes
/-- A buffer that window 16 does not write keeps its contents through it. -/
theorem val16_keep (V0 : Vals) (r : Ref sig .tc) (h : r ∉ W16) :
    val16 V0 (no_index (Proc.devRef .tc r)) = val15 V0 (Proc.devRef .tc r) :=
  after_of_writes_sub ops16 _ ops16_writes h
/-- %90: per edge, the first end point's row of x·W. -/
theorem val16_v90 (V0 : Vals) : val16 V0 (no_index (Proc.devRef .tc main_v90))
    = Host.gather gather_S8192x128_S532480x1_S532480x128_1_0_n_n_0_1_1128
        (xwv (V0 (Proc.devRef .tc main_arg0)) (V0 (Proc.devRef .tc main_arg2))) (wrapIdx (src (V0 (Proc.devRef .tc main_arg1)))) := by
  unfold val16; simp only [ops16]; after_results_simp; simp only [val15_v0, val15_arg2, val15_v49] <;> rfl
/-- %92: per edge, its coefficient times its weight, with a trailing axis of one. -/
theorem val16_v92 (V0 : Vals) : val16 V0 (no_index (Proc.devRef .tc main_v92))
    = broadcastInDim S532480x1 ![0] bcast_S532480_S532480x1_0
        (mulf (coef (V0 (Proc.devRef .tc main_arg1))) (wgt (V0 (Proc.devRef .tc main_arg1)))) := by
  unfold val16; simp only [ops16]; after_results_simp; simp only [val15_v82, val15_v53] <;> rfl
/-- %50, kept through window 16. -/
theorem val16_v50 (V0 : Vals) : val16 V0 (no_index (Proc.devRef .tc main_v50)) = dst (V0 (Proc.devRef .tc main_arg1)) := by
  simp (disch := decide) only [val16_keep, val15_v50]
/-- %0, kept through window 16. -/
theorem val16_v0 (V0 : Vals) : val16 V0 (no_index (Proc.devRef .tc main_v0)) = x2d (V0 (Proc.devRef .tc main_arg0)) := by
  simp (disch := decide) only [val16_keep, val15_v0]
/-- b, written by no operation. -/
theorem val16_arg3 (V0 : Vals) : val16 V0 (no_index (Proc.devRef .tc main_arg3)) = V0 (Proc.devRef .tc main_arg3) := by
  simp (disch := decide) only [val16_keep, val15_keep, val14_keep, val13_keep, val12_keep, val11_keep, val10_keep, val09_keep,
    val08_keep, val07_keep, val06_keep, val05_keep, val04_keep, val03_keep, val02_keep, val01_keep]

/-- The buffer contents after all 17 windows. -/
def val17 (V0 : Vals) : Vals := after ops17 (val16 V0)
theorem ops17_writes : (ops17 : List (HloOp τ sig (Elt Ideal))).Forall fun op =>
    op.writes ⊆ (W17.map (Proc.devRef (τ := τ) .tc)).toFinset := by
  simp only [ops17, List.Forall]; window_writes
/-- A buffer that window 17 does not write keeps its contents through it. -/
theorem val17_keep (V0 : Vals) (r : Ref sig .tc) (h : r ∉ W17) :
    val17 V0 (no_index (Proc.devRef .tc r)) = val16 V0 (Proc.devRef .tc r) :=
  after_of_writes_sub ops17 _ ops17_writes h
/-- %108: the program's result. -/
theorem val17_v108 (V0 : Vals) : val17 V0 (no_index (Proc.devRef .tc main_v108))
    = refOut (V0 (Proc.devRef .tc main_arg0)) (V0 (Proc.devRef .tc main_arg1)) (V0 (Proc.devRef .tc main_arg2))
        (V0 (Proc.devRef .tc main_arg3)) := by
  unfold val17; simp only [ops17]; after_results_simp; simp only [val16_v90, val16_v92, val16_v50, val16_v0, val16_arg3] <;> rfl

/-- An argument buffer is written by no operation. -/
theorem val17_arg (V0 : Vals) (r : Ref sig .tc) (h01 : r ∉ W01) (h02 : r ∉ W02) (h03 : r ∉ W03) (h04 : r ∉ W04) (h05 : r ∉ W05)
    (h06 : r ∉ W06) (h07 : r ∉ W07) (h08 : r ∉ W08) (h09 : r ∉ W09) (h10 : r ∉ W10) (h11 : r ∉ W11) (h12 : r ∉ W12)
    (h13 : r ∉ W13) (h14 : r ∉ W14) (h15 : r ∉ W15) (h16 : r ∉ W16) (h17 : r ∉ W17) :
    val17 V0 (Proc.devRef .tc r) = V0 (Proc.devRef .tc r) :=
  (val17_keep V0 r h17).trans <| (val16_keep V0 r h16).trans <| (val15_keep V0 r h15).trans <| (val14_keep V0 r h14).trans <|
  (val13_keep V0 r h13).trans <| (val12_keep V0 r h12).trans <| (val11_keep V0 r h11).trans <| (val10_keep V0 r h10).trans <|
  (val09_keep V0 r h09).trans <| (val08_keep V0 r h08).trans <| (val07_keep V0 r h07).trans <| (val06_keep V0 r h06).trans <|
  (val05_keep V0 r h05).trans <| (val04_keep V0 r h04).trans <| (val03_keep V0 r h03).trans <| (val02_keep V0 r h02).trans <|
  val01_keep V0 r h01

end Cert.Gcn.Ref

end
-- ==== Proof.RefRun.lean ====
/-
  The reference program's run: on every device, from any memory with zero counters, every weakly fair execution
  of @main terminates with the result buffer at `refOut` of the four argument buffers' launch contents and the
  arguments unchanged. @main is a straight line of host operations (RefRunMain.lean), so its run leaves every buffer
  at the fold of the operations' results over the launch contents; the fold is read off window by window
  (RefRunVal1.lean, RefRunVal2.lean).
-/
import proofs.«172550_g12077448036551_cont_sun_c4_50_16_alg».proof.Proof.RefRunMain
import proofs.«172550_g12077448036551_cont_sun_c4_50_16_alg».proof.Proof.RefRunVal2
import Idealize.ShloMosaic.Lib.StableHlo.Run

noncomputable section

namespace Cert.Gcn.Ref

open Idealize.ShloMosaic Idealize.ShloMosaic.TcCoe Idealize.SL.Sem Idealize.ShloMosaic.StableHlo Cert.ReferenceIdeal Cert.ReferenceIdeal.Facts₀

variable [Cert.ReferenceIdeal.Facts]

/-- Two lines' fold is the second's over the first's. -/
theorem after_app : ∀ (l₁ l₂ : List (HloOp τ sig (Elt Ideal))) (V : Vals), after (l₁ ++ l₂) V = after l₂ (after l₁ V)
  | [], _, _ => rfl
  | op :: l₁, l₂, V => by rw [List.cons_append, after_cons, after_cons, after_app l₁ l₂]

/-- The fold of all the operations is the seventeen windows' in order. -/
theorem after_ops (V0 : Vals) : after (ops (F := Ideal)) V0 = val17 V0 := by
  simp only [ops, opsP0, opsP1, opsP2, after_app]
  rfl

theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v108) = refOut (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v108).trans (by simp only [after_ops]; exact val17_v108 (launchContents m c)),
      (h c main_arg0).trans (by simp only [after_ops]; exact val17_arg (launchContents m c) main_arg0 (by decide) (by decide) (by decide) (by decide) (by decide) (by decide) (by decide) (by decide) (by decide) (by decide) (by decide) (by decide) (by decide) (by decide) (by decide) (by decide) (by decide)),
      (h c main_arg1).trans (by simp only [after_ops]; exact val17_arg (launchContents m c) main_arg1 (by decide) (by decide) (by decide) (by decide) (by decide) (by decide) (by decide) (by decide) (by decide) (by decide) (by decide) (by decide) (by decide) (by decide) (by decide) (by decide) (by decide)),
      (h c main_arg2).trans (by simp only [after_ops]; exact val17_arg (launchContents m c) main_arg2 (by decide) (by decide) (by decide) (by decide) (by decide) (by decide) (by decide) (by decide) (by decide) (by decide) (by decide) (by decide) (by decide) (by decide) (by decide) (by decide) (by decide)),
      (h c main_arg3).trans (by simp only [after_ops]; exact val17_arg (launchContents m c) main_arg3 (by decide) (by decide) (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ)

end Cert.Gcn.Ref

end
-- ==== Proof.RefTail.lean ====
/-
  The pointwise layers of the reference around its two accumulations.

  Between the degrees and the messages: the normalizing factor of a node is `where (deg > 0, rsqrt (max (deg, ε)), 0)`
  with ε ≈ 1e-12; every degree counts the node's self loop, so deg ≥ 1 > ε, the test holds, the guard does not bind,
  and the factor is deg ^ (-1/2). Beside them: the flattened input's row 64·i + r is node r of batch i (row-major),
  so the host's contraction of it with W is the linear transform x·W. After them: bias, clamp at zero, the input
  added back, and the batch axis restored — all read index by index.
-/
import proofs.«172550_g12077448036551_cont_sun_c4_50_16_alg».proof.Proof.RefTerm
import proofs.«172550_g12077448036551_cont_sun_c4_50_16_alg».proof.Proof.Spec
import proofs.«172550_g12077448036551_cont_sun_c4_50_16_alg».proof.Proof.Bridge
import proofs.«172550_g12077448036551_cont_sun_c4_50_16_alg».proof.Proof.LibPlainDot
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Gcn.Ref

open Cert.ReferenceIdeal Cert.ReferenceIdeal.Facts₀

variable [Cert.ReferenceIdeal.Facts]

/-- The guard constant under the reference's inverse square root, about 1e-12, is at most one. -/
theorem eps_le_one : Ideal.ofBits .f32 0x2B8CBCCC#32 ≤ 1 := by
  simp [Ideal.ofBits, Ideal.ieee]
  rw [← EReal.coe_mul, ← EReal.coe_one, EReal.coe_le_coe_iff]
  norm_num

/-- Node n's normalizing factor is the inverse square root of its degree, once the degree is at least one:
    the test "degree > 0" holds and the guard "max (degree, 1e-12)" does not bind. -/
theorem dis_apply (g : IVec S64x64 32) (n : S8192.Idx) (h : 1 ≤ degv g n) : dis g n = Ideal.rsqrt (degv g n) := by
  have hpos : (0 : EReal) < degv g n := lt_of_lt_of_le zero_lt_one h
  have hmax : max (degv g n) (Ideal.ofBits .f32 0x2B8CBCCC#32) = degv g n := max_eq_left (le_trans eps_le_one h)
  have hc : FloatOps.cmpf (F := Ideal) CmpFPredicate.ogt (degv g n) 0 = 1#1 := by
    show Ideal.cmp .ogt (degv g n) 0 = 1#1
    simp [Ideal.cmp, hpos]
  unfold dis fWhere4
  simp only [select, cmpf, maximumf, Host.rsqrt, broadcastInDim, constant, id]
  rw [Ideal.ofBits_def, Ideal.ofBits_zero_f32, Ideal.ofBits_def, Ideal.maximumf_def, hmax, Ideal.hostUnary_rsqrt_def, hc]
  exact if_pos (by decide)

/-- Row 64·i + r of the flattened input is node r of batch i. -/
theorem x2d_apply (x : FVec Ideal S128x64x128 .f32) (i : Fin 128) (r : Fin 64) (k : Fin 128) :
    x2d x (ix2 ⟨64 * i.val + r.val, by omega⟩ k) = x (ix3 i r k) := by
  unfold x2d
  refine shapeCast_apply x _ _ (ix3 i r k) ?_
  rw [Shape.rowMajor_val_three, Shape.rowMajor_val_two]
  show (i.val * 64 + r.val) * 128 + k.val = (64 * i.val + r.val) * 128 + k.val
  rw [Nat.mul_comm 64 i.val]

/-- The host's contraction of the flattened input with W is the linear transform x·W. -/
theorem xwv_apply (x : FVec Ideal S128x64x128 .f32) (W : FVec Ideal S128x128 .f32) (i : Fin 128) (r : Fin 64) (f : Fin 128) :
    xwv x W (ix2 ⟨64 * i.val + r.val, by omega⟩ f) = Cert.Gcn.xw x W i r f := by
  unfold xwv Host.dotGeneral Cert.Gcn.xw
  rw [Cert.LibPlainDot.dotGeneral_plain _ rfl rfl (fun _ _ => rfl) (fun _ _ => rfl) (fun _ _ => rfl) (fun _ _ => rfl)]
  exact Finset.sum_congr rfl fun k _ => congrArg (· * W (ix2 k f)) (x2d_apply x i r k)

/-- The layer's last steps — add the bias, clamp at zero, add the input back, restore the batch axis — applied to
    the accumulated messages give the reference's arrangement of the output. -/
theorem refOut_of_aggv (x : FVec Ideal S128x64x128 .f32) (g : IVec S64x64 32) (W : FVec Ideal S128x128 .f32)
    (b : FVec Ideal S128 .f32)
    (hagg : ∀ (i : Fin 128) (c : Fin 64) (f : Fin 128),
      aggv x g W (ix2 ⟨64 * i.val + c.val, by omega⟩ f) = Cert.Gcn.aggR (Cert.Gcn.wR g) x W i c f) :
    refOut x g W b = Cert.Gcn.outR x g W b := by
  funext j
  obtain ⟨i, c, f, rfl⟩ : ∃ (i : Fin 128) (c : Fin 64) (f : Fin 128), j = ix3 i c f := ⟨j 0, j 1, j 2, eq_ix3 j⟩
  unfold refOut
  dsimp only
  rw [shapeCast_apply _ _ (ix3 i c f) (ix2 ⟨64 * i.val + c.val, by omega⟩ f) (by
    rw [Shape.rowMajor_val_three, Shape.rowMajor_val_two]
    show (64 * i.val + c.val) * 128 + f.val = (i.val * 64 + c.val) * 128 + f.val
    rw [Nat.mul_comm 64 i.val])]
  simp only [addf, fRelu, maximumf, broadcastInDim, constant]
  rw [hagg i c f, x2d_apply x i c f, Ideal.ofBits_def, Ideal.ofBits_zero_f32]
  -- the bias, spread over the rows, is read at the feature coordinate
  have hb : ∀ k : S128.Idx, k = ix1 f → b k = b (ix1 f) := fun k hk => congrArg b hk
  rw [hb _ (funext fun a => by match a with | ⟨0, _⟩ => rfl)]
  rfl

end Cert.Gcn.Ref

end
-- ==== Proof.LibCumsumEnum.lean ====
/-
  Enumerating the marked positions of a finite sequence by counting.

  Let m mark some of the positions 0, …, N - 1. Write cnt p for the number of marked positions q ≤ p (a running
  count: non-decreasing, and stepping up exactly at the marked positions) and pos k for the number of positions
  p < N with cnt p ≤ k. Then at a marked position p the running count is positive and pos (cnt p - 1) = p: the
  positions whose count stays below cnt p are exactly the positions before p. Hence k ↦ pos k, for k below the
  total number of marked positions, runs through the marked positions, each once: a sum of F (pos k) over those k
  is the sum of F over the marked positions.
-/
import Idealize.ShloMosaic.PureOps.Ideal
import Mathlib.Algebra.BigOperators.Fin

open Finset
open scoped BigOperators

namespace Cert.LibCumsum

variable (m : ℕ → Prop) [DecidablePred m] (N : ℕ)

/-- The number of marked positions q ≤ p. -/
def cnt (p : ℕ) : ℕ := ((range (p + 1)).filter m).card

/-- The number of positions p < N whose running count is at most k. -/
def pos (k : ℕ) : ℕ := ((range N).filter fun p => cnt m p ≤ k).card

/-- The running count is non-decreasing. -/
theorem cnt_mono {p q : ℕ} (h : p ≤ q) : cnt m p ≤ cnt m q :=
  card_le_card (filter_subset_filter _ (range_mono (by omega)))

/-- The running count at a marked position exceeds the count at every earlier position. -/
theorem cnt_lt_of_lt {q p : ℕ} (hq : q < p) (hp : m p) : cnt m q < cnt m p := by
  apply card_lt_card
  rw [ssubset_iff_of_subset (filter_subset_filter _ (range_mono (by omega)))]
  exact ⟨p, by simp [hp], by simp; omega⟩

/-- The running count at a marked position is positive. -/
theorem cnt_pos {p : ℕ} (hp : m p) : 0 < cnt m p :=
  card_pos.2 ⟨p, by simp [hp]⟩

/-- The running count at a position below N is at most the total number of marked positions below N. -/
theorem cnt_le_total {p : ℕ} (hp : p < N) : cnt m p ≤ ((range N).filter m).card :=
  card_le_card (filter_subset_filter _ (range_mono (by omega)))

/-- pos never exceeds N. -/
theorem pos_le (k : ℕ) : pos m N k ≤ N := by
  unfold pos
  exact (card_le_card (filter_subset _ _)).trans (by rw [card_range])

/-- At a marked position p below N, the positions whose running count is below cnt p are the positions before p. -/
theorem pos_cnt_pred {p : ℕ} (hpN : p < N) (hp : m p) : pos m N (cnt m p - 1) = p := by
  unfold pos
  have : (range N).filter (fun q => cnt m q ≤ cnt m p - 1) = range p := by
    ext q
    simp only [mem_filter, mem_range]
    constructor
    · rintro ⟨_, hle⟩
      by_contra hge
      have h1 := cnt_mono m (not_lt.1 hge)
      have h2 := cnt_pos m hp
      omega
    · intro hq
      have h1 := cnt_lt_of_lt m hq hp
      exact ⟨by omega, by omega⟩
  rw [this, card_range]

/-- Summing F (pos k) over the k below the number of marked positions is summing F over the marked positions. -/
theorem sum_pos_eq {M : Type} [AddCommMonoid M] (F : ℕ → M) :
    ∑ k ∈ range ((range N).filter m).card, F (pos m N k) = ∑ p ∈ (range N).filter m, F p := by
  have hinj : ∀ p ∈ (range N).filter m, ∀ q ∈ (range N).filter m, cnt m p - 1 = cnt m q - 1 → p = q := by
    intro p hp q hq h
    simp only [mem_filter, mem_range] at hp hq
    have h1 := pos_cnt_pred m N hp.1 hp.2
    have h2 := pos_cnt_pred m N hq.1 hq.2
    rw [h] at h1
    omega
  have himg : ((range N).filter m).image (fun p => cnt m p - 1) = range ((range N).filter m).card := by
    apply eq_of_subset_of_card_le
    · intro k hk
      simp only [mem_image, mem_filter, mem_range] at hk ⊢
      obtain ⟨p, ⟨hpN, hp⟩, rfl⟩ := hk
      have h1 := cnt_le_total m N hpN
      have h2 := cnt_pos m hp
      omega
    · rw [card_range, card_image_of_injOn (fun p hp q hq h => hinj p hp q hq h)]
  rw [← himg, sum_image hinj]
  apply sum_congr rfl
  intro p hp
  simp only [mem_filter, mem_range] at hp
  rw [pos_cnt_pred m N hp.1 hp.2]

/-- The number of positions below N whose running count is at most k is the sum, over the counts j ≤ k, of the number
    of positions with that count. -/
theorem pos_eq_sum (k : ℕ) :
    pos m N k = ∑ j ∈ range (k + 1), ((range N).filter fun p => cnt m p = j).card := by
  unfold pos
  rw [← card_biUnion]
  · congr 1
    ext p
    simp only [mem_filter, mem_range, mem_biUnion]
    constructor
    · rintro ⟨hp, hle⟩; exact ⟨cnt m p, by omega, hp, rfl⟩
    · rintro ⟨j, hj, hp, rfl⟩; exact ⟨hp, by omega⟩
  · intro i _ j _ hij
    rw [Function.onFun, disjoint_left]
    intro p hp hq
    simp only [mem_filter] at hp hq
    exact hij (hp.2.symm.trans hq.2)

end Cert.LibCumsum
-- ==== Proof.LibCumsum.lean ====
/-
  General facts about two host operations on arrays of machine words.

  The running sum. A reduce_window by addition over a rank-1 array of length N, window N, stride 1, padded N - 1 low
  and 0 high, from the initial value zero, is the inclusive running sum: its element p is the sum of the operand's
  elements q ≤ p (every window position either reads an element q ≤ p once, or reads padding, which is zero).

  The scatter-add. A scatter whose body adds the update to the operand's element is, read at one element, that
  element's start value plus the sum of all the updates whose result index is that element; updates whose result
  index falls outside the operand contribute nowhere.

  Both are sums in the ring of w-bit words; a sum of words whose values add up to less than 2 ^ w has that value.
-/
import Idealize.ShloMosaic.PureOps.Ideal
import Idealize.ShloMosaic.Lib.ValueIdx
import Mathlib.Data.BitVec
import Mathlib.Algebra.BigOperators.Fin

open Idealize.ShloMosaic Idealize.ShloMosaic.ValueIdx
open scoped BigOperators

namespace Cert.LibCumsum

/-! ## Folds by word addition -/

/-- A left fold by word addition over a list is the start plus the sum of the list's terms. -/
theorem foldl_addi_eq {ι : Type} {w : Nat} (g : ι → BitVec w) (l : List ι) (v : BitVec w) :
    l.foldl (fun r n => IntOp.addi r (g n)) v = v + (l.map g).sum := by
  induction l generalizing v with
  | nil => simp
  | cons a l ih =>
    simp only [List.foldl_cons, List.map_cons, List.sum_cons]
    rw [ih]; simp only [IntOp.addi, add_assoc]

/-- The same over all of `Fin m` in order: the start plus the sum over `Fin m`. -/
theorem foldl_addi_finRange {m w : Nat} (g : Fin m → BitVec w) (v : BitVec w) :
    (List.finRange m).foldl (fun r n => IntOp.addi r (g n)) v = v + ∑ n, g n := by
  rw [foldl_addi_eq, Fin.sum_univ_def]

/-- A rank-1 shape of extent N has N elements. -/
theorem numel_one (N : Nat) : (⟨1, ![N]⟩ : Shape).numel = N := by
  simp [Shape.numel]

/-- The row-major position of a rank-1 index is its coordinate. -/
theorem rowMajor_symm_one_val {N : Nat} (n : Fin (⟨1, ![N]⟩ : Shape).numel) :
    (((⟨1, ![N]⟩ : Shape).rowMajor.symm n) 0).val = n.val := by
  have := Shape.rowMajor_val_one ((⟨1, ![N]⟩ : Shape).rowMajor.symm n)
  rw [Equiv.apply_symm_apply] at this
  exact this.symm

/-! ## The running sum -/

/-- The reduce_window by addition over a rank-1 array of length N with window N, stride 1, low padding L = N - 1
    and initial value zero, read at p: the sum of the operand's elements at the positions q ≤ p. -/
theorem reduceWindow_cumsum_apply {N L : Nat} (hL : L + 1 = N)
    (x : (⟨1, ![N]⟩ : Shape).Idx → BitVec 32) (init : (⟨0, ![]⟩ : Shape).Idx → BitVec 32)
    (h : (⟨1, ![N]⟩ : Shape).ReduceWindows ![N] ![1] ![L] ![0] ⟨1, ![N]⟩) (hu : 0 < (⟨0, ![]⟩ : Shape).numel)
    (hinit : init (Shape.Idx.first hu) = 0) (p : Fin N) :
    Host.reduceWindow IntOp.addi ![N] ![1] ![L] ![0] x init h hu (ix1 p)
      = ∑ q : Fin N, if q.val ≤ p.val then x (ix1 q) else 0 := by
  unfold Host.reduceWindow
  dsimp only
  rw [foldl_addi_finRange, hinit, zero_add]
  have hW := numel_one N
  let X : ℕ → BitVec 32 := fun q => if hq : q < N then x (ix1 ⟨q, hq⟩) else 0
  trans ∑ n : Fin (⟨1, ![N]⟩ : Shape).numel, (if L ≤ p.val + n.val then X (p.val + n.val - L) else 0)
  · refine Finset.sum_congr rfl fun n _ => ?_
    have hv := rowMajor_symm_one_val n
    have hn : n.val < N := lt_of_lt_of_eq n.isLt hW
    have hp := p.isLt
    split
    · next hin =>
      have h0 := hin 0
      simp [hv] at h0
      rw [if_pos h0.1]
      simp only [X, dif_pos h0.2]
      congr 1; funext a; fin_cases a; exact Fin.ext (by simp [hv])
    · next hin =>
      rw [if_neg]
      intro hc; apply hin; intro a; fin_cases a
      show L ≤ p.val * 1 + ((⟨1, ![N]⟩ : Shape).rowMajor.symm n 0).val ∧ p.val * 1 + ((⟨1, ![N]⟩ : Shape).rowMajor.symm n 0).val - L < N
      rw [hv]; omega
  · trans ∑ q : Fin N, (if q.val ≤ p.val then X q.val else 0)
    · rw [Fin.sum_univ_eq_sum_range (fun k => if L ≤ p.val + k then X (p.val + k - L) else 0),
          Fin.sum_univ_eq_sum_range (fun k => if k ≤ p.val then X k else 0), hW]
      rw [← Finset.sum_filter, ← Finset.sum_filter]
      have hp := p.isLt
      refine Finset.sum_nbij' (fun n => p.val + n - L) (fun q => q + L - p.val) ?_ ?_ ?_ ?_ ?_
      all_goals (intro a ha; simp only [Finset.mem_filter, Finset.mem_range, Finset.coe_filter, Set.mem_setOf_eq] at ha ⊢; try omega)
    · refine Finset.sum_congr rfl fun q _ => ?_
      simp only [X, dif_pos q.isLt]

/-! ## The scatter-add -/

/-- A left fold of "add the update at the element it lands on, drop it when it lands nowhere", read at one element:
    the element's start value plus the updates that land on it. -/
theorem foldl_scatter_apply {ι κ : Type} [DecidableEq κ] {w : Nat} (R : ι → Option κ) (u : ι → BitVec w)
    (step : (κ → BitVec w) → ι → (κ → BitVec w))
    (hhit : ∀ r n i, R n = some i → step r n i = r i + u n)
    (hmiss : ∀ r n i i', R n = some i → i' ≠ i → step r n i' = r i')
    (hnone : ∀ r n, R n = none → step r n = r)
    (l : List ι) (x : κ → BitVec w) (i' : κ) :
    (l.foldl step x) i' = x i' + (l.map fun n => if R n = some i' then u n else 0).sum := by
  induction l generalizing x with
  | nil => simp
  | cons a l ih =>
    simp only [List.foldl_cons, List.map_cons, List.sum_cons]
    rw [ih, ← add_assoc]
    congr 1
    cases hR : R a with
    | none => rw [hnone x a hR]; simp
    | some i =>
      by_cases hi : i' = i
      · subst hi; rw [hhit x a i' hR]; simp
      · rw [hmiss x a i i' hR hi, if_neg (fun h => hi (Option.some.inj h).symm), add_zero]

/-- The scatter-add of `upd` into `x` read at one element: its start value plus the sum of the updates whose result
    index is that element. -/
theorem scatter_addi_apply {s si u : Shape} {w v : Nat} (d : ScatterDims s si u) (x : s.Idx → BitVec w) (idx : IVec si v)
    (upd : u.Idx → BitVec w) (i' : s.Idx) :
    Host.scatter d IntOp.addi x idx upd i'
      = x i' + ∑ n : Fin u.numel, if d.resultIdx? (u.rowMajor.symm n) idx = some i' then upd (u.rowMajor.symm n) else 0 := by
  unfold Host.scatter
  rw [foldl_scatter_apply (fun n => d.resultIdx? (u.rowMajor.symm n) idx) (fun n => upd (u.rowMajor.symm n)), Fin.sum_univ_def]
  · intro r n i h; simp [h, IntOp.addi]
  · intro r n i i' h hne; simp only [h, if_neg hne]
  · intro r n h; simp only [h]

/-! ## Sums of words as numbers -/

/-- A sum of words is the word of the sum of their values. -/
theorem sum_eq_ofNat_sum_toNat {ι : Type} {w : Nat} (s : Finset ι) (f : ι → BitVec w) :
    ∑ i ∈ s, f i = BitVec.ofNat w (∑ i ∈ s, (f i).toNat) := by
  classical
  induction s using Finset.induction_on with
  | empty => simp
  | insert a s ha ih =>
    rw [Finset.sum_insert ha, Finset.sum_insert ha, ih, BitVec.ofNat_add, BitVec.ofNat_toNat, BitVec.setWidth_eq]

/-- A sum of indicator words (one where the condition holds, zero elsewhere) is the word of the number of places where
    it holds. -/
theorem sum_indicator_eq_ofNat_card {ι : Type} {w : Nat} (s : Finset ι) (c : ι → Prop) [DecidablePred c] :
    (∑ i ∈ s, if c i then (1 : BitVec w) else 0) = BitVec.ofNat w (s.filter c).card := by
  rw [Finset.sum_boole]; rfl

end Cert.LibCumsum
-- ==== Proof.NzCum.lean ====
/-
  The running count of nonzero entries. The graph g : [64, 64] is flattened row by row to 4096 positions; position p
  is marked when its entry is not zero. The reference's running sum of the mask, read at p, is the word of the
  number of marked positions q ≤ p: the running sum of a 0/1 array is a count, and a count of at most 4096 positions
  fits a 32-bit word.
-/
import proofs.«172550_g12077448036551_cont_sun_c4_50_16_alg».proof.Proof.RefTerm
import proofs.«172550_g12077448036551_cont_sun_c4_50_16_alg».proof.Proof.LibCumsum
import proofs.«172550_g12077448036551_cont_sun_c4_50_16_alg».proof.Proof.LibCumsumEnum
import Idealize.ShloMosaic.Lib.ValueIdx

noncomputable section

namespace Cert.Gcn.Ref

open Idealize.ShloMosaic Idealize.ShloMosaic.ValueIdx Cert.ReferenceIdeal Cert.ReferenceIdeal.Facts₀ Cert.LibCumsum
open scoped BigOperators

variable [Cert.ReferenceIdeal.Facts]

/-- Position p of the graph flattened row by row holds a nonzero entry. -/
def nzMark (g : IVec S64x64 32) (p : ℕ) : Prop :=
  ∃ h : p < 4096, g (ix2 (⟨p / 64, by omega⟩ : Fin 64) (⟨p % 64, by omega⟩ : Fin 64)) ≠ 0#32

instance (g : IVec S64x64 32) : DecidablePred (nzMark g) := fun p => by unfold nzMark; infer_instance

/-- The flattened mask widened to 32 bits is one at a marked position and zero elsewhere. -/
theorem flatMask_apply (g : IVec S64x64 32) (q : Fin 4096) :
    extui 32 (shapeCast S4096 (nzMask g) shapeCasts_S64x64_S4096) natLt_1_32 (ix1 q)
      = if nzMark g q.val then 1 else 0 := by
  have hq := q.isLt
  have hsc : shapeCast S4096 (nzMask g) shapeCasts_S64x64_S4096 (ix1 q)
      = nzMask g (ix2 (⟨q.val / 64, by omega⟩ : Fin 64) (⟨q.val % 64, by omega⟩ : Fin 64)) := by
    unfold shapeCast
    refine congrArg (nzMask g) (Shape.reshapeEquiv_eq_of_rowMajor _ ?_)
    rw [Shape.rowMajor_val_two, Shape.rowMajor_val_one]
    show q.val / 64 * 64 + q.val % 64 = q.val
    omega
  show (shapeCast S4096 (nzMask g) shapeCasts_S64x64_S4096 (ix1 q)).setWidth 32 = _
  rw [hsc]
  show (IntOp.cmpi .ne (g (ix2 (⟨q.val / 64, by omega⟩ : Fin 64) (⟨q.val % 64, by omega⟩ : Fin 64))) 0#32).setWidth 32 = _
  by_cases hm : nzMark g q.val
  · rw [if_pos hm]
    obtain ⟨_, hne⟩ := hm
    have hb := bne_iff_ne.2 hne
    simp only [IntOp.cmpi, hb]
    rfl
  · rw [if_neg hm]
    have : g (ix2 (⟨q.val / 64, by omega⟩ : Fin 64) (⟨q.val % 64, by omega⟩ : Fin 64)) = 0#32 := by
      by_contra hne; exact hm ⟨hq, hne⟩
    simp only [IntOp.cmpi, this]
    rfl

/-- The running count word at p is the number of marked positions q ≤ p. -/
theorem nzCum_apply (g : IVec S64x64 32) (p : Fin 4096) :
    nzCum g (ix1 p) = BitVec.ofNat 32 (cnt (nzMark g) p.val) := by
  have hp := p.isLt
  show Host.reduceWindow IntOp.addi ![4096] ![1] ![4095] ![0]
      (extui 32 (shapeCast S4096 (nzMask g) shapeCasts_S64x64_S4096) natLt_1_32)
      (broadcastInDim S_ ![] bcast_S_S_ (constantI S_ 32 0#32)) reduceWindows_S4096_S4096_w4096s1p4095_0 h_S_ (ix1 p) = _
  rw [reduceWindow_cumsum_apply (N := 4096) (L := 4095) rfl _ _ _ _ rfl p]
  simp only [flatMask_apply]
  rw [Fin.sum_univ_eq_sum_range (fun q => if q ≤ p.val then (if nzMark g q then (1 : BitVec 32) else 0) else 0) 4096]
  simp only [← ite_and]
  rw [sum_indicator_eq_ofNat_card]
  congr 2
  ext q
  simp only [Finset.mem_filter, Finset.mem_range]
  constructor
  · rintro ⟨_, h1, h2⟩; exact ⟨by omega, h2⟩
  · rintro ⟨h1, h2⟩; exact ⟨by omega, by omega, h2⟩

end Cert.Gcn.Ref

end
-- ==== Proof.NzCount.lean ====
/-
  Counting the nonzero entries. The number of nonzero entries of g is at most 4096; it is the number of marked flat
  positions (position 64 r + c is entry (r, c)); and the reference's two sums of the 0/1 mask over the whole graph
  are the 32-bit word of that number.
-/
import proofs.«172550_g12077448036551_cont_sun_c4_50_16_alg».proof.Proof.RefTerm
import proofs.«172550_g12077448036551_cont_sun_c4_50_16_alg».proof.Proof.LibCumsum
import proofs.«172550_g12077448036551_cont_sun_c4_50_16_alg».proof.Proof.LibCumsumEnum
import proofs.«172550_g12077448036551_cont_sun_c4_50_16_alg».proof.Proof.NzCum
import Idealize.ShloMosaic.Lib.ValueIdx
import Idealize.ShloMosaic.PureOps.Reduce

noncomputable section

namespace Cert.Gcn.Ref

open Idealize.ShloMosaic Idealize.ShloMosaic.ValueIdx Cert.ReferenceIdeal Cert.ReferenceIdeal.Facts₀ Cert.LibCumsum
open scoped BigOperators

variable [Cert.ReferenceIdeal.Facts]

/-- the number of nonzero entries, as a natural number -/
def nzN (g : IVec Cert.ReferenceIdeal.S64x64 32) : Nat :=
  (Finset.univ.filter fun p : Fin 64 × Fin 64 => g (ix2 p.1 p.2) ≠ 0#32).card

/-- There are at most 4096 nonzero entries. -/
theorem nzN_le (g : IVec S64x64 32) : nzN g ≤ 4096 := by
  unfold nzN
  refine (Finset.card_filter_le _ _).trans ?_
  rw [Finset.card_univ, Fintype.card_prod, Fintype.card_fin]

/-- A sum over the 4096 flat positions is the double sum over rows and columns. -/
theorem sum_range_4096 {M : Type} [AddCommMonoid M] (F : ℕ → M) :
    ∑ p ∈ Finset.range 4096, F p = ∑ r : Fin 64, ∑ c : Fin 64, F (r.val * 64 + c.val) := by
  rw [← Fin.sum_univ_eq_sum_range F 4096, ← Fintype.sum_prod_type']
  refine (Fintype.sum_equiv (finProdFinEquiv (m := 64) (n := 64)) _ _ (fun x => ?_)).symm
  show F (x.1.val * 64 + x.2.val) = F (x.2.val + 64 * x.1.val)
  congr 1; omega

/-- Flat position 64 r + c is marked exactly when entry (r, c) is not zero. -/
theorem nzMark_flat (g : IVec S64x64 32) (r c : Fin 64) :
    nzMark g (r.val * 64 + c.val) ↔ g (ix2 r c) ≠ 0#32 := by
  have hr := r.isLt
  have hc := c.isLt
  have h1 : (r.val * 64 + c.val) / 64 = r.val := by omega
  have h2 : (r.val * 64 + c.val) % 64 = c.val := by omega
  have e : ∀ (h1' : (r.val * 64 + c.val) / 64 < 64) (h2' : (r.val * 64 + c.val) % 64 < 64),
      ix2 (⟨_, h1'⟩ : Fin 64) (⟨_, h2'⟩ : Fin 64) = ix2 r c :=
    fun _ _ => congrArg₂ ix2 (Fin.ext h1) (Fin.ext h2)
  unfold nzMark
  constructor
  · rintro ⟨_, hne⟩; rwa [e] at hne
  · intro hne; exact ⟨by omega, by rwa [e]⟩

/-- The number of marked flat positions is the number of nonzero entries. -/
theorem card_nzMark (g : IVec S64x64 32) : ((Finset.range 4096).filter (nzMark g)).card = nzN g := by
  unfold nzN
  rw [Finset.card_filter, Finset.card_filter, sum_range_4096, Fintype.sum_prod_type]
  refine Finset.sum_congr rfl fun r _ => Finset.sum_congr rfl fun c _ => ?_
  exact if_congr (nzMark_flat g r c) rfl rfl

/-- The mask widened to 32 bits is one at a nonzero entry and zero elsewhere. -/
theorem maskWord_apply (g : IVec S64x64 32) (i : S64x64.Idx) :
    extui 32 (nzMask g) natLt_1_32 i = if g i ≠ 0#32 then 1 else 0 := by
  show (IntOp.cmpi .ne (g i) 0#32).setWidth 32 = _
  by_cases hne : g i ≠ 0#32
  · rw [if_pos hne]
    have hb := bne_iff_ne.2 hne
    simp only [IntOp.cmpi, hb]
    rfl
  · rw [if_neg hne]
    have h0 : g i = 0#32 := not_not.1 hne
    simp only [IntOp.cmpi, h0]
    rfl

/-- The sum of the widened mask over the whole graph, from zero, is the word of the number of nonzero entries. -/
theorem hostCount_eq (g : IVec S64x64 32) (j : S_.Idx) :
    Host.reduce IntOp.addi (extui 32 (nzMask g) natLt_1_32) (constantI S_ 32 0#32) reducesTo_S64x64_S_d0_1 h_S_ j
      = BitVec.ofNat 32 (nzN g) := by
  rw [Host.reduce_eq_foldl, List.filter_eq_self.2 (fun i _ => decide_eq_true (funext fun a => a.elim0)),
    foldl_addi_eq, List.map_map, ← Fin.sum_univ_def]
  show 0#32 + ∑ n : Fin S64x64.numel, extui 32 (nzMask g) natLt_1_32 (S64x64.rowMajor.symm n) = _
  rw [BitVec.zero_add, Equiv.sum_comp S64x64.rowMajor.symm (extui 32 (nzMask g) natLt_1_32), sum_idx2]
  simp only [maskWord_apply]
  unfold nzN
  rw [← Fintype.sum_prod_type' (fun r c : Fin 64 => if g (ix2 r c) ≠ 0#32 then (1 : BitVec 32) else 0)]
  exact sum_indicator_eq_ofNat_card Finset.univ (fun p : Fin 64 × Fin 64 => g (ix2 p.1 p.2) ≠ 0#32)

/-- The reference's count of nonzero entries is the word of their number. -/
theorem nzCount_eq (g : IVec S64x64 32) : nzCount g = fun _ => BitVec.ofNat 32 (nzN g) :=
  funext fun j => hostCount_eq g j

end Cert.Gcn.Ref

end
-- ==== Proof.LibCumsumDiv.lean ====
/-
  Signed 32-bit word arithmetic on words that hold small non-negative numbers.

  A word whose value is below 2 ^ 31 reads the same signed and unsigned. On such words, with a divisor that is
  positive and below 2 ^ 31, the signed division and remainder are the numbers' quotient and remainder, and the two
  sign corrections that turn truncating division into floor division, and the truncating remainder into the
  remainder with the divisor's sign, never apply: both operands are non-negative. `floorDivW` and `remW` are those
  two corrected operations on one pair of words, written with the same word operations the programs apply elementwise.
-/
import Idealize.ShloMosaic.PureOps.Ideal
import Mathlib.Data.BitVec

open Idealize.ShloMosaic

namespace Cert.LibCumsum

/-- The sign of a word as a word: 0, -1 or 1. -/
def sgnW (x : BitVec 32) : BitVec 32 := if x = 0 then 0 else if x.msb then -1 else 1

/-- Floor division of words: the truncated quotient, less one where the signs differ and the remainder is not zero. -/
def floorDivW (a d : BitVec 32) : BitVec 32 :=
  Scalar.select (IntOp.andi (IntOp.cmpi .ne (sgnW a) (sgnW d)) (IntOp.cmpi .ne (IntOp.remsi .host a d) 0#32))
    (IntOp.subi (IntOp.divsi .host a d) 1#32) (IntOp.divsi .host a d)

/-- The remainder with the divisor's sign: the truncated remainder (by one if the divisor is zero), plus the divisor
    where the remainder is not zero and its sign differs from the divisor's. -/
def remW (a d : BitVec 32) : BitVec 32 :=
  let d' := Scalar.select (IntOp.cmpi .eq d 0#32) 1#32 d
  let r := IntOp.remsi .host a d'
  Scalar.select (IntOp.andi (IntOp.cmpi .ne (IntOp.cmpi .slt r 0#32) (IntOp.cmpi .slt d' 0#32)) (IntOp.cmpi .ne r 0#32))
    (IntOp.addi r d') r

/-- A word below 2 ^ 31 has its top bit clear. -/
theorem msb_of_lt {x : BitVec 32} (h : x.toNat < 2 ^ 31) : x.msb = false :=
  BitVec.msb_eq_false_iff_two_mul_lt.2 (by omega)

/-- A word below 2 ^ 31 read signed is its value. -/
theorem toInt_of_lt {x : BitVec 32} (h : x.toNat < 2 ^ 31) : x.toInt = (x.toNat : Int) :=
  BitVec.toInt_eq_toNat_of_lt (by omega)

/-- The word of a number below 2 ^ 32 has that value. -/
theorem toNat_ofNat_of_lt {a : Nat} (h : a < 2 ^ 32) : (BitVec.ofNat 32 a).toNat = a := by
  rw [BitVec.toNat_ofNat]; exact Nat.mod_eq_of_lt h

/-- A word is the word of its value. -/
theorem eq_ofNat_of_toNat {x : BitVec 32} {a : Nat} (h : x.toNat = a) : x = BitVec.ofNat 32 a := by
  rw [← h, BitVec.ofNat_toNat, BitVec.setWidth_eq]

/-- On words below 2 ^ 31 the signed "less than" is the numbers'. -/
theorem slt_of_lt {x y : BitVec 32} (hx : x.toNat < 2 ^ 31) (hy : y.toNat < 2 ^ 31) :
    x.slt y = decide (x.toNat < y.toNat) := by
  rw [BitVec.slt_eq_decide, toInt_of_lt hx, toInt_of_lt hy]; simp

/-- On words below 2 ^ 31 the signed "at most" is the numbers'. -/
theorem sle_of_lt {x y : BitVec 32} (hx : x.toNat < 2 ^ 31) (hy : y.toNat < 2 ^ 31) :
    x.sle y = decide (x.toNat ≤ y.toNat) := by
  rw [BitVec.sle_eq_decide, toInt_of_lt hx, toInt_of_lt hy]; simp

/-- The signed maximum of zero and a word below 2 ^ 31 is that word. -/
theorem maxsi_zero_of_lt {x : BitVec 32} (hx : x.toNat < 2 ^ 31) : IntOp.maxsi 0#32 x = x := by
  unfold IntOp.maxsi
  rw [slt_of_lt hx (by decide)]
  simp

/-- A word below 2 ^ 31 is not negative: "less than zero" is the zero bit. -/
theorem cmpi_slt_zero_of_lt {x : BitVec 32} (hx : x.toNat < 2 ^ 31) : IntOp.cmpi .slt x 0#32 = 0#1 := by
  unfold IntOp.cmpi
  simp only []
  rw [slt_of_lt hx (by decide)]
  simp

section Div
variable {a d : BitVec 32} (ha : a.toNat < 2 ^ 31) (hd : d.toNat < 2 ^ 31) (hd0 : 0 < d.toNat)
include ha hd hd0

/-- A positive divisor below 2 ^ 31 is neither zero nor minus one: the signed division is not at its corner. -/
theorem not_sdivCorner : ¬ IntOp.SDivCorner a d := by
  rintro (h | ⟨_, h⟩)
  · rw [h] at hd0; simp at hd0
  · rw [h] at hd; revert hd; decide

/-- The host's signed division of non-negative words by a positive one is the numbers' quotient. -/
theorem divsi_of_lt : IntOp.divsi .host a d = a / d := by
  unfold IntOp.divsi
  rw [if_neg (not_sdivCorner ha hd hd0), BitVec.sdiv_eq, msb_of_lt ha, msb_of_lt hd]
  rfl

/-- The host's signed remainder of non-negative words by a positive one is the numbers' remainder. -/
theorem remsi_of_lt : IntOp.remsi .host a d = a % d := by
  unfold IntOp.remsi
  rw [if_neg (not_sdivCorner ha hd hd0), BitVec.srem_eq, msb_of_lt ha, msb_of_lt hd]

/-- The sign of a positive word below 2 ^ 31 is one. -/
theorem sgnW_pos : sgnW d = 1 := by
  unfold sgnW
  rw [if_neg (fun h => by rw [h] at hd0; simp at hd0), msb_of_lt hd]
  rfl

/-- Floor division of a non-negative word by a positive one is the numbers' quotient. -/
theorem floorDivW_of_lt : floorDivW a d = a / d := by
  unfold floorDivW
  rw [divsi_of_lt ha hd hd0, remsi_of_lt ha hd hd0, sgnW_pos ha hd hd0]
  by_cases h0 : a = 0
  · subst h0
    have : (0 : BitVec 32) % d = 0 := by simp
    rw [this]
    simp [IntOp.andi, IntOp.cmpi, Scalar.select]
  · have hs : sgnW a = 1 := by
      unfold sgnW; rw [if_neg h0, msb_of_lt ha]; rfl
    rw [hs]
    simp [IntOp.andi, IntOp.cmpi, Scalar.select]

/-- The value of that quotient. -/
theorem toNat_floorDivW_of_lt : (floorDivW a d).toNat = a.toNat / d.toNat := by
  rw [floorDivW_of_lt ha hd hd0, BitVec.toNat_udiv]

/-- The remainder with the divisor's sign of a non-negative word by a positive one is the numbers' remainder. -/
theorem remW_of_lt : remW a d = a % d := by
  unfold remW
  have hd' : Scalar.select (IntOp.cmpi .eq d 0#32) 1#32 d = d := by
    have hne : d ≠ 0#32 := fun h => by rw [h] at hd0; simp at hd0
    have hb : (d == 0#32) = false := beq_eq_false_iff_ne.2 hne
    simp [IntOp.cmpi, Scalar.select, hb]
  simp only [hd']
  rw [remsi_of_lt ha hd hd0]
  have hr : (a % d).toNat < 2 ^ 31 := by
    rw [BitVec.toNat_umod]; exact lt_of_le_of_lt (Nat.mod_le _ _) ha
  rw [cmpi_slt_zero_of_lt hr, cmpi_slt_zero_of_lt hd]
  simp [IntOp.andi, IntOp.cmpi, Scalar.select]

/-- The value of that remainder. -/
theorem toNat_remW_of_lt : (remW a d).toNat = a.toNat % d.toNat := by
  rw [remW_of_lt ha hd hd0, BitVec.toNat_umod]

end Div

end Cert.LibCumsum
-- ==== Proof.NzScatterIdx.lean ====
/-
  Where the histogram's scatter puts its updates. The scatter has one index per update, no window axes, and sends
  update p to the operand's element whose number is the index array's word at (p, 0) read as a signed integer, when
  that is one of 0, …, 4095, and nowhere otherwise.
-/
import proofs.«172550_g12077448036551_cont_sun_c4_50_16_alg».proof.Proof.RefTerm
import Idealize.ShloMosaic.Lib.ValueIdx
import Mathlib.Algebra.BigOperators.Fin

noncomputable section

namespace Cert.Gcn.Ref

open Idealize.ShloMosaic Idealize.ShloMosaic.ValueIdx Cert.ReferenceIdeal Cert.ReferenceIdeal.Facts₀
open scoped BigOperators

variable [Cert.ReferenceIdeal.Facts]

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Where the histogram's scatter sends update p: its start index is the index array's word at (p, 0) read signed. -/
theorem scatter_start (idx : IVec S4096x1 32) (p : Fin 4096) :
    scatter_S4096_S4096x1_S4096_n_0_0_1.start (ix1 p : S4096.Idx) idx 0 = (idx (ix2 p (0 : Fin 1))).toInt := by
  have hmem : (0 : Fin S4096.rank) ∈ scatter_S4096_S4096x1_S4096_n_0_0_1.scatterDimsToOperandDims := List.mem_singleton.2 rfl
  unfold ScatterDims.start
  rw [dif_pos hmem]
  refine congrArg BitVec.toInt (congrArg idx ?_)
  funext b
  match b with
  | ⟨0, _⟩ => rfl
  | ⟨1, _⟩ => rfl

/-- The histogram's scatter has no window axes: the window coordinate on the operand's axis is zero. -/
theorem scatter_window (p : Fin 4096) : scatter_S4096_S4096x1_S4096_n_0_0_1.window (ix1 p : S4096.Idx) 0 = 0 := by
  have hnot : (0 : Fin S4096.rank) ∉ scatter_S4096_S4096x1_S4096_n_0_0_1.sKept := by
    intro hm
    have h2 := (List.mem_filter.1 hm).2
    have h3 : (0 : Fin S4096.rank) ∈ scatter_S4096_S4096x1_S4096_n_0_0_1.insertedWindowDims := List.mem_singleton.2 rfl
    simp [h3] at h2
  unfold ScatterDims.window
  rw [dif_neg hnot]

/-- Update p lands on element j exactly when the index word at (p, 0), read signed, is j; a word outside
    0 … 4095 lands nowhere. -/
theorem scatter_resultIdx?_eq_some_iff (idx : IVec S4096x1 32) (p j : Fin 4096) :
    scatter_S4096_S4096x1_S4096_n_0_0_1.resultIdx? (ix1 p : S4096.Idx) idx = some (ix1 j)
      ↔ (idx (ix2 p (0 : Fin 1))).toInt = (j.val : Int) := by
  have hs := scatter_start idx p
  have hw := scatter_window p
  have hj := j.isLt
  unfold ScatterDims.resultIdx?
  split
  · next hin =>
    have h0 := hin 0
    rw [hs, hw] at h0
    constructor
    · intro h
      have h1 := congrArg (fun f : S4096.Idx => (f 0).val) (Option.some.inj h)
      simp only [hs, hw] at h1
      change _ = j.val at h1
      omega
    · intro h
      refine congrArg some (funext fun a => ?_)
      obtain rfl : a = 0 := Subsingleton.elim _ _
      apply Fin.ext
      show (scatter_S4096_S4096x1_S4096_n_0_0_1.start (ix1 p : S4096.Idx) idx 0 + (scatter_S4096_S4096x1_S4096_n_0_0_1.window (ix1 p : S4096.Idx) 0 : Int)).toNat = j.val
      rw [hs, hw]; omega
  · next hin =>
    constructor
    · intro h; exact absurd h (by simp)
    · intro h
      exfalso; apply hin
      intro a
      obtain rfl : a = 0 := Subsingleton.elim _ _
      rw [hs, hw]
      refine ⟨by omega, ?_⟩
      show _ < ((4096 : ℕ) : Int)
      omega

end Cert.Gcn.Ref

end
-- ==== Proof.NzBin.lean ====
/-
  The histogram of the running counts. Each flat position p adds one at the element numbered by its running
  count; a count is between 0 and 4096, and the count 4096 (reached only at the last position when every entry is
  nonzero) falls outside the 4096 elements and is dropped. Read at j, the histogram is the word of the number of
  positions whose running count is j.
-/
import proofs.«172550_g12077448036551_cont_sun_c4_50_16_alg».proof.Proof.RefTerm
import proofs.«172550_g12077448036551_cont_sun_c4_50_16_alg».proof.Proof.LibCumsum
import proofs.«172550_g12077448036551_cont_sun_c4_50_16_alg».proof.Proof.LibCumsumDiv
import proofs.«172550_g12077448036551_cont_sun_c4_50_16_alg».proof.Proof.LibCumsumEnum
import proofs.«172550_g12077448036551_cont_sun_c4_50_16_alg».proof.Proof.NzCum
import proofs.«172550_g12077448036551_cont_sun_c4_50_16_alg».proof.Proof.NzScatterIdx
import Idealize.ShloMosaic.Lib.ValueIdx

noncomputable section

namespace Cert.Gcn.Ref

open Idealize.ShloMosaic Idealize.ShloMosaic.ValueIdx Cert.ReferenceIdeal Cert.ReferenceIdeal.Facts₀ Cert.LibCumsum
open scoped BigOperators

variable [Cert.ReferenceIdeal.Facts]

/-- The running count at p is at most p + 1. -/
theorem cnt_le_succ (m : ℕ → Prop) [DecidablePred m] (p : ℕ) : cnt m p ≤ p + 1 := by
  unfold cnt
  exact (Finset.card_filter_le _ _).trans (by rw [Finset.card_range])

/-- The index vector: the running counts bounded below by zero, 4096 added to a negative one. -/
def nzIdxV (g : IVec S64x64 32) : IVec S4096 32 :=
  select (cmpi .slt (fClip (nzCum g) (constantI S_ 32 0#32)) (broadcastInDim S4096 ![] bcast_S_S4096 (constantI S_ 32 0#32)))
    (addi (fClip (nzCum g) (constantI S_ 32 0#32)) (broadcastInDim S4096 ![] bcast_S_S4096 (constantI S_ 32 4096#32)))
    (fClip (nzCum g) (constantI S_ 32 0#32))

/-- The index array the histogram's scatter is handed: that vector as a column. -/
def nzIdx (g : IVec S64x64 32) : IVec S4096x1 32 :=
  broadcastInDim S4096x1 ![0] bcast_S4096_S4096x1_0 (nzIdxV g)

/-- The index vector at p, as word operations on the running count at p. -/
theorem nzIdxV_apply (g : IVec S64x64 32) (p : Fin 4096) :
    nzIdxV g (ix1 p) = Scalar.select (IntOp.cmpi .slt (IntOp.maxsi 0#32 (nzCum g (ix1 p))) 0#32)
      (IntOp.addi (IntOp.maxsi 0#32 (nzCum g (ix1 p))) 4096#32) (IntOp.maxsi 0#32 (nzCum g (ix1 p))) := rfl

/-- The histogram is the scatter-add of ones into zeros at those indices. -/
theorem nzBin_eq (g : IVec S64x64 32) :
    nzBin g = Host.scatter scatter_S4096_S4096x1_S4096_n_0_0_1 IntOp.addi (fun _ => 0#32) (nzIdx g) (fun _ => 1#32) := rfl

/-- A vector broadcast to a column, read at (p, u), is the vector at p. -/
theorem bcast_col_apply (x : IVec S4096 32) (p : Fin 4096) (u : Fin 1) :
    broadcastInDim S4096x1 ![0] bcast_S4096_S4096x1_0 x (ix2 p u) = x (ix1 p) := by
  unfold broadcastInDim
  refine congrArg x (funext fun a => ?_)
  obtain rfl : a = 0 := Subsingleton.elim _ _
  split
  · next h1 => exact absurd h1 (by decide)
  · rfl

/-- The index word at (p, 0) is the running count at p: a count is never negative, so neither the lower bound nor
    the wrap-around changes it. -/
theorem nzIdx_apply (g : IVec S64x64 32) (p : Fin 4096) :
    nzIdx g (ix2 p (0 : Fin 1)) = BitVec.ofNat 32 (cnt (nzMark g) p.val) := by
  have hp := p.isLt
  have hc := cnt_le_succ (nzMark g) p.val
  unfold nzIdx
  rw [bcast_col_apply, nzIdxV_apply, nzCum_apply]
  have hlt : (BitVec.ofNat 32 (cnt (nzMark g) p.val)).toNat < 2 ^ 31 := by
    rw [toNat_ofNat_of_lt (by omega)]; omega
  rw [maxsi_zero_of_lt hlt, cmpi_slt_zero_of_lt hlt]
  rfl

/-- The histogram at j is the word of the number of positions whose running count is j. -/
theorem nzBin_apply (g : IVec S64x64 32) (j : Fin 4096) :
    nzBin g (ix1 j)
      = BitVec.ofNat 32 ((Finset.range 4096).filter fun p => cnt (nzMark g) p = j.val).card := by
  have hterm : ∀ p : Fin 4096, scatter_S4096_S4096x1_S4096_n_0_0_1.resultIdx? (ix1 p : S4096.Idx) (nzIdx g) = some (ix1 j)
      ↔ cnt (nzMark g) p.val = j.val := by
    intro p
    have hp := p.isLt
    have hc := cnt_le_succ (nzMark g) p.val
    rw [scatter_resultIdx?_eq_some_iff, nzIdx_apply,
      toInt_of_lt (by rw [toNat_ofNat_of_lt (by omega)]; omega), toNat_ofNat_of_lt (by omega)]
    exact Nat.cast_inj
  rw [nzBin_eq, scatter_addi_apply, BitVec.zero_add]
  refine (Fintype.sum_equiv (S4096.rowMajor.symm.trans idxEquiv1) _
      (fun p : Fin 4096 => if cnt (nzMark g) p.val = j.val then (1 : BitVec 32) else 0) (fun n => ?_)).trans ?_
  · show _ = if cnt (nzMark g) (idxEquiv1 (S4096.rowMajor.symm n)).val = j.val then (1 : BitVec 32) else 0
    generalize S4096.rowMajor.symm n = i
    obtain ⟨p, rfl⟩ : ∃ p, i = ix1 p := ⟨i 0, eq_ix1 i⟩
    exact if_congr (hterm p) rfl rfl
  · rw [Fin.sum_univ_eq_sum_range (fun p => if cnt (nzMark g) p = j.val then (1 : BitVec 32) else 0) 4096,
      sum_indicator_eq_ofNat_card]

end Cert.Gcn.Ref

end
-- ==== Proof.NzFlat.lean ====
/-
  The running sum of the histogram. At k it adds up the numbers of positions whose running count is j, over j ≤ k:
  the number of positions whose running count is at most k. That number is at most 4096, so the 32-bit word holds
  it.
-/
import proofs.«172550_g12077448036551_cont_sun_c4_50_16_alg».proof.Proof.RefTerm
import proofs.«172550_g12077448036551_cont_sun_c4_50_16_alg».proof.Proof.LibCumsum
import proofs.«172550_g12077448036551_cont_sun_c4_50_16_alg».proof.Proof.LibCumsumDiv
import proofs.«172550_g12077448036551_cont_sun_c4_50_16_alg».proof.Proof.LibCumsumEnum
import proofs.«172550_g12077448036551_cont_sun_c4_50_16_alg».proof.Proof.NzCum
import proofs.«172550_g12077448036551_cont_sun_c4_50_16_alg».proof.Proof.NzBin
import Idealize.ShloMosaic.Lib.ValueIdx

noncomputable section

namespace Cert.Gcn.Ref

open Idealize.ShloMosaic Idealize.ShloMosaic.ValueIdx Cert.ReferenceIdeal Cert.ReferenceIdeal.Facts₀ Cert.LibCumsum
open scoped BigOperators

variable [Cert.ReferenceIdeal.Facts]

/-- The running sum of the histogram at k is the word of the number of positions whose running count is at most k. -/
theorem nzFlat_apply (g : IVec S64x64 32) (k : Fin 4096) :
    nzFlat g (ix1 k) = BitVec.ofNat 32 (pos (nzMark g) 4096 k.val) := by
  have hk := k.isLt
  show Host.reduceWindow IntOp.addi ![4096] ![1] ![4095] ![0] (nzBin g)
      (broadcastInDim S_ ![] bcast_S_S_ (constantI S_ 32 0#32)) reduceWindows_S4096_S4096_w4096s1p4095_0 h_S_ (ix1 k) = _
  rw [reduceWindow_cumsum_apply (N := 4096) (L := 4095) rfl _ _ _ _ rfl k]
  simp only [nzBin_apply]
  rw [Fin.sum_univ_eq_sum_range (fun j => if j ≤ k.val then
      BitVec.ofNat 32 ((Finset.range 4096).filter fun p => cnt (nzMark g) p = j).card else 0) 4096, ← Finset.sum_filter]
  have hf : (Finset.range 4096).filter (fun j => j ≤ k.val) = Finset.range (k.val + 1) := by
    ext j; simp only [Finset.mem_filter, Finset.mem_range]; omega
  rw [hf, pos_eq_sum]
  exact (Nat.cast_sum (Finset.range (k.val + 1))
    fun j => ((Finset.range 4096).filter fun p => cnt (nzMark g) p = j).card).symm

/-- Its value. -/
theorem nzFlat_toNat (g : IVec S64x64 32) (k : Fin 4096) :
    (nzFlat g (ix1 k)).toNat = pos (nzMark g) 4096 k.val := by
  have := pos_le (nzMark g) 4096 k.val
  rw [nzFlat_apply, toNat_ofNat_of_lt (by omega)]

end Cert.Gcn.Ref

end
-- ==== Proof.NzRowCol.lean ====
/-
  Rows and columns of the listed entries. The flat position's word holds a number P ≤ 4096, so the signed floor
  division by 64 and by 1 and the remainder modulo 64 are the numbers' (no sign correction applies), giving the row
  (P / 64) mod 64 and the column P mod 64. From the number of nonzero entries on, both are filled with zero: the fill
  mask compares the slot number with that count, both small non-negative words.
-/
import proofs.«172550_g12077448036551_cont_sun_c4_50_16_alg».proof.Proof.RefTerm
import proofs.«172550_g12077448036551_cont_sun_c4_50_16_alg».proof.Proof.LibCumsum
import proofs.«172550_g12077448036551_cont_sun_c4_50_16_alg».proof.Proof.LibCumsumDiv
import proofs.«172550_g12077448036551_cont_sun_c4_50_16_alg».proof.Proof.LibCumsumEnum
import proofs.«172550_g12077448036551_cont_sun_c4_50_16_alg».proof.Proof.NzCum
import proofs.«172550_g12077448036551_cont_sun_c4_50_16_alg».proof.Proof.NzFlat
import proofs.«172550_g12077448036551_cont_sun_c4_50_16_alg».proof.Proof.NzCount
import Idealize.ShloMosaic.Lib.ValueIdx

noncomputable section

namespace Cert.Gcn.Ref

open Idealize.ShloMosaic Idealize.ShloMosaic.ValueIdx Cert.ReferenceIdeal Cert.ReferenceIdeal.Facts₀ Cert.LibCumsum
open scoped BigOperators

variable [Cert.ReferenceIdeal.Facts]

/-- The four division steps at slot k, as word operations on the flat position's word. -/
theorem nzQuot_apply (g : IVec S64x64 32) (k : Fin 4096) :
    nzQuot g (ix1 k) = floorDivW (nzFlat g (ix1 k)) 64#32 := rfl
theorem nzRowRaw_apply (g : IVec S64x64 32) (k : Fin 4096) :
    nzRowRaw g (ix1 k) = remW (nzQuot g (ix1 k)) 64#32 := rfl
theorem nzFlat1_apply (g : IVec S64x64 32) (k : Fin 4096) :
    nzFlat1 g (ix1 k) = floorDivW (nzFlat g (ix1 k)) 1#32 := rfl
theorem nzColRaw_apply (g : IVec S64x64 32) (k : Fin 4096) :
    nzColRaw g (ix1 k) = remW (nzFlat1 g (ix1 k)) 64#32 := rfl

/-- The row before the fill: the flat position divided by 64, modulo 64. -/
theorem nzRowRaw_toNat (g : IVec S64x64 32) (k : Fin 4096) :
    (nzRowRaw g (ix1 k)).toNat = (pos (nzMark g) 4096 k.val / 64) % 64 := by
  have hP := pos_le (nzMark g) 4096 k.val
  have hF := nzFlat_toNat g k
  have h64 : (64#32 : BitVec 32).toNat = 64 := rfl
  have hq : (nzQuot g (ix1 k)).toNat = pos (nzMark g) 4096 k.val / 64 := by
    rw [nzQuot_apply, toNat_floorDivW_of_lt (a := nzFlat g (ix1 k)) (d := 64#32) (by omega) (by decide) (by decide),
      hF, h64]
  have hq' : (nzQuot g (ix1 k)).toNat < 2 ^ 31 := by
    rw [hq]; exact lt_of_le_of_lt (Nat.div_le_self _ _) (by omega)
  rw [nzRowRaw_apply, toNat_remW_of_lt (a := nzQuot g (ix1 k)) (d := 64#32) hq' (by decide) (by decide), hq, h64]

/-- The column before the fill: the flat position modulo 64. -/
theorem nzColRaw_toNat (g : IVec S64x64 32) (k : Fin 4096) :
    (nzColRaw g (ix1 k)).toNat = pos (nzMark g) 4096 k.val % 64 := by
  have hP := pos_le (nzMark g) 4096 k.val
  have hF := nzFlat_toNat g k
  have h64 : (64#32 : BitVec 32).toNat = 64 := rfl
  have h1 : (1#32 : BitVec 32).toNat = 1 := rfl
  have hq : (nzFlat1 g (ix1 k)).toNat = pos (nzMark g) 4096 k.val := by
    rw [nzFlat1_apply, toNat_floorDivW_of_lt (a := nzFlat g (ix1 k)) (d := 1#32) (by omega) (by decide) (by decide),
      hF, h1, Nat.div_one]
  rw [nzColRaw_apply, toNat_remW_of_lt (a := nzFlat1 g (ix1 k)) (d := 64#32) (by omega) (by decide) (by decide), hq, h64]

/-- A select on the bit of a decision is the `if`. -/
theorem select_ofBool {α : Type} (b : Bool) (x y : α) : Scalar.select (BitVec.ofBool b) x y = if b then x else y := by
  cases b <;> rfl

/-- The fill mask at slot k: set exactly when k is at least the number of nonzero entries. -/
theorem nzPad_apply (g : IVec S64x64 32) (k : Fin 4096) :
    nzPad g (ix1 k) = BitVec.ofBool (decide (nzN g ≤ k.val)) := by
  have hk := k.isLt
  have hN := nzN_le g
  unfold nzPad
  simp only [cmpi, broadcastInDim, iotaInDim]
  rw [hostCount_eq]
  show BitVec.ofBool ((BitVec.ofNat 32 (nzN g)).sle (BitVec.ofNat 32 k.val)) = _
  rw [sle_of_lt (by rw [toNat_ofNat_of_lt (by omega)]; omega) (by rw [toNat_ofNat_of_lt (by omega)]; omega),
    toNat_ofNat_of_lt (by omega), toNat_ofNat_of_lt (by omega)]

/-- The row and the column at slot k, zero from the number of nonzero entries on. -/
theorem nzRow_apply (g : IVec S64x64 32) (k : Fin 4096) :
    nzRow g (ix1 k) = Scalar.select (nzPad g (ix1 k)) 0#32 (nzRowRaw g (ix1 k)) := rfl
theorem nzCol_apply (g : IVec S64x64 32) (k : Fin 4096) :
    nzCol g (ix1 k) = Scalar.select (nzPad g (ix1 k)) 0#32 (nzColRaw g (ix1 k)) := rfl

/-- The row's value at slot k. -/
theorem nzRow_val (g : IVec S64x64 32) (k : Fin 4096) :
    (nzRow g (ix1 k)).toNat = if nzN g ≤ k.val then 0 else (pos (nzMark g) 4096 k.val / 64) % 64 := by
  rw [nzRow_apply, nzPad_apply, select_ofBool]
  by_cases hk : nzN g ≤ k.val
  · simp [hk]
  · simp only [hk, decide_false, if_false, Bool.false_eq_true]
    exact nzRowRaw_toNat g k

/-- The column's value at slot k. -/
theorem nzCol_val (g : IVec S64x64 32) (k : Fin 4096) :
    (nzCol g (ix1 k)).toNat = if nzN g ≤ k.val then 0 else pos (nzMark g) 4096 k.val % 64 := by
  rw [nzCol_apply, nzPad_apply, select_ofBool]
  by_cases hk : nzN g ≤ k.val
  · simp [hk]
  · simp only [hk, decide_false, if_false, Bool.false_eq_true]
    exact nzColRaw_toNat g k

end Cert.Gcn.Ref

end
-- ==== Proof.NzEnum.lean ====
/-
  The reference's list of nonzero entries really enumerates them.

  The reference finds the nonzero entries of the graph g : [64, 64] without a loop: it flattens g to 4096 positions,
  takes the running count of nonzero entries, makes a histogram of the running counts and takes the running sum of
  the histogram; the result at slot k is the number of positions whose running count is at most k. Because the
  running count is non-decreasing and steps up exactly at the nonzero entries, that number is the flat position of
  the (k + 1)-th nonzero entry while k is below their number n, and slots k ↦ positions is a bijection from the slots
  below n onto the nonzero entries. The row and the column of slot k are that position divided by 64 and modulo 64,
  and zero from slot n on. All the numbers involved are at most 4096, so no 32-bit word wraps.

  The statements: the reference's count is the word of n; every listed row and column is below 64; and a sum of
  anything over the slots below n, taken at the listed (row, column), is its sum over the nonzero entries.
-/
import proofs.«172550_g12077448036551_cont_sun_c4_50_16_alg».proof.Proof.RefTerm
import proofs.«172550_g12077448036551_cont_sun_c4_50_16_alg».proof.Proof.LibCumsumEnum
import proofs.«172550_g12077448036551_cont_sun_c4_50_16_alg».proof.Proof.NzCum
import proofs.«172550_g12077448036551_cont_sun_c4_50_16_alg».proof.Proof.NzCount
import proofs.«172550_g12077448036551_cont_sun_c4_50_16_alg».proof.Proof.NzRowCol
import Idealize.ShloMosaic.Lib.ValueIdx

noncomputable section

namespace Cert.Gcn.Ref

open Idealize.ShloMosaic Idealize.ShloMosaic.ValueIdx Cert.ReferenceIdeal Cert.ReferenceIdeal.Facts₀ Cert.LibCumsum
open scoped BigOperators

variable [Cert.ReferenceIdeal.Facts]

/-- Every listed row is a node number (from the count on it is the zero fill). -/
theorem nzRow_lt (g : IVec S64x64 32) (k : Fin 4096) : (nzRow g (ix1 k)).toNat < 64 := by
  rw [nzRow_val]
  split
  · decide
  · exact Nat.mod_lt _ (by decide)

/-- Every listed column is a node number. -/
theorem nzCol_lt (g : IVec S64x64 32) (k : Fin 4096) : (nzCol g (ix1 k)).toNat < 64 := by
  rw [nzCol_val]
  split
  · decide
  · exact Nat.mod_lt _ (by decide)

/-- Summing anything over the listed entries, slot by slot below the count, is summing it over the nonzero entries of
    the graph: slot k holds the (k + 1)-th marked flat position P, as the row P / 64 and the column P mod 64, and k ↦ P
    runs through the marked positions once each. -/
theorem nz_sum {M : Type} [AddCommMonoid M] (g : IVec S64x64 32) (h : Fin 64 → Fin 64 → M) :
    (∑ k : Fin 4096, if k.val < nzN g then
        h ⟨(nzRow g (ix1 k)).toNat, nzRow_lt g k⟩ ⟨(nzCol g (ix1 k)).toNat, nzCol_lt g k⟩ else 0)
      = ∑ r : Fin 64, ∑ c : Fin 64, if g (ix2 r c) ≠ 0#32 then h r c else 0 := by
  have hN := nzN_le g
  have hterm : ∀ k : Fin 4096,
      (if k.val < nzN g then
        h ⟨(nzRow g (ix1 k)).toNat, nzRow_lt g k⟩ ⟨(nzCol g (ix1 k)).toNat, nzCol_lt g k⟩ else 0)
      = if k.val < nzN g then
          h ⟨(pos (nzMark g) 4096 k.val / 64) % 64, Nat.mod_lt _ (by decide)⟩
            ⟨pos (nzMark g) 4096 k.val % 64, Nat.mod_lt _ (by decide)⟩ else 0 := by
    intro k
    by_cases hk : k.val < nzN g
    · rw [if_pos hk, if_pos hk]
      refine congrArg₂ h (Fin.ext ?_) (Fin.ext ?_)
      · show (nzRow g (ix1 k)).toNat = _
        rw [nzRow_val, if_neg (by omega)]
      · show (nzCol g (ix1 k)).toNat = _
        rw [nzCol_val, if_neg (by omega)]
    · rw [if_neg hk, if_neg hk]
  rw [Finset.sum_congr rfl (fun k _ => hterm k),
    Fin.sum_univ_eq_sum_range (fun k => if k < nzN g then
      h ⟨(pos (nzMark g) 4096 k / 64) % 64, Nat.mod_lt _ (by decide)⟩
        ⟨pos (nzMark g) 4096 k % 64, Nat.mod_lt _ (by decide)⟩ else 0) 4096,
    ← Finset.sum_filter]
  have hf : (Finset.range 4096).filter (fun k => k < nzN g) = Finset.range (nzN g) := by
    ext k; simp only [Finset.mem_filter, Finset.mem_range]; omega
  rw [hf, ← card_nzMark g,
    sum_pos_eq (nzMark g) 4096 (fun p => h ⟨(p / 64) % 64, Nat.mod_lt _ (by decide)⟩ ⟨p % 64, Nat.mod_lt _ (by decide)⟩),
    Finset.sum_filter, sum_range_4096]
  refine Finset.sum_congr rfl fun r _ => Finset.sum_congr rfl fun c _ => ?_
  refine if_congr (nzMark_flat g r c) (congrArg₂ h (Fin.ext ?_) (Fin.ext ?_)) rfl
  · show (r.val * 64 + c.val) / 64 % 64 = r.val
    have := r.isLt; have := c.isLt; omega
  · show (r.val * 64 + c.val) % 64 = c.val
    have := r.isLt; have := c.isLt; omega

end Cert.Gcn.Ref

end
-- ==== Proof.EdgeSum.lean ====
/-
  Sums over the edge list. The list has 532480 = 128 · 4096 + 8192 entries: entry 4096 · i + k is slot k of batch i,
  entry 524288 + j is the self loop of node j. A sum over the list is the double sum over batches and slots plus the
  sum over the self loops. A sum over batches and slots of the terms whose destination col k + 64 · i' is node
  64 · i + c keeps batch i only (columns and c are below 64), and of the self loops' keeps loop 64 · i + c only.
-/
import Mathlib.Algebra.BigOperators.Fin
import Mathlib.Algebra.BigOperators.Ring.Finset
import Mathlib.Logic.Equiv.Fin.Basic

open scoped BigOperators

namespace Cert.Gcn.Edge

/-- Slot k of batch i in the edge list. -/
def eE (i : Fin 128) (k : Fin 4096) : Fin 532480 := ⟨4096 * i.val + k.val, by omega⟩
/-- The self loop of node j in the edge list. -/
def eL (j : Fin 8192) : Fin 532480 := ⟨524288 + j.val, by omega⟩
/-- Node c of batch i among the 8192 nodes. -/
def node (i : Fin 128) (c : Fin 64) : Fin 8192 := ⟨64 * i.val + c.val, by omega⟩

@[simp] theorem eE_val (i : Fin 128) (k : Fin 4096) : (eE i k).val = 4096 * i.val + k.val := rfl
@[simp] theorem eL_val (j : Fin 8192) : (eL j).val = 524288 + j.val := rfl
@[simp] theorem node_val (i : Fin 128) (c : Fin 64) : (node i c).val = 64 * i.val + c.val := rfl

/-- A sum over a list of a · b + c entries is the double sum over the first a · b, read row by row, plus the sum over
    the last c. -/
theorem sum_split_gen {M : Type*} [AddCommMonoid M] (a b c : Nat) (F : Fin (a * b + c) → M) :
    ∑ e, F e = (∑ i : Fin a, ∑ k : Fin b, F ⟨b * i.val + k.val, by
        have := i.isLt; have := k.isLt
        have h : b * i.val + k.val < b * (i.val + 1) := by rw [Nat.mul_succ]; omega
        have h2 : b * (i.val + 1) ≤ b * a := Nat.mul_le_mul_left b (by omega)
        rw [Nat.mul_comm a b]; omega⟩)
      + ∑ j : Fin c, F ⟨a * b + j.val, by have := j.isLt; omega⟩ := by
  rw [Fin.sum_univ_add]
  congr 1
  rw [← Equiv.sum_comp finProdFinEquiv, Fintype.sum_prod_type]
  refine Finset.sum_congr rfl fun i _ => Finset.sum_congr rfl fun k _ => ?_
  refine congrArg F (Fin.ext ?_)
  show k.val + b * i.val = b * i.val + k.val
  omega

/-- The sum over the edge list: batches and slots, then self loops. -/
theorem sum_edges {M : Type*} [AddCommMonoid M] (F : Fin 532480 → M) :
    ∑ e, F e = (∑ i : Fin 128, ∑ k : Fin 4096, F (eE i k)) + ∑ j : Fin 8192, F (eL j) :=
  sum_split_gen 128 4096 8192 F

/-- Of the batches' slots whose destination col k + 64 · i' is node 64 · i + c, only batch i's with col k = c remain. -/
theorem sum_slots_dest {M : Type*} [AddCommMonoid M] (col : Fin 4096 → Nat) (hcol : ∀ k, col k < 64)
    (i : Fin 128) (c : Fin 64) (F : Fin 128 → Fin 4096 → M) :
    (∑ i' : Fin 128, ∑ k : Fin 4096,
        if ((col k + 64 * i'.val : Nat) : Int) = (((node i c).val : Nat) : Int) then F i' k else 0)
      = ∑ k : Fin 4096, if col k = c.val then F i k else 0 := by
  rw [Finset.sum_comm]
  refine Finset.sum_congr rfl fun k _ => ?_
  have hk := hcol k
  have hc := c.isLt
  have h1 : ∀ i' : Fin 128, (if ((col k + 64 * i'.val : Nat) : Int) = (((node i c).val : Nat) : Int) then F i' k else 0)
      = if i' = i then (if col k = c.val then F i k else 0) else 0 := by
    intro i'
    by_cases hi : i' = i
    · subst hi
      rw [if_pos rfl]
      refine if_congr ?_ rfl rfl
      rw [node_val]; constructor
      · intro h; have := Int.ofNat.inj h; omega
      · intro h; rw [h]; congr 1; omega
    · rw [if_neg hi, if_neg]
      intro h
      have h' := Int.ofNat.inj h
      rw [node_val] at h'
      exact hi (Fin.ext (by omega))
  rw [Finset.sum_congr rfl fun i' _ => h1 i', Finset.sum_ite_eq' Finset.univ i, if_pos (Finset.mem_univ i)]

/-- Of the self loops, only node 64 · i + c's lands on node 64 · i + c. -/
theorem sum_loops_dest {M : Type*} [AddCommMonoid M] (i : Fin 128) (c : Fin 64) (G : Fin 8192 → M) :
    (∑ j : Fin 8192, if ((j.val : Nat) : Int) = (((node i c).val : Nat) : Int) then G j else 0) = G (node i c) := by
  have h1 : ∀ j : Fin 8192, (if ((j.val : Nat) : Int) = (((node i c).val : Nat) : Int) then G j else 0)
      = if j = node i c then G j else 0 := by
    intro j
    refine if_congr ?_ rfl rfl
    constructor
    · intro h; exact Fin.ext (Int.ofNat.inj h)
    · intro h; rw [h]
  rw [Finset.sum_congr rfl fun j _ => h1 j, Finset.sum_ite_eq' Finset.univ (node i c), if_pos (Finset.mem_univ _)]

end Cert.Gcn.Edge
-- ==== Proof.EdgeIdx.lean ====
/-
  The edge list read entry by entry. Entry 4096 · i + k of the end-point lists is the slot's node number plus 64 · i
  (a per-slot array repeated over the 128 batches, offset, and flattened row by row); entry 524288 + j is j. The words
  are small and non-negative, so the "add 8192 to a negative index" step leaves them as they are and their signed value
  is the natural number. The weight of entry 4096 · i + k is the slot's valid bit as a number, of a self loop one.
-/
import proofs.«172550_g12077448036551_cont_sun_c4_50_16_alg».proof.Proof.RefTerm
import proofs.«172550_g12077448036551_cont_sun_c4_50_16_alg».proof.Proof.EdgeSum
import Idealize.ShloMosaic.Lib.ValueIdx
import Idealize.ShloMosaic.Lib.Pipeline.Value
import Idealize.ShloMosaic.Lib.IdealHost

noncomputable section

namespace Cert.Gcn.Ref

open Idealize.ShloMosaic Idealize.ShloMosaic.ValueIdx Cert.ReferenceIdeal Cert.ReferenceIdeal.Facts₀ Cert.Gcn.Edge

variable [Cert.ReferenceIdeal.Facts]

/-! ### Words -/

/-- A node number below 64 plus 64 · i, i below 128, computed in 32-bit words, is that natural number read signed. -/
theorem toInt_add_off (a : BitVec 32) (i : Nat) (ha : a.toNat < 64) (hi : i < 128) :
    (a + BitVec.ofNat 32 i * 64#32).toInt = ((a.toNat + 64 * i : Nat) : Int) := by
  rw [BitVec.toInt_eq_toNat_cond]
  simp only [BitVec.toNat_add, BitVec.toNat_mul, BitVec.toNat_ofNat]
  split <;> omega

/-- A number below 8192 as a 32-bit word reads back, signed, as itself. -/
theorem toInt_ofNat_small (j : Nat) (hj : j < 8192) : (BitVec.ofNat 32 j).toInt = (j : Int) := by
  rw [BitVec.toInt_eq_toNat_cond]
  simp only [BitVec.toNat_ofNat]
  split <;> omega

/-! ### The two halves of a concatenated list -/

/-- Entry e below 524288 of a concatenation is the first list's entry e. -/
theorem cat_fst {α : Type} (p : S524288.Idx → α) (q : S8192.Idx → α) (e : Fin 524288) :
    concatenate S532480 0 [⟨S524288, p⟩, ⟨S8192, q⟩] concatenates_S524288_S8192_S532480_d0
      (ix1 (⟨e.val, by omega⟩ : Fin 532480)) = p (ix1 e) := by
  refine concatenate_pair_apply_left (t := S532480) 0 p q _ _ rfl (ix1 e) fun b => ?_
  match b with
  | ⟨0, _⟩ => rfl

/-- Entry 524288 + j of a concatenation is the second list's entry j. -/
theorem cat_snd {α : Type} (p : S524288.Idx → α) (q : S8192.Idx → α) (j : Fin 8192) :
    concatenate S532480 0 [⟨S524288, p⟩, ⟨S8192, q⟩] concatenates_S524288_S8192_S532480_d0
      (ix1 (eL j)) = q (ix1 j) := by
  refine concatenate_pair_apply_right (t := S532480) 0 p q _ _ rfl rfl (ix1 j) (fun b hb => ?_) ?_
  · match b with
    | ⟨0, _⟩ => exact absurd rfl hb
  · show j.val + 524288 = 524288 + j.val
    omega

/-! ### The end points -/

/-- 64 · i as a word. -/
theorem batchOff_apply (i : Fin 128) : batchOff (ix1 i) = BitVec.ofNat 32 i.val * 64#32 := rfl

/-- Slot k of batch i of a spread array: the slot's word plus 64 · i. -/
theorem spread_apply (v : IVec S4096 32) (i : Fin 128) (k : Fin 4096) :
    spread v (ix1 (⟨4096 * i.val + k.val, by omega⟩ : Fin 524288)) = v (ix1 k) + BitVec.ofNat 32 i.val * 64#32 := by
  unfold spread
  dsimp only
  refine (shapeCast_apply _ _ _ (ix2 i k) ?_).trans ?_
  · rw [Shape.rowMajor_val_two, Shape.rowMajor_val_one]
    show i.val * 4096 + k.val = 4096 * i.val + k.val
    omega
  · show (broadcastInDim S128x4096 ![0, 1] bcast_S1x4096_S128x4096_0_1
        (broadcastInDim S1x4096 ![1] bcast_S4096_S1x4096_1 v)) (ix2 i k) +
      (broadcastInDim S128x4096 ![0, 1] bcast_S128x1_S128x4096_0_1
        (broadcastInDim S128x1 ![0] bcast_S128_S128x1_0 batchOff)) (ix2 i k) = _
    refine congrArg₂ (· + ·) ?_ ?_
    · refine (broadcastInDim_apply _ _ _ (ix2 i k) (ix2 (0 : Fin 1) k) fun a => ?_).trans ?_
      · match a with
        | ⟨0, _⟩ => rfl
        | ⟨1, _⟩ => rfl
      · refine broadcastInDim_apply _ _ _ (ix2 (0 : Fin 1) k) (ix1 k) fun a => ?_
        match a with
        | ⟨0, _⟩ => rfl
    · refine (broadcastInDim_apply _ _ _ (ix2 i k) (ix2 i (0 : Fin 1)) fun a => ?_).trans ?_
      · match a with
        | ⟨0, _⟩ => rfl
        | ⟨1, _⟩ => rfl
      · refine (broadcastInDim_apply _ _ _ (ix2 i (0 : Fin 1)) (ix1 i) fun a => ?_).trans (batchOff_apply i)
        match a with
        | ⟨0, _⟩ => rfl

/-- A list of non-negative index words passes the wrap-around step unchanged. -/
theorem wrapIdx_apply (v : IVec S532480 32) (e : Fin 532480) (h : 0 ≤ (v (ix1 e)).toInt) :
    wrapIdx v (ix2 e (0 : Fin 1)) = v (ix1 e) := by
  unfold wrapIdx
  dsimp only
  refine (broadcastInDim_apply _ _ _ (ix2 e (0 : Fin 1)) (ix1 e) fun a => ?_).trans ?_
  · match a with
    | ⟨0, _⟩ => rfl
  · show Scalar.select (IntOp.cmpi .slt (v (ix1 e)) 0#32) _ (v (ix1 e)) = v (ix1 e)
    have hz : IntOp.cmpi .slt (v (ix1 e)) 0#32 = 0#1 := by
      unfold IntOp.cmpi
      have : (v (ix1 e)).slt 0#32 = false := by
        rw [BitVec.slt]
        simp only [BitVec.toInt_zero, decide_eq_false_iff_not, not_lt]
        exact h
      rw [this]; rfl
    rw [hz]
    exact select_zero _ _

/-- When an index word's signed value is a natural number, so is the wrapped index's. -/
theorem wrapIdx_toInt (v : IVec S532480 32) (e : Fin 532480) (n : Nat) (h : (v (ix1 e)).toInt = (n : Int)) :
    (wrapIdx v (ix2 e (0 : Fin 1))).toInt = (n : Int) := by
  rw [wrapIdx_apply v e (by rw [h]; exact Int.natCast_nonneg _), h]

/-- The second end point of slot k of batch i: the slot's column plus 64 · i. -/
theorem dst_slot (g : IVec S64x64 32) (i : Fin 128) (k : Fin 4096) :
    dst g (ix1 (eE i k)) = nzCol g (ix1 k) + BitVec.ofNat 32 i.val * 64#32 := by
  unfold dst
  exact (cat_fst _ _ ⟨4096 * i.val + k.val, by omega⟩).trans (spread_apply _ i k)

/-- The first end point of slot k of batch i: the slot's row plus 64 · i. -/
theorem src_slot (g : IVec S64x64 32) (i : Fin 128) (k : Fin 4096) :
    src g (ix1 (eE i k)) = nzRow g (ix1 k) + BitVec.ofNat 32 i.val * 64#32 := by
  unfold src
  exact (cat_fst _ _ ⟨4096 * i.val + k.val, by omega⟩).trans (spread_apply _ i k)

/-- Both end points of the self loop of node j are j. -/
theorem dst_loop (g : IVec S64x64 32) (j : Fin 8192) : dst g (ix1 (eL j)) = BitVec.ofNat 32 j.val := by
  unfold dst
  exact cat_snd _ _ j
theorem src_loop (g : IVec S64x64 32) (j : Fin 8192) : src g (ix1 (eL j)) = BitVec.ofNat 32 j.val := by
  unfold src
  exact cat_snd _ _ j

/-- The index handed to the scatters for slot k of batch i, read signed: column plus 64 · i. -/
theorem dstInt_slot (g : IVec S64x64 32) (hcol : ∀ k : Fin 4096, (nzCol g (ix1 k)).toNat < 64) (i : Fin 128) (k : Fin 4096) :
    (wrapIdx (dst g) (ix2 (eE i k) (0 : Fin 1))).toInt = (((nzCol g (ix1 k)).toNat + 64 * i.val : Nat) : Int) :=
  wrapIdx_toInt _ _ _ (by rw [dst_slot]; exact toInt_add_off _ _ (hcol k) i.isLt)

/-- The index handed to the gathers for slot k of batch i, read signed: row plus 64 · i. -/
theorem srcInt_slot (g : IVec S64x64 32) (hrow : ∀ k : Fin 4096, (nzRow g (ix1 k)).toNat < 64) (i : Fin 128) (k : Fin 4096) :
    (wrapIdx (src g) (ix2 (eE i k) (0 : Fin 1))).toInt = (((nzRow g (ix1 k)).toNat + 64 * i.val : Nat) : Int) :=
  wrapIdx_toInt _ _ _ (by rw [src_slot]; exact toInt_add_off _ _ (hrow k) i.isLt)

/-- The indices of the self loop of node j, read signed: j. -/
theorem dstInt_loop (g : IVec S64x64 32) (j : Fin 8192) :
    (wrapIdx (dst g) (ix2 (eL j) (0 : Fin 1))).toInt = ((j.val : Nat) : Int) :=
  wrapIdx_toInt _ _ _ (by rw [dst_loop]; exact toInt_ofNat_small _ j.isLt)
theorem srcInt_loop (g : IVec S64x64 32) (j : Fin 8192) :
    (wrapIdx (src g) (ix2 (eL j) (0 : Fin 1))).toInt = ((j.val : Nat) : Int) :=
  wrapIdx_toInt _ _ _ (by rw [src_loop]; exact toInt_ofNat_small _ j.isLt)

/-! ### The weights -/

/-- The valid bit of slot k of batch i is slot k's. -/
theorem validAll_apply (g : IVec S64x64 32) (i : Fin 128) (k : Fin 4096) :
    validAll g (ix1 (⟨4096 * i.val + k.val, by omega⟩ : Fin 524288)) = nzValid g (ix1 k) := by
  unfold validAll
  dsimp only
  refine (shapeCast_apply _ _ _ (ix2 i k) ?_).trans ?_
  · rw [Shape.rowMajor_val_two, Shape.rowMajor_val_one]
    show i.val * 4096 + k.val = 4096 * i.val + k.val
    omega
  · refine (broadcastInDim_apply _ _ _ (ix2 i k) (ix2 (0 : Fin 1) k) fun a => ?_).trans ?_
    · match a with
      | ⟨0, _⟩ => rfl
      | ⟨1, _⟩ => rfl
    · refine broadcastInDim_apply _ _ _ (ix2 (0 : Fin 1) k) (ix1 k) fun a => ?_
      match a with
      | ⟨0, _⟩ => rfl

/-- Slot k is valid exactly when k is below the number of nonzero entries. -/
theorem nzValid_apply (g : IVec S64x64 32) (n : Nat) (hn : n ≤ 4096)
    (hcount : nzCount g = fun _ => BitVec.ofNat 32 n) (k : Fin 4096) :
    nzValid g (ix1 k) = if k.val < n then 1#1 else 0#1 := by
  unfold nzValid
  dsimp only
  rw [hcount]
  show IntOp.cmpi .slt (BitVec.ofNat 32 k.val) (BitVec.ofNat 32 n) = _
  unfold IntOp.cmpi
  have hk := k.isLt
  have : (BitVec.ofNat 32 k.val).slt (BitVec.ofNat 32 n) = decide (k.val < n) := by
    rw [BitVec.slt, toInt_ofNat_small _ (by omega), toInt_ofNat_small _ (by omega)]
    simp
  rw [this]
  by_cases h : k.val < n
  · rw [if_pos h, decide_eq_true h]; rfl
  · rw [if_neg h, decide_eq_false h]; rfl

/-- The weight of slot k of batch i: one when the slot is valid, zero when it is not. -/
theorem wgt_slot (g : IVec S64x64 32) (n : Nat) (hn : n ≤ 4096)
    (hcount : nzCount g = fun _ => BitVec.ofNat 32 n) (i : Fin 128) (k : Fin 4096) :
    wgt g (ix1 (eE i k)) = if k.val < n then 1 else 0 := by
  unfold wgt
  dsimp only
  refine (cat_fst _ _ ⟨4096 * i.val + k.val, by omega⟩).trans ?_
  show (((validAll g (ix1 (⟨4096 * i.val + k.val, by omega⟩ : Fin 524288))).toNat : ℝ) : EReal) = _
  rw [validAll_apply, nzValid_apply g n hn hcount k]
  by_cases h : k.val < n
  · rw [if_pos h, if_pos h]; simp
  · rw [if_neg h, if_neg h]; simp

/-- The weight of a self loop is one. -/
theorem wgt_loop (g : IVec S64x64 32) (j : Fin 8192) : wgt g (ix1 (eL j)) = 1 := by
  unfold wgt
  dsimp only
  refine (cat_snd _ _ j).trans ?_
  show Ideal.ofBits .f32 0x3F800000#32 = 1
  exact Ideal.ofBits_one_f32

end Cert.Gcn.Ref

end
-- ==== Proof.LibScatter.lean ====
/-
  The accumulating scatter (for every e, add update e to the operand at the index the e-th index word names) read
  at an index, for a flat operand [N] and for an operand of rows
  [N, C], the scatter indices a column [E, 1] of signed words.

  The scatter's definition gives update element e the result index "start + window coordinate", the start read SIGNED off the
  index column and NOT clamped; an update whose result index leaves the operand is dropped. With one scattered
  axis that is inserted (no window on it), update e of a flat operand lands on element i exactly when the e-th
  index word, read as an integer, IS i; and update (e, f) of a row operand lands on (i, f') exactly when the
  word is i and f = f'. So each element of the result is the operand's element plus the sum, over ALL e, of the
  update when the e-th word is i and of zero otherwise: a sum over the whole list with an indicator, which is the
  form in which sums over edge lists are re-indexed.
-/
import Idealize.ShloMosaic.PureOps.Ideal
import Idealize.ShloMosaic.Lib.ValueIdx

noncomputable section

open scoped BigOperators
open Idealize.ShloMosaic Idealize.ShloMosaic.ValueIdx

namespace Cert.Gcn.Lib

/-! ## A flat operand -/

/-- The dimension numbers of the accumulating scatter for a flat operand [N], indices [E, 1] and updates [E]: the
    operand's one axis is the scattered one and carries no window. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The start of update e's window on the operand's axis is the e-th index word read signed, and the window
    coordinate there is zero. -/
theorem scat1_start_window {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (a : Fin 1) :
    (scat1Dims N E wf).start j idx a + ((scat1Dims N E wf).window j a : Int) = (idx (ix2 (j 0) (0 : Fin 1))).toInt := by
  obtain rfl : a = 0 := Subsingleton.elim _ _
  have hw : (scat1Dims N E wf).window j 0 = 0 := by
    unfold ScatterDims.window
    have hn : (0 : Fin 1) ∉ (scat1Dims N E wf).sKept := by
      show (0 : Fin 1) ∉ (List.finRange 1).filter (· ∉ [(0 : Fin 1)])
      decide
    rw [dif_neg hn]
  rw [hw]
  unfold ScatterDims.start
  rw [dif_pos (show (0 : Fin 1) ∈ (scat1Dims N E wf).scatterDimsToOperandDims from List.mem_singleton.mpr rfl)]
  have hsi : (scat1Dims N E wf).siIdx j ⟨List.idxOf (0 : Fin 1) (scat1Dims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- A sum over the indices of a flat shape is the sum over its one coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- Update e lands on element i exactly when the e-th index word, read signed, is i. -/
theorem scat1_resultIdx?_eq_some {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : Fin N) :
    (scat1Dims N E wf).resultIdx? j idx = some (ix1 i) ↔ (idx (ix2 (j 0) (0 : Fin 1))).toInt = (i.val : Int) := by
  unfold ScatterDims.resultIdx?
  split
  · next h =>
    rw [Option.some.injEq]
    constructor
    · intro he
      have h0 := congrArg Fin.val (congrFun he 0)
      have hb := (h 0).1
      rw [scat1_start_window] at hb
      have h1 : ((scat1Dims N E wf).start j idx 0 + ((scat1Dims N E wf).window j 0 : Int)).toNat = i.val := h0
      rw [scat1_start_window] at h1
      omega
    · intro he
      funext a
      obtain rfl : a = 0 := Subsingleton.elim _ _
      refine Fin.ext ?_
      show ((scat1Dims N E wf).start j idx 0 + ((scat1Dims N E wf).window j 0 : Int)).toNat = i.val
      rw [scat1_start_window, he]
      exact Int.toNat_natCast _
  · next h =>
    constructor
    · intro he; cases he
    · intro he
      refine absurd (fun a => ?_) h
      rw [scat1_start_window, he]
      obtain rfl : a = 0 := Subsingleton.elim _ _
      refine ⟨Int.natCast_nonneg _, ?_⟩
      show (i.val : Int) < ((N : Nat) : Int)
      exact_mod_cast i.isLt

/-- THE FLAT SCATTER-ADD READ AT i: the operand's element plus, over every update e, the update when the e-th index
    word read signed is i. -/
theorem hostScatterAdd_scat1_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (scat1Dims N E wf) x idx upd (ix1 i) =
      x (ix1 i) + ∑ e : Fin E, if (idx (ix2 e (0 : Fin 1))).toInt = (i.val : Int) then upd (ix1 e) else 0 := by
  unfold Ideal.hostScatterAdd
  refine congrArg (x (ix1 i) + ·) ?_
  rw [Finset.sum_filter, sum_idx1]
  refine Finset.sum_congr rfl fun e _ => ?_
  exact if_congr (scat1_resultIdx?_eq_some wf idx (ix1 e) i) rfl rfl

/-! ## An operand of rows -/

/-- The dimension numbers of the accumulating scatter for an operand of rows [N, C], indices [E, 1] and updates [E, C]:
    axis 0 is the scattered one and carries no window, the update's axis 1 is the window along the row. -/
abbrev scat2Dims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update (e, f) starts at the e-th index word read signed and has coordinate zero. -/
theorem scat2_start_window_row {N C E w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (scat2Dims N C E wf).start j idx 0 + ((scat2Dims N C E wf).window j 0 : Int) = (idx (ix2 (j 0) (0 : Fin 1))).toInt := by
  have hw : (scat2Dims N C E wf).window j 0 = 0 := by
    unfold ScatterDims.window
    have hn : (0 : Fin 2) ∉ (scat2Dims N C E wf).sKept := by
      show (0 : Fin 2) ∉ (List.finRange 2).filter (· ∉ [(0 : Fin 2)])
      decide
    rw [dif_neg hn]
  rw [hw]
  unfold ScatterDims.start
  rw [dif_pos (show (0 : Fin 2) ∈ (scat2Dims N C E wf).scatterDimsToOperandDims from List.mem_singleton.mpr rfl)]
  have hsi : (scat2Dims N C E wf).siIdx j ⟨List.idxOf (0 : Fin 2) (scat2Dims N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- Along the row the window starts at zero and its coordinate is the update's column. -/
theorem scat2_start_window_col {N C E w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (scat2Dims N C E wf).start j idx 1 + ((scat2Dims N C E wf).window j 1 : Int) = ((j 1).val : Int) := by
  have hs : (scat2Dims N C E wf).start j idx 1 = 0 := by
    unfold ScatterDims.start
    have hn : (1 : Fin 2) ∉ (scat2Dims N C E wf).scatterDimsToOperandDims := by
      show (1 : Fin 2) ∉ [(0 : Fin 2)]
      decide
    rw [dif_neg hn]
  have hw : (scat2Dims N C E wf).window j 1 = (j 1).val := by
    unfold ScatterDims.window
    have hm : (1 : Fin 2) ∈ (scat2Dims N C E wf).sKept := by
      show (1 : Fin 2) ∈ (List.finRange 2).filter (· ∉ [(0 : Fin 2)])
      decide
    rw [dif_pos hm]
    rfl
  rw [hs, hw, Int.zero_add]

/-- Update (e, f) lands on element (i, f') exactly when the e-th index word, read signed, is i and f = f'. -/
theorem scat2_resultIdx?_eq_some {N C E w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (f : Fin C) :
    (scat2Dims N C E wf).resultIdx? j idx = some (ix2 i f) ↔
      (idx (ix2 (j 0) (0 : Fin 1))).toInt = (i.val : Int) ∧ (j 1).val = f.val := by
  unfold ScatterDims.resultIdx?
  split
  · next h =>
    rw [Option.some.injEq]
    constructor
    · intro he
      have h0 : ((scat2Dims N C E wf).start j idx 0 + ((scat2Dims N C E wf).window j 0 : Int)).toNat = i.val :=
        congrArg Fin.val (congrFun he 0)
      have h1 : ((scat2Dims N C E wf).start j idx 1 + ((scat2Dims N C E wf).window j 1 : Int)).toNat = f.val :=
        congrArg Fin.val (congrFun he 1)
      have hb := (h 0).1
      rw [scat2_start_window_row] at hb h0
      rw [scat2_start_window_col] at h1
      exact ⟨by omega, by omega⟩
    · intro he
      funext a
      refine Fin.ext ?_
      match a with
      | ⟨0, _⟩ =>
        show ((scat2Dims N C E wf).start j idx 0 + ((scat2Dims N C E wf).window j 0 : Int)).toNat = i.val
        rw [scat2_start_window_row, he.1]
        exact Int.toNat_natCast _
      | ⟨1, _⟩ =>
        show ((scat2Dims N C E wf).start j idx 1 + ((scat2Dims N C E wf).window j 1 : Int)).toNat = f.val
        rw [scat2_start_window_col, he.2]
        exact Int.toNat_natCast _
  · next h =>
    constructor
    · intro he; cases he
    · intro he
      refine absurd (fun a => ?_) h
      match a with
      | ⟨0, _⟩ =>
        show 0 ≤ (scat2Dims N C E wf).start j idx 0 + ((scat2Dims N C E wf).window j 0 : Int) ∧
          (scat2Dims N C E wf).start j idx 0 + ((scat2Dims N C E wf).window j 0 : Int) < ((N : Nat) : Int)
        rw [scat2_start_window_row, he.1]
        exact ⟨Int.natCast_nonneg _, by exact_mod_cast i.isLt⟩
      | ⟨1, _⟩ =>
        show 0 ≤ (scat2Dims N C E wf).start j idx 1 + ((scat2Dims N C E wf).window j 1 : Int) ∧
          (scat2Dims N C E wf).start j idx 1 + ((scat2Dims N C E wf).window j 1 : Int) < ((C : Nat) : Int)
        rw [scat2_start_window_col]
        exact ⟨Int.natCast_nonneg _, by exact_mod_cast (j 1).isLt⟩

/-- THE ROW SCATTER-ADD READ AT (i, f): the operand's element plus, over every update row e, the row's element in
    column f when the e-th index word read signed is i. -/
theorem hostScatterAdd_scat2_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (f : Fin C) :
    Ideal.hostScatterAdd (scat2Dims N C E wf) x idx upd (ix2 i f) =
      x (ix2 i f) + ∑ e : Fin E, if (idx (ix2 e (0 : Fin 1))).toInt = (i.val : Int) then upd (ix2 e f) else 0 := by
  unfold Ideal.hostScatterAdd
  refine congrArg (x (ix2 i f) + ·) ?_
  rw [Finset.sum_filter, sum_idx2]
  refine Finset.sum_congr rfl fun e _ => ?_
  have hc : ∀ f' : Fin C, (if (scat2Dims N C E wf).resultIdx? (ix2 e f') idx = some (ix2 i f) then upd (ix2 e f') else 0) =
      if f' = f then (if (idx (ix2 e (0 : Fin 1))).toInt = (i.val : Int) then upd (ix2 e f) else 0) else 0 := by
    intro f'
    rw [if_congr (scat2_resultIdx?_eq_some wf idx (ix2 e f') i f) rfl rfl]
    by_cases hf : f' = f
    · subst hf
      rw [if_pos rfl]
      exact if_congr (and_iff_left rfl) rfl rfl
    · rw [if_neg hf, if_neg (fun h => hf (Fin.ext h.2))]
  rw [Finset.sum_congr rfl fun f' _ => hc f', Finset.sum_ite_eq' Finset.univ f, if_pos (Finset.mem_univ f)]

end Cert.Gcn.Lib

end
-- ==== Proof.EdgeDeg.lean ====
/-
  The degree vector at node 64 · i + c. The scatter adds every entry's weight at its second end point. Of the batches'
  slots only batch i's with column c land on the node, each with weight one when valid and zero when not; listing the
  valid slots lists the nonzero entries of the graph, so they add up to the number of nonzero entries in column c. Of
  the self loops exactly the node's own lands on it, with weight one. The total is the column's degree, self loop counted.
-/
import proofs.«172550_g12077448036551_cont_sun_c4_50_16_alg».proof.Proof.EdgeIdx
import proofs.«172550_g12077448036551_cont_sun_c4_50_16_alg».proof.Proof.LibScatter
import proofs.«172550_g12077448036551_cont_sun_c4_50_16_alg».proof.Proof.Spec

noncomputable section

namespace Cert.Gcn.Ref

open Idealize.ShloMosaic Idealize.ShloMosaic.ValueIdx Cert.ReferenceIdeal Cert.ReferenceIdeal.Facts₀ Cert.Gcn.Edge
open scoped BigOperators

variable [Cert.ReferenceIdeal.Facts]

/-- The program's flat scatter-add is the library's exact sum at the flat accumulating scatter's dimension numbers. -/
theorem scatterAdd_flat_eq (x : FVec Ideal S8192 .f32) (idx : IVec S532480x1 32) (upd : FVec Ideal S532480 .f32) :
    Host.scatterAdd scatter_S8192_S532480x1_S532480_n_0_0_1 x idx upd =
      Ideal.hostScatterAdd (Cert.Gcn.Lib.scat1Dims 8192 532480 scatter_S8192_S532480x1_S532480_n_0_0_1_wf) x idx upd := rfl

/-- The degree vector at node 64 · i + c is the degree of column c (one per nonzero entry, plus the self loop), given
    the enumeration of the graph's nonzero entries by the valid slots. -/
theorem degv_node_of (g : IVec S64x64 32) (n : Nat) (hn : n ≤ 4096)
    (hcount : nzCount g = fun _ => BitVec.ofNat 32 n)
    (hrow : ∀ k : Fin 4096, (nzRow g (ix1 k)).toNat < 64) (hcol : ∀ k : Fin 4096, (nzCol g (ix1 k)).toNat < 64)
    (hsum : ∀ h : Fin 64 → Fin 64 → EReal,
      (∑ k : Fin 4096, if k.val < n then h ⟨(nzRow g (ix1 k)).toNat, hrow k⟩ ⟨(nzCol g (ix1 k)).toNat, hcol k⟩ else 0)
        = ∑ r : Fin 64, ∑ c : Fin 64, if g (ix2 r c) ≠ 0#32 then h r c else 0)
    (i : Fin 128) (c : Fin 64) :
    degv g (ix1 (node i c)) = Cert.Gcn.deg (Cert.Gcn.wR g) c := by
  unfold degv
  dsimp only
  rw [scatterAdd_flat_eq, Cert.Gcn.Lib.hostScatterAdd_scat1_apply]
  show Ideal.ofBits .f32 0x00000000#32 + _ = _
  rw [Ideal.ofBits_zero_f32, zero_add, sum_edges]
  simp only [dstInt_slot g hcol, dstInt_loop g, wgt_slot g n hn hcount, wgt_loop g]
  have hs := sum_slots_dest (M := EReal) (fun k => (nzCol g (ix1 k)).toNat) hcol i c (fun _ k => if k.val < n then (1 : EReal) else 0)
  have hl := sum_loops_dest (M := EReal) i c (fun _ => (1 : EReal))
  rw [hs, hl]
  unfold Cert.Gcn.deg
  refine congrArg (· + (1 : EReal)) ?_
  have h1 := hsum (fun _ c' => if c' = c then (1 : EReal) else 0)
  have h2 : (∑ k : Fin 4096, if (nzCol g (ix1 k)).toNat = c.val then (if k.val < n then (1 : EReal) else 0) else 0)
      = ∑ k : Fin 4096, if k.val < n then
          (if (⟨(nzCol g (ix1 k)).toNat, hcol k⟩ : Fin 64) = c then (1 : EReal) else 0) else 0 := by
    refine Finset.sum_congr rfl fun k _ => ?_
    by_cases hk : k.val < n <;> by_cases hc : (nzCol g (ix1 k)).toNat = c.val <;>
      simp [hk, hc, Fin.ext_iff]
  rw [h2, h1]
  refine Finset.sum_congr rfl fun r _ => ?_
  have h3 : ∀ c' : Fin 64, (if g (ix2 r c') ≠ 0#32 then (if c' = c then (1 : EReal) else 0) else 0)
      = if c' = c then Cert.Gcn.wR g r c else 0 := by
    intro c'
    unfold Cert.Gcn.wR
    by_cases hc : c' = c
    · subst hc; by_cases hg : g (ix2 r c') = 0#32 <;> simp [hg]
    · simp [hc]
  rw [Finset.sum_congr rfl fun c' _ => h3 c', Finset.sum_ite_eq' Finset.univ c, if_pos (Finset.mem_univ c)]

end Cert.Gcn.Ref

end
-- ==== Proof.LibScatterGather.lean ====
/-
  A gather `x[idx]` of a flat operand [N], and of the rows of an operand [N, C], at a column [E, 1] of signed index
  words, read at an index: result element e (or (e, f)) is the operand at the e-th word read as a signed integer and
  clamped into [0, N - 1] (a gather's start is clamped so that the slice, here one element or one row, fits).
-/
import Idealize.ShloMosaic.PureOps.Ideal
import Idealize.ShloMosaic.Lib.ValueIdx

noncomputable section

open scoped BigOperators
open Idealize.ShloMosaic Idealize.ShloMosaic.ValueIdx

namespace Cert.Gcn.Lib

variable {α : Type}

/-! ## A flat operand -/

/-- The dimension numbers of `x[idx]` for a flat operand [N], start indices [E, 1] and result [E]: the operand's one
    axis is indexed and collapsed. -/
abbrev gath1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT e: the operand at the e-th index word, read signed and clamped into [0, N - 1]. -/
theorem gather_gath1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gath1Dims N E wf) x idx (ix1 e) =
      x (ix1 ⟨min (idx (ix2 e (0 : Fin 1))).toInt.toNat (N - 1), by omega⟩) := by
  unfold Host.gather
  congr 1
  funext a
  obtain rfl : a = 0 := Subsingleton.elim _ _
  refine Fin.ext ?_
  show (gath1Dims N E wf).start (ix1 e) idx 0 + (gath1Dims N E wf).batchCoord (ix1 e) 0 + (gath1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1Dims N E wf).startIndexMap from List.mem_singleton.mpr rfl)]
  have hsi : (gath1Dims N E wf).siIdx (ix1 e) ⟨List.idxOf (0 : Fin 1) (gath1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## An operand of rows -/

/-- The dimension numbers of `x[idx]` for an operand of rows [N, C], start indices [E, 1] and result [E, C]: axis 0 is
    indexed and collapsed, the whole row is the slice. -/
abbrev gath2Dims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, f): column f of the operand's row at the e-th index word, read signed and clamped into
    [0, N - 1]. -/
theorem gather_gath2_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (gath2Dims N C E wf) x idx (ix2 e f) =
      x (ix2 ⟨min (idx (ix2 e (0 : Fin 1))).toInt.toNat (N - 1), by omega⟩ f) := by
  unfold Host.gather
  congr 1
  funext a
  refine Fin.ext ?_
  match a with
  | ⟨0, _⟩ =>
    show (gath2Dims N C E wf).start (ix2 e f) idx 0 + (gath2Dims N C E wf).batchCoord (ix2 e f) 0 +
      (gath2Dims N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2Dims N C E wf).startIndexMap from List.mem_singleton.mpr rfl)]
    have hsi : (gath2Dims N C E wf).siIdx (ix2 e f) ⟨List.idxOf (0 : Fin 2) (gath2Dims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2Dims N C E wf).start (ix2 e f) idx 1 + (gath2Dims N C E wf).batchCoord (ix2 e f) 1 +
      (gath2Dims N C E wf).offCoord (ix2 e f) 1 = f.val
    rw [GatherDims.batchCoord_eq_zero _ _ _ List.not_mem_nil]
    have hs : (gath2Dims N C E wf).start (ix2 e f) idx 1 = 0 := by
      unfold GatherDims.start
      have hn : (1 : Fin 2) ∉ (gath2Dims N C E wf).startIndexMap := by
        show (1 : Fin 2) ∉ [(0 : Fin 2)]
        decide
      rw [dif_neg hn]
    have ho : (gath2Dims N C E wf).offCoord (ix2 e f) 1 = f.val := by
      unfold GatherDims.offCoord
      have hm : (1 : Fin 2) ∈ (gath2Dims N C E wf).sKept := by
        show (1 : Fin 2) ∈ (List.finRange 2).filter (· ∉ ([(0 : Fin 2)] ++ []))
        decide
      rw [dif_pos hm]
      rfl
    rw [hs, ho]; omega

end Cert.Gcn.Lib

end
-- ==== Proof.EdgeMsg.lean ====
/-
  The edge messages read entry by entry. A gather at an index word whose signed value is a node number below 8192 reads
  that node. The message of entry e in feature f is the first end point's row of x·W times (the product of the two end
  points' normalizations times the entry's weight).
-/
import proofs.«172550_g12077448036551_cont_sun_c4_50_16_alg».proof.Proof.EdgeIdx
import proofs.«172550_g12077448036551_cont_sun_c4_50_16_alg».proof.Proof.LibScatter
import proofs.«172550_g12077448036551_cont_sun_c4_50_16_alg».proof.Proof.LibScatterGather

noncomputable section

namespace Cert.Gcn.Ref

open Idealize.ShloMosaic Idealize.ShloMosaic.ValueIdx Cert.ReferenceIdeal Cert.ReferenceIdeal.Facts₀ Cert.Gcn.Edge
open scoped BigOperators

variable [Cert.ReferenceIdeal.Facts]

/-- The program's row scatter-add is the library's exact sum at the row accumulating scatter's dimension numbers. -/
theorem scatterAdd_rows_eq (x : FVec Ideal S8192x128 .f32) (idx : IVec S532480x1 32) (upd : FVec Ideal S532480x128 .f32) :
    Host.scatterAdd scatter_S8192x128_S532480x1_S532480x128_1_0_0_1 x idx upd =
      Ideal.hostScatterAdd (Cert.Gcn.Lib.scat2Dims 8192 128 532480 scatter_S8192x128_S532480x1_S532480x128_1_0_0_1_wf) x idx upd := rfl

/-- A flat gather at an index word whose signed value is node s reads node s. -/
theorem gather_flat_at (x : FVec Ideal S8192 .f32) (idx : IVec S532480x1 32) (e : Fin 532480) (s : Fin 8192)
    (h : (idx (ix2 e (0 : Fin 1))).toInt = ((s.val : Nat) : Int)) :
    Host.gather gather_S8192_S532480x1_S532480_n_0_n_n_0_1_1 x idx (ix1 e) = x (ix1 s) := by
  refine (Cert.Gcn.Lib.gather_gath1_apply (N := 8192) (E := 532480) (by omega)
    gather_S8192_S532480x1_S532480_n_0_n_n_0_1_1_wf x idx e).trans ?_
  refine congrArg x (congrArg ix1 (Fin.ext ?_))
  show min (idx (ix2 e (0 : Fin 1))).toInt.toNat (8192 - 1) = s.val
  rw [h, Int.toNat_natCast]
  have := s.isLt
  omega

/-- A row gather at an index word whose signed value is node s reads row s. -/
theorem gather_rows_at (x : FVec Ideal S8192x128 .f32) (idx : IVec S532480x1 32) (e : Fin 532480) (s : Fin 8192) (f : Fin 128)
    (h : (idx (ix2 e (0 : Fin 1))).toInt = ((s.val : Nat) : Int)) :
    Host.gather gather_S8192x128_S532480x1_S532480x128_1_0_n_n_0_1_1128 x idx (ix2 e f) = x (ix2 s f) := by
  refine (Cert.Gcn.Lib.gather_gath2_apply (N := 8192) (C := 128) (E := 532480) (by omega)
    gather_S8192x128_S532480x1_S532480x128_1_0_n_n_0_1_1128_wf x idx e f).trans ?_
  refine congrArg x (congrArg (fun t => ix2 t f) (Fin.ext ?_))
  show min (idx (ix2 e (0 : Fin 1))).toInt.toNat (8192 - 1) = s.val
  rw [h, Int.toNat_natCast]
  have := s.isLt
  omega

/-- The coefficient of entry e: the normalization gathered at its first end point times that at its second. -/
theorem coef_apply (g : IVec S64x64 32) (e : Fin 532480) :
    coef g (ix1 e) = Host.gather gather_S8192_S532480x1_S532480_n_0_n_n_0_1_1 (dis g) (wrapIdx (src g)) (ix1 e) *
      Host.gather gather_S8192_S532480x1_S532480_n_0_n_n_0_1_1 (dis g) (wrapIdx (dst g)) (ix1 e) := by
  unfold coef
  exact mulf_apply _ _ _

/-- The message of entry e in feature f. -/
theorem msg_apply (x : FVec Ideal S128x64x128 .f32) (g : IVec S64x64 32) (W : FVec Ideal S128x128 .f32)
    (e : Fin 532480) (f : Fin 128) :
    msg x g W (ix2 e f) =
      Host.gather gather_S8192x128_S532480x1_S532480x128_1_0_n_n_0_1_1128 (xwv x W) (wrapIdx (src g)) (ix2 e f) *
        (coef g (ix1 e) * wgt g (ix1 e)) := by
  unfold msg
  refine (mulf_apply _ _ _).trans ?_
  refine congrArg (Host.gather gather_S8192x128_S532480x1_S532480x128_1_0_n_n_0_1_1128 (xwv x W) (wrapIdx (src g)) (ix2 e f) * ·) ?_
  refine (broadcastInDim_apply _ _ _ (ix2 e f) (ix2 e (0 : Fin 1)) fun a => ?_).trans ?_
  · match a with
    | ⟨0, _⟩ => rfl
    | ⟨1, _⟩ => rfl
  · refine (broadcastInDim_apply _ _ _ (ix2 e (0 : Fin 1)) (ix1 e) fun a => ?_).trans (mulf_apply _ _ _)
    match a with
    | ⟨0, _⟩ => rfl

end Cert.Gcn.Ref

end
-- ==== Proof.EdgeAgg.lean ====
/-
  The aggregated messages at node 64 · i + c, feature f. The scatter adds every entry's message at its second end point.
  Of the batches' slots only batch i's with column c land on the node; a valid one carries the row's x·W times the two
  normalizations, an invalid one a product with weight zero, which is zero. Listing the valid slots lists the nonzero
  entries of the graph, so the slots add up to the sum over rows r of x·W at r times the normalizations times the weight
  of the edge r → c. Of the self loops exactly the node's own lands on it. No cancellation or distribution is used:
  only that a product with a zero factor is zero.
-/
import proofs.«172550_g12077448036551_cont_sun_c4_50_16_alg».proof.Proof.EdgeMsg
import proofs.«172550_g12077448036551_cont_sun_c4_50_16_alg».proof.Proof.Spec

noncomputable section

namespace Cert.Gcn.Ref

open Idealize.ShloMosaic Idealize.ShloMosaic.ValueIdx Cert.ReferenceIdeal Cert.ReferenceIdeal.Facts₀ Cert.Gcn.Edge
open scoped BigOperators

variable [Cert.ReferenceIdeal.Facts]

/-- The message of slot k of batch i', given the normalization and x·W at every node. -/
theorem msg_slot (x : FVec Ideal S128x64x128 .f32) (g : IVec S64x64 32) (W : FVec Ideal S128x128 .f32)
    (n : Nat) (hn : n ≤ 4096) (hcount : nzCount g = fun _ => BitVec.ofNat 32 n)
    (hrow : ∀ k : Fin 4096, (nzRow g (ix1 k)).toNat < 64) (hcol : ∀ k : Fin 4096, (nzCol g (ix1 k)).toNat < 64)
    (hdis : ∀ (i' : Fin 128) (c' : Fin 64), dis g (ix1 (node i' c')) = Cert.Gcn.dinv (Cert.Gcn.wR g) c')
    (hxw : ∀ (i' : Fin 128) (r : Fin 64) (f' : Fin 128), xwv x W (ix2 (node i' r) f') = Cert.Gcn.xw x W i' r f')
    (i' : Fin 128) (k : Fin 4096) (f : Fin 128) :
    msg x g W (ix2 (eE i' k) f) =
      Cert.Gcn.xw x W i' ⟨(nzRow g (ix1 k)).toNat, hrow k⟩ f *
        ((Cert.Gcn.dinv (Cert.Gcn.wR g) ⟨(nzRow g (ix1 k)).toNat, hrow k⟩ *
            Cert.Gcn.dinv (Cert.Gcn.wR g) ⟨(nzCol g (ix1 k)).toNat, hcol k⟩) *
          (if k.val < n then 1 else 0)) := by
  have hs : (wrapIdx (src g) (ix2 (eE i' k) (0 : Fin 1))).toInt =
      (((node i' ⟨(nzRow g (ix1 k)).toNat, hrow k⟩).val : Nat) : Int) :=
    (srcInt_slot g hrow i' k).trans (congrArg Nat.cast (Nat.add_comm _ _))
  have hd : (wrapIdx (dst g) (ix2 (eE i' k) (0 : Fin 1))).toInt =
      (((node i' ⟨(nzCol g (ix1 k)).toNat, hcol k⟩).val : Nat) : Int) :=
    (dstInt_slot g hcol i' k).trans (congrArg Nat.cast (Nat.add_comm _ _))
  rw [msg_apply, coef_apply, gather_rows_at _ _ _ _ f hs, gather_flat_at _ _ _ _ hs, gather_flat_at _ _ _ _ hd,
    hxw, hdis, hdis, wgt_slot g n hn hcount]

/-- The message of the self loop of node j. -/
theorem msg_loop (x : FVec Ideal S128x64x128 .f32) (g : IVec S64x64 32) (W : FVec Ideal S128x128 .f32)
    (j : Fin 8192) (f : Fin 128) :
    msg x g W (ix2 (eL j) f) = xwv x W (ix2 j f) * ((dis g (ix1 j) * dis g (ix1 j)) * 1) := by
  rw [msg_apply, coef_apply, gather_rows_at _ _ _ j f (srcInt_loop g j), gather_flat_at _ _ _ j (srcInt_loop g j),
    gather_flat_at _ _ _ j (dstInt_loop g j), wgt_loop]

/-- The aggregated messages at node 64 · i + c, feature f, are the specification's sum over the edges into c plus the
    self loop's term, given the enumeration of the graph's nonzero entries by the valid slots and the normalization and
    x·W at every node. -/
theorem aggv_node_of (x : FVec Ideal S128x64x128 .f32) (g : IVec S64x64 32) (W : FVec Ideal S128x128 .f32)
    (n : Nat) (hn : n ≤ 4096) (hcount : nzCount g = fun _ => BitVec.ofNat 32 n)
    (hrow : ∀ k : Fin 4096, (nzRow g (ix1 k)).toNat < 64) (hcol : ∀ k : Fin 4096, (nzCol g (ix1 k)).toNat < 64)
    (hsum : ∀ h : Fin 64 → Fin 64 → EReal,
      (∑ k : Fin 4096, if k.val < n then h ⟨(nzRow g (ix1 k)).toNat, hrow k⟩ ⟨(nzCol g (ix1 k)).toNat, hcol k⟩ else 0)
        = ∑ r : Fin 64, ∑ c : Fin 64, if g (ix2 r c) ≠ 0#32 then h r c else 0)
    (hdis : ∀ (i' : Fin 128) (c' : Fin 64), dis g (ix1 (node i' c')) = Cert.Gcn.dinv (Cert.Gcn.wR g) c')
    (hxw : ∀ (i' : Fin 128) (r : Fin 64) (f' : Fin 128), xwv x W (ix2 (node i' r) f') = Cert.Gcn.xw x W i' r f')
    (i : Fin 128) (c : Fin 64) (f : Fin 128) :
    aggv x g W (ix2 (node i c) f) = Cert.Gcn.aggR (Cert.Gcn.wR g) x W i c f := by
  unfold aggv
  dsimp only
  rw [scatterAdd_rows_eq, Cert.Gcn.Lib.hostScatterAdd_scat2_apply]
  show Ideal.ofBits .f32 0x00000000#32 + _ = _
  rw [Ideal.ofBits_zero_f32, zero_add, sum_edges]
  simp only [dstInt_slot g hcol, dstInt_loop g, msg_slot x g W n hn hcount hrow hcol hdis hxw, msg_loop x g W]
  rw [sum_slots_dest (M := EReal) (fun k => (nzCol g (ix1 k)).toNat) hcol i c
      (fun i' k => Cert.Gcn.xw x W i' ⟨(nzRow g (ix1 k)).toNat, hrow k⟩ f *
        ((Cert.Gcn.dinv (Cert.Gcn.wR g) ⟨(nzRow g (ix1 k)).toNat, hrow k⟩ *
            Cert.Gcn.dinv (Cert.Gcn.wR g) ⟨(nzCol g (ix1 k)).toNat, hcol k⟩) *
          (if k.val < n then 1 else 0))),
    sum_loops_dest (M := EReal) i c (fun j => xwv x W (ix2 j f) * ((dis g (ix1 j) * dis g (ix1 j)) * 1)),
    hxw i c f, hdis i c]
  unfold Cert.Gcn.aggR
  refine congrArg (· + Cert.Gcn.xw x W i c f *
    ((Cert.Gcn.dinv (Cert.Gcn.wR g) c * Cert.Gcn.dinv (Cert.Gcn.wR g) c) * 1)) ?_
  have h1 := hsum (fun r c' => if c' = c then
    Cert.Gcn.xw x W i r f * ((Cert.Gcn.dinv (Cert.Gcn.wR g) r * Cert.Gcn.dinv (Cert.Gcn.wR g) c) * 1) else 0)
  refine Eq.trans (Finset.sum_congr rfl fun k _ => ?_) (h1.trans (Finset.sum_congr rfl fun r _ => ?_))
  · by_cases hk : k.val < n
    · by_cases hc : (nzCol g (ix1 k)).toNat = c.val
      · have hcc : (⟨(nzCol g (ix1 k)).toNat, hcol k⟩ : Fin 64) = c := Fin.ext hc
        rw [if_pos hc, if_pos hk, if_pos hk, if_pos hcc, hcc]
      · have hcc : ¬ (⟨(nzCol g (ix1 k)).toNat, hcol k⟩ : Fin 64) = c := fun h => hc (congrArg Fin.val h)
        rw [if_neg hc, if_pos hk, if_neg hcc]
    · rw [if_neg hk, if_neg hk, mul_zero, mul_zero, ite_self]
  · have h3 : ∀ c' : Fin 64, (if g (ix2 r c') ≠ 0#32 then (if c' = c then
          Cert.Gcn.xw x W i r f * ((Cert.Gcn.dinv (Cert.Gcn.wR g) r * Cert.Gcn.dinv (Cert.Gcn.wR g) c) * 1) else 0) else 0)
        = if c' = c then Cert.Gcn.xw x W i r f *
          ((Cert.Gcn.dinv (Cert.Gcn.wR g) r * Cert.Gcn.dinv (Cert.Gcn.wR g) c) * Cert.Gcn.wR g r c) else 0 := by
      intro c'
      by_cases hc : c' = c
      · subst hc
        rw [if_pos rfl, if_pos rfl]
        unfold Cert.Gcn.wR
        by_cases hg : g (ix2 r c') = 0#32
        · rw [if_neg (not_not.mpr hg), if_pos hg, mul_zero, mul_zero]
        · rw [if_pos hg, if_neg hg]
      · rw [if_neg hc, if_neg hc, ite_self]
    rw [Finset.sum_congr rfl fun c' _ => h3 c', Finset.sum_ite_eq' Finset.univ c, if_pos (Finset.mem_univ c)]

end Cert.Gcn.Ref

end
-- ==== Proof.EdgeOut.lean ====
/-
  The reference's two scatter-adds as dense sums over the graph. At node 64 · i + c of the flattened node axis (batch i,
  node c) the degree vector is the degree of column c, and the aggregated messages are the specification's sum over the
  edges into c plus the self loop's term — once the valid slots are known to enumerate the graph's nonzero entries.
-/
import proofs.«172550_g12077448036551_cont_sun_c4_50_16_alg».proof.Proof.NzEnum
import proofs.«172550_g12077448036551_cont_sun_c4_50_16_alg».proof.Proof.EdgeDeg
import proofs.«172550_g12077448036551_cont_sun_c4_50_16_alg».proof.Proof.EdgeAgg

noncomputable section

namespace Cert.Gcn.Ref

open Idealize.ShloMosaic Idealize.ShloMosaic.ValueIdx Cert.ReferenceIdeal Cert.ReferenceIdeal.Facts₀ Cert.Gcn.Edge
open scoped BigOperators

variable [Cert.ReferenceIdeal.Facts]

/-- The degree vector at batch i, node c: one per nonzero entry of column c, plus one for the self loop. -/
theorem degv_eq (g : IVec S64x64 32) (i : Fin 128) (c : Fin 64) :
    degv g (ix1 ⟨64 * i.val + c.val, by omega⟩) = Cert.Gcn.deg (Cert.Gcn.wR g) c :=
  degv_node_of g (nzN g) (nzN_le g) (nzCount_eq g) (nzRow_lt g) (nzCol_lt g) (fun h => nz_sum g h) i c

/-- The aggregated messages at batch i, node c, feature f: the sum over rows r of x·W at r times the two normalizations
    times the weight of the edge r → c, plus the self loop's term. -/
theorem aggv_eq (x : FVec Ideal S128x64x128 .f32) (g : IVec S64x64 32) (W : FVec Ideal S128x128 .f32)
    (i : Fin 128) (c : Fin 64) (f : Fin 128)
    (hdis : ∀ (i' : Fin 128) (c' : Fin 64),
      dis g (ix1 ⟨64 * i'.val + c'.val, by omega⟩) = Cert.Gcn.dinv (Cert.Gcn.wR g) c')
    (hxw : ∀ (i' : Fin 128) (r : Fin 64) (f' : Fin 128),
      xwv x W (ix2 ⟨64 * i'.val + r.val, by omega⟩ f') = Cert.Gcn.xw x W i' r f') :
    aggv x g W (ix2 ⟨64 * i.val + c.val, by omega⟩ f) = Cert.Gcn.aggR (Cert.Gcn.wR g) x W i c f :=
  aggv_node_of x g W (nzN g) (nzN_le g) (nzCount_eq g) (nzRow_lt g) (nzCol_lt g) (fun h => nz_sum g h)
    (fun i' c' => hdis i' c') (fun i' r f' => hxw i' r f') i c f

end Cert.Gcn.Ref

end
-- ==== Proof.RefOut.lean ====
/-
  The reference's result is the specification's reference arrangement.

  Node c of batch i is row 64·i + c of the flattened arrays. Its accumulated degree is deg c of the nonzero
  indicator (the edge-list collapse), which is at least one, so its normalizing factor is dinv c; the flattened
  linear transform at row 64·i + r is x·W at (i, r); with these two the accumulated messages at (64·i + c, f) are
  the sum of the edges' messages plus the self loop's; and the layer's last steps turn that into the output.
-/
import proofs.«172550_g12077448036551_cont_sun_c4_50_16_alg».proof.Proof.RefTail
import proofs.«172550_g12077448036551_cont_sun_c4_50_16_alg».proof.Proof.EdgeOut

noncomputable section

open Idealize.ShloMosaic Idealize.ShloMosaic.ValueIdx

namespace Cert.Gcn.Ref

open Cert.ReferenceIdeal

variable [Cert.ReferenceIdeal.Facts]

/-- The normalizing factor of node c of batch i is dinv c under the nonzero indicator. -/
theorem dis_node (g : IVec S64x64 32) (i : Fin 128) (c : Fin 64) :
    dis g (ix1 ⟨64 * i.val + c.val, by omega⟩) = Cert.Gcn.dinv (Cert.Gcn.wR g) c := by
  have hd := degv_eq g i c
  rw [dis_apply g _ (by rw [hd]; exact Cert.Gcn.one_le_deg (Cert.Gcn.zeroOne_wR g) c), hd]
  rfl

/-- The reference computes the layer in the edge-by-edge arrangement of the specification. -/
theorem refOut_eq (x : FVec Ideal S128x64x128 .f32) (g : IVec S64x64 32) (W : FVec Ideal S128x128 .f32)
    (b : FVec Ideal S128 .f32) : refOut x g W b = Cert.Gcn.outR x g W b :=
  refOut_of_aggv x g W b fun i c f =>
    aggv_eq x g W i c f (fun i' c' => dis_node g i' c') (fun i' r f' => xwv_apply x W i' r f')

end Cert.Gcn.Ref

end
-- ==== Proof.lean ====
/-
  The certificate of the graph-convolution kernel against its edge-list reference.

  Both programs compute, for each of 128 batches over one shared 64-node graph, the layer
  y = max (Ŝ · (x · W) + b, 0) + x with Ŝ c r = (w r c + [c = r]) · deg c ^ (-1/2) · deg r ^ (-1/2) and
  deg c = ∑_r w r c + 1. The kernel forms Ŝ densely from the graph's entries and applies it as a matrix (two
  batches at a time through a block-diagonal copy, whose off-diagonal zero blocks contribute products with zero);
  the reference lists the graph's nonzero entries as edges, adds a self loop per node, and accumulates one message
  per edge. The specification (Spec) states each arrangement as a function of the argument arrays; the kernel's run
  ends at the first, the reference's at the second, and on a graph of zeros and ones — which the precondition
  asserts — the two are equal (Bridge), because the entry's value is then the edge's indicator and the product
  distributes over sums of non-negative extended reals.
-/
import proofs.«172550_g12077448036551_cont_sun_c4_50_16_alg».proof.Defs
import proofs.«172550_g12077448036551_cont_sun_c4_50_16_alg».proof.Proof.Gen.Kernel
import proofs.«172550_g12077448036551_cont_sun_c4_50_16_alg».proof.Proof.Gen.Kernel.Skeleton
import proofs.«172550_g12077448036551_cont_sun_c4_50_16_alg».proof.Proof.Gen.Kernel.Launch
import proofs.«172550_g12077448036551_cont_sun_c4_50_16_alg».proof.Proof.Gen.Kernel.Points
import proofs.«172550_g12077448036551_cont_sun_c4_50_16_alg».proof.Proof.Gen.Kernel.Frame
import proofs.«172550_g12077448036551_cont_sun_c4_50_16_alg».proof.Proof.Gen.KernelIdeal
import proofs.«172550_g12077448036551_cont_sun_c4_50_16_alg».proof.Proof.Gen.KernelIdeal.Skeleton
import proofs.«172550_g12077448036551_cont_sun_c4_50_16_alg».proof.Proof.Gen.KernelIdeal.Launch
import proofs.«172550_g12077448036551_cont_sun_c4_50_16_alg».proof.Proof.Gen.KernelIdeal.Points
import proofs.«172550_g12077448036551_cont_sun_c4_50_16_alg».proof.Proof.Gen.KernelIdeal.Frame
import proofs.«172550_g12077448036551_cont_sun_c4_50_16_alg».proof.Proof.Gen.KernelIdeal.Value
import proofs.«172550_g12077448036551_cont_sun_c4_50_16_alg».proof.Proof.Gen.ReferenceIdeal
import proofs.«172550_g12077448036551_cont_sun_c4_50_16_alg».proof.Proof.Gen.Pre_finite_inputs
import Idealize.ShloMosaic.Adequacy
import Idealize.ShloMosaic.Init

import proofs.«172550_g12077448036551_cont_sun_c4_50_16_alg».proof.Proof.Spec
import proofs.«172550_g12077448036551_cont_sun_c4_50_16_alg».proof.Proof.Bridge
import proofs.«172550_g12077448036551_cont_sun_c4_50_16_alg».proof.Proof.Pre01
import proofs.«172550_g12077448036551_cont_sun_c4_50_16_alg».proof.Proof.KernelRun
import proofs.«172550_g12077448036551_cont_sun_c4_50_16_alg».proof.Proof.RefRun
import proofs.«172550_g12077448036551_cont_sun_c4_50_16_alg».proof.Proof.RefOut

noncomputable section

namespace Cert.Proof

open Idealize.ShloMosaic Idealize.SL.Sem

/-- The word-level kernel runs and leaves its arguments unchanged: the generated frame. -/
theorem frame_k [Cert.Kernel.Facts] [Cert.Pre_finite_inputs.Facts] : Cert.frame_Kernel :=
  fun m ρ _ => Cert.Kernel.Gen.frame m ρ

/-- The idealized kernel runs and leaves its arguments unchanged: the generated frame. -/
theorem frame_ki [Cert.KernelIdeal.Facts] [Cert.Pre_finite_inputs.Facts] : Cert.frame_KernelIdeal :=
  fun m ρ _ => Cert.KernelIdeal.Gen.frame m ρ

/-- The idealized reference runs and leaves its arguments unchanged: its run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.Gcn.Ref.run m ρ)

/-- From memories agreeing on the arguments both idealized programs end with the same output array: the kernel's
    run ends at the operator arrangement of the layer, the reference's at the edge-by-edge arrangement of the same
    arguments, and the precondition makes the graph one of zeros and ones, on which the two arrangements agree. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.Gcn.KernelSide.run m ρ, ?_⟩
  refine (θ_run Cert.ReferenceIdeal.defs _ _).mono (fun _ h c => ⟨(h c).1.trans ?_, (h c).2⟩) (Cert.Gcn.Ref.run m' ρ')
  rw [(hagree c).1, (hagree c).2.1, (hagree c).2.2.1, (hagree c).2.2.2, Cert.Gcn.Ref.refOut_eq]
  exact (Cert.Gcn.outK_eq_outR _ _ _ _ (Cert.Gcn.graph01_of_pre _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
